-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1024 : Shape := ⟨1, ![1024]⟩
abbrev S4096x1024 : Shape := ⟨2, ![4096, 1024]⟩
abbrev S1024x4096 : Shape := ⟨2, ![1024, 4096]⟩
abbrev S4096x64 : Shape := ⟨2, ![4096, 64]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S4096x64 .f32) (main_arg5 : FVec F S64x4096 .f32) (main_arg6 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x4096 .f32) (main_arg1 : FVec F S1024 .f32) (main_arg2 : FVec F S4096x1024 .f32) (main_arg3 : FVec F S1024x4096 .f32) (main_arg4 : FVec F S4096x64 .f32) (main_arg5 : FVec F S64x4096 .f32) (main_arg6 : FVec F S1024 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S4x4096x4096 : Shape := ⟨3, ![4, 4096, 4096]⟩
abbrev S1024 : Shape := ⟨1, ![1024]⟩
abbrev S4096x1024 : Shape := ⟨2, ![4096, 1024]⟩
abbrev S1024x4096 : Shape := ⟨2, ![1024, 4096]⟩
abbrev S4096x64 : Shape := ⟨2, ![4096, 64]⟩
abbrev S64x4096 : Shape := ⟨2, ![64, 4096]⟩
abbrev S_ : Shape := ⟨0, ![]⟩
abbrev S64 : Shape := ⟨1, ![64]⟩
abbrev S1088 : Shape := ⟨1, ![1088]⟩
abbrev S1152 : Shape := ⟨1, ![1152]⟩
abbrev S1x1152 : Shape := ⟨2, ![1, 1152]⟩
abbrev S1088x4096 : Shape := ⟨2, ![1088, 4096]⟩
abbrev S1152x4096 : Shape := ⟨2, ![1152, 4096]⟩
abbrev S4096x1088 : Shape := ⟨2, ![4096, 1088]⟩
abbrev S4096x1152 : Shape := ⟨2, ![4096, 1152]⟩
abbrev S16384x4096 : Shape := ⟨2, ![16384, 4096]⟩
abbrev S16384x1152 : Shape := ⟨2, ![16384, 1152]⟩
abbrev S1024x512 : Shape := ⟨2, ![1024, 512]⟩
abbrev S1152x512 : Shape := ⟨2, ![1152, 512]⟩
abbrev S1024x1152 : Shape := ⟨2, ![1024, 1152]⟩
abbrev S1024x1024 : Shape := ⟨2, ![1024, 1024]⟩

abbrev nBuf : Space → Nat
  | .hbm => 30
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S4096x64, .f32⟩
  | .hbm, ⟨5, _⟩ => ⟨S64x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S64, .f32⟩
  | .hbm, ⟨11, _⟩ => ⟨S1088, .f32⟩
  | .hbm, ⟨12, _⟩ => ⟨S_, .i32⟩
  | .hbm, ⟨13, _⟩ => ⟨S_, .f32⟩
  | .hbm, ⟨14, _⟩ => ⟨S1152, .f32⟩
  | .hbm, ⟨15, _⟩ => ⟨S1x1152, .f32⟩
  | .hbm, ⟨16, _⟩ => ⟨S1088x4096, .f32⟩
  | .hbm, ⟨17, _⟩ => ⟨S_, .i32⟩
  | .hbm, ⟨18, _⟩ => ⟨S_, .f32⟩
  | .hbm, ⟨19, _⟩ => ⟨S1152x4096, .f32⟩
  | .hbm, ⟨20, _⟩ => ⟨S1152x4096, .bf16⟩
  | .hbm, ⟨21, _⟩ => ⟨S4096x1088, .f32⟩
  | .hbm, ⟨22, _⟩ => ⟨S_, .i32⟩
  | .hbm, ⟨23, _⟩ => ⟨S_, .f32⟩
  | .hbm, ⟨24, _⟩ => ⟨S4096x1152, .f32⟩
  | .hbm, ⟨25, _⟩ => ⟨S4096x1152, .bf16⟩
  | .hbm, ⟨26, _⟩ => ⟨S16384x4096, .f32⟩
  | .hbm, ⟨27, _⟩ => ⟨S16384x1152, .bf16⟩
  | .hbm, ⟨28, _⟩ => ⟨S16384x4096, .f32⟩
  | .hbm, ⟨29, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S1152x512, .bf16⟩
  | .local _ .vmem, ⟨3, _⟩ => ⟨S1152x512, .bf16⟩
  | .local _ .vmem, ⟨4, _⟩ => ⟨S1x1152, .f32⟩
  | .local _ .vmem, ⟨5, _⟩ => ⟨S1024x1152, .bf16⟩
  | .local _ .vmem, ⟨6, _⟩ => ⟨S1024x1152, .bf16⟩
  | .local _ .vmem, ⟨7, _⟩ => ⟨S1024x1152, .f32⟩
  | .local _ .vmem, ⟨8, _⟩ => ⟨S1024x1152, .bf16⟩
  | .local _ .vmem, ⟨9, _⟩ => ⟨S1024x1152, .bf16⟩
  | .local _ .vmem, ⟨10, _⟩ => ⟨S1024x1152, .bf16⟩
  | .local _ .vmem, ⟨11, _⟩ => ⟨S1024x1152, .bf16⟩
  | .local _ .vmem, ⟨12, _⟩ => ⟨S1024x1024, .f32⟩
  | .local _ .vmem, ⟨13, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1152 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S64 : S_.BroadcastsInDim S64 (![] : Fin 0 → Fin S64.rank)
  concatenates_S1024_S64_S1088_d0 : Shape.Concatenates [S1024, S64] S1088 0
  pads_S1088_S1152_0640 : S1088.Pads (![0] : Fin 1 → Nat) ![64] ![0] S1152
  h_S_ : 0 < S_.numel
  shapeCasts_S1152_S1x1152 : S1152.ShapeCasts S1x1152
  concatenates_S1024x4096_S64x4096_S1088x4096_d0 : Shape.Concatenates [S1024x4096, S64x4096] S1088x4096 0
  pads_S1088x4096_S1152x4096_0640_000 : S1088x4096.Pads (![0, 0] : Fin 2 → Nat) ![64, 0] ![0, 0] S1152x4096
  bitsLt_bf16_f32 : FTy.bits .bf16 < FTy.bits .f32
  concatenates_S4096x1024_S4096x64_S4096x1088_d1 : Shape.Concatenates [S4096x1024, S4096x64] S4096x1088 1
  pads_S4096x1088_S4096x1152_000_0640 : S4096x1088.Pads (![0, 0] : Fin 2 → Nat) ![0, 64] ![0, 0] S4096x1152
  shapeCasts_S4x4096x4096_S16384x4096 : S4x4096x4096.ShapeCasts S16384x4096
  inb_S1024x1152_S1024x1152_0_0 : ∀ a, (![0, 0] : Fin 2 → Nat) a + S1024x1152.size a ≤ S1024x1152.size a
  h_S1024x1152 : 0 < S1024x1152.numel
  shapeCasts_S1024x1152_S1024x1152 : S1024x1152.ShapeCasts S1024x1152
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1152x512_S1152x512_0_0 : ∀ a, (![0, 0] : Fin 2 → Nat) a + S1152x512.size a ≤ S1152x512.size a
  h_S1152x512 : 0 < S1152x512.numel
  shapeCasts_S1152x512_S1152x512 : S1152x512.ShapeCasts S1152x512
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1024x1152 : S1x1152.Broadcasts S1024x1152
  packedbf16_S1024x1152_S1024x1152_0_0 : (Rect.unit (s := S1024x1152) ![0, 0] S1024x1152.size inb_S1024x1152_S1024x1152_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S16384x4096_S4x4096x4096 : S16384x4096.ShapeCasts S4x4096x4096
  dot_S1024x512_S1152x512_S1024x1152_1_1_0_0_n_n_wf : DotDims.WF S1024x512 S1152x512 S1024x1152 [1] [1] [0] [0] [] []
  dot_S1024x1152_S1024x1152_S1024x1024_1_1_0_0_n_n_wf : DotDims.WF S1024x1152 S1024x1152 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x512.size a ≤ S1152x4096.size a
  hwx0_1 : ∀ i : grid0.Coords, EltTy.bits .bf16 = 32 ∨ (Rect.block (s := S1152x4096) S1152x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1152.size a ≤ S1x1152.size a
  hwx0_2 : ∀ i : grid0.Coords, EltTy.bits .f32 = 32 ∨ (Rect.block (s := S1x1152) S1x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1152.size a ≤ S16384x1152.size a
  hwx0_3 : ∀ i : grid0.Coords, EltTy.bits .bf16 = 32 ∨ (Rect.block (s := S16384x1152) S1024x1152.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1152.size a ≤ S16384x1152.size a
  hwx1_0 : ∀ i : grid1.Coords, EltTy.bits .bf16 = 32 ∨ (Rect.block (s := S16384x1152) S1024x1152.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1152.size a ≤ S4096x1152.size a
  hwx1_1 : ∀ i : grid1.Coords, EltTy.bits .bf16 = 32 ∨ (Rect.block (s := S4096x1152) S1024x1152.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x4096.size a
  hwx1_2 : ∀ i : grid1.Coords, EltTy.bits .f32 = 32 ∨ (Rect.block (s := S16384x4096) S1024x1024.size (cc1_transform_2 i) (hinb1_2 i)).WholeWords (EltTy.packing .f32)

variable [Facts₀]

def dot_S1024x512_S1152x512_S1024x1152_1_1_0_0_n_n : DotDims S1024x512 S1152x512 S1024x1152 where
  lhsContracting := [1]
  rhsContracting := [1]
  lhsNonContracting := [0]
  rhsNonContracting := [0]
  lhsBatch := []
  rhsBatch := []
  wf := dot_S1024x512_S1152x512_S1024x1152_1_1_0_0_n_n_wf
def dot_S1024x1152_S1024x1152_S1024x1024_1_1_0_0_n_n : DotDims S1024x1152 S1024x1152 S1024x1024 where
  lhsContracting := [1]
  rhsContracting := [1]
  lhsNonContracting := [0]
  rhsNonContracting := [0]
  lhsBatch := []
  rhsBatch := []
  wf := dot_S1024x1152_S1024x1152_S1024x1024_1_1_0_0_n_n_wf

abbrev win0_0 : Pipeline.Window sig grid0 :=
  Pipeline.Window.ofSpec (Memref.whole main_v12) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1152x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1152.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S1024x1152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S1024 : Shape := ⟨1, ![1024]⟩
abbrev S4096x1024 : Shape := ⟨2, ![4096, 1024]⟩
abbrev S1024x4096 : Shape := ⟨2, ![1024, 4096]⟩
abbrev S4096x64 : Shape := ⟨2, ![4096, 64]⟩
abbrev S64x4096 : Shape := ⟨2, ![64, 4096]⟩
abbrev S1x1024 : Shape := ⟨2, ![1, 1024]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S4096x64, .f32⟩
  | .hbm, ⟨5, _⟩ => ⟨S64x4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x64_S64x4096_S4096x4096_1_0_0_1_n_n_wf : DotDims.WF S4096x64 S64x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KStage1Base.lean ====
/-
  The first launch: t = (x · Vcᵀ) * sc, accumulated over the contraction axis.  The grid is 16 row blocks by 8
  contraction blocks, the contraction block k moving fastest.  At k = 0 the body zeroes a [1024,1152] accumulator
  it keeps in a scratch buffer of its own; at every k it adds the product of the point's [1024,512] block of x and
  [1152,512] block of Vc to it; at k = 7 it multiplies the accumulator by the scale row and stores the result as
  the point's block of t.  This file holds what the three kinds of point share, at any float instance and at a
  PARAMETER V (the buffer contents the launch finds): each window's block at a point, the two branch conditions
  in closed form over the grid, where the output window is idle, the memrefs, and the launch's scoped rest split
  into the accumulator and the other buffers.
-/
import proofs.«171262_j71159018160311_2_alg».proof.Proof.Gen.Kernel.Launch
import proofs.«171262_j71159018160311_2_alg».proof.Proof.Gen.Kernel.Skeleton
import proofs.«171262_j71159018160311_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-- The block of window w's array that grid point t of the first launch works on, read off the entry contents. -/
def blk1 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- An input window's staging buffer holds the point's block whether or not it was fetched at this point: the x
    window, -/
theorem fed1_x {c : Dev nD} (dat : Dat τ (Elt F) Unit ℕ (UR sig nD τ) ℕ cfg0 c)
    (hA : dat.A 0 = V c (Pipeline.arrRef spec0 0)) (hkeep : ∀ t, dat.after 0 t = blk1 V c 0 t)
    (t : Fin cfg0.N) (d) : dat.before 0 t d = blk1 V c 0 t := by
  refine (dat.before_in_eq_fetched 0 rfl (fun _ => rfl) (fun _ _ _ => rfl) (fun t => ?_) t d).trans ?_
  · rw [hkeep]; unfold Dat.blockOf blk1; rw [hA]; try rfl
  · unfold Dat.fetched Dat.blockOf blk1; rw [hA]; try rfl

/-- the Vc window, -/
theorem fed1_v {c : Dev nD} (dat : Dat τ (Elt F) Unit ℕ (UR sig nD τ) ℕ cfg0 c)
    (hA : dat.A 1 = V c (Pipeline.arrRef spec0 1)) (hkeep : ∀ t, dat.after 1 t = blk1 V c 1 t)
    (t : Fin cfg0.N) (d) : dat.before 1 t d = blk1 V c 1 t := by
  refine (dat.before_in_eq_fetched 1 rfl (fun _ => rfl) (fun _ _ _ => rfl) (fun t => ?_) t d).trans ?_
  · rw [hkeep]; unfold Dat.blockOf blk1; rw [hA]; try rfl
  · unfold Dat.fetched Dat.blockOf blk1; rw [hA]; try rfl

/-- and the scale row's window (one block, fetched once). -/
theorem fed1_s {c : Dev nD} (dat : Dat τ (Elt F) Unit ℕ (UR sig nD τ) ℕ cfg0 c)
    (hA : dat.A 2 = V c (Pipeline.arrRef spec0 2)) (hkeep : ∀ t, dat.after 2 t = blk1 V c 2 t)
    (t : Fin cfg0.N) (d) : dat.before 2 t d = blk1 V c 2 t := by
  refine (dat.before_in_eq_fetched 2 rfl (fun _ => rfl) (fun _ _ _ => rfl) (fun t => ?_) t d).trans ?_
  · rw [hkeep]; unfold Dat.blockOf blk1; rw [hA]; try rfl
  · unfold Dat.fetched Dat.blockOf blk1; rw [hA]; try rfl

end AtEntry

/-! ## The two branch conditions over the grid -/

/-- "The contraction block is the first": the condition of the body's first branch, as the kernel computes it. -/
abbrev isFirst (i : grid0.Coords) : Prop :=
  (Scalar.cmpi .ne (Scalar.extui (Scalar.cmpi .eq (BitVec.ofNat 32 (i 1).val) 0#32)) 0#32) = 1#1
/-- It holds exactly at the points whose position is 0 modulo 8. -/
theorem isFirst_iff : ∀ t : Fin cfg0.N, isFirst (grid0.coords t) ↔ t.val % 8 = 0 :=
  (by decide +kernel : ∀ t : Fin grid0.N, isFirst (grid0.coords t) ↔ t.val % 8 = 0)

/-- "The contraction block is the last": the condition of the body's second branch. -/
abbrev isLast (i : grid0.Coords) : Prop := k0_cond2 i = 1#1
/-- It holds exactly at the points whose position is 7 modulo 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live1_x : ∀ t : Fin cfg0.N, cfg0.idle 0 (grid0.coords t) = false := by decide +kernel
theorem live1_v : ∀ t : Fin cfg0.N, cfg0.idle 1 (grid0.coords t) = false := by decide +kernel
theorem live1_s : ∀ t : Fin cfg0.N, cfg0.idle 2 (grid0.coords t) = false := by decide +kernel
/-- Away from the last contraction block the t window is idle (nothing is stored into it) -/
theorem idle1_t : ∀ t : Fin cfg0.N, ¬isLast (grid0.coords t) → cfg0.idle 3 (grid0.coords t) = true := by decide +kernel
/-- and its block is not written back there; -/
theorem keep1_t : ∀ t : Fin cfg0.N, ¬isLast (grid0.coords t) → (cfg0.win 3).flush t = false := by decide +kernel
/-- at the last contraction block it is live. -/
theorem live1_t : ∀ t : Fin cfg0.N, isLast (grid0.coords t) → cfg0.idle 3 (grid0.coords t) = false := by decide +kernel

/-! ## The memrefs the body is called with -/

abbrev mx (t : Fin cfg0.N) : Memref sig .tc .vmem S1024x512 .f32 := win0_0.stage (cfg0.slots t 0)
abbrev hmx (t : Fin cfg0.N) : (mx t).IsWhole := hstage0_0 ((cfg0.slots t 0).cast nbuf0_0)
abbrev mv (t : Fin cfg0.N) : Memref sig .tc .vmem S1152x512 .bf16 := win0_1.stage (cfg0.slots t 1)
abbrev hmv (t : Fin cfg0.N) : (mv t).IsWhole := hstage0_1 ((cfg0.slots t 1).cast nbuf0_1)
abbrev ms (t : Fin cfg0.N) : Memref sig .tc .vmem S1x1152 .f32 := win0_2.stage (cfg0.slots t 2)
abbrev hms (t : Fin cfg0.N) : (ms t).IsWhole := hstage0_2 ((cfg0.slots t 2).cast nbuf0_2)
abbrev mt (t : Fin cfg0.N) : Memref sig .tc .vmem S1024x1152 .bf16 := win0_3.stage (cfg0.slots t 3)
abbrev hmt (t : Fin cfg0.N) : (mt t).IsWhole := hstage0_3 ((cfg0.slots t 3).cast nbuf0_3)
/-- The accumulator: a whole scoped buffer of the kernel's own. -/
abbrev accM : Memref sig .tc .vmem S1024x1152 .f32 := Memref.whole cc0_scratch0
abbrev accV : View sig .tc .vmem S1024x1152 .f32 := accM.view
/-- One staging buffer of the t window, through which what is stored into it is read back. -/
abbrev outV : View sig .tc .vmem S1024x1152 .bf16 := (Memref.whole cc0_stg3_0 : Memref sig .tc .vmem S1024x1152 .bf16).view

/-! ## The scoped rest of the first launch: the accumulator and the others -/

/-- The scoped buffers of the first launch other than its staging buffers and the accumulator: the second
    launch's six staging buffers, each whole at some contents. -/
def others1 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the body besides the windows: the accumulator at some contents, the other scoped
    buffers, the generator register. -/
theorem rest1_eq (c : Dev nD) :
    (Pipeline.ΦA spec0 c : sProp 𝕄)
      = iprop(((∃ d, owns (c : Thread nD τ) accM fullShare d) ∗ others1 c) ∗ (∃ r, prngReg c r)) := by
  unfold Pipeline.ΦA; rw [scopedRest0_eq]; unfold others1; simp only [accM, owns_whole]; try rfl

end Cert.Kernel.Hand

end
-- ==== Proof.KStage1First.lean ====
/-
  The first launch's body at a point where the contraction block is the first and not the last: the accumulator
  is zeroed, then the product of the point's two blocks is added to it; nothing is stored into the t window.
  The pieces the accumulator ends with are found by running the body.
-/
import proofs.«171262_j71159018160311_2_alg».proof.Proof.KStage1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a first point, with the body's triple: from the x, Vc and scale
    buffers at contents a, b, s, the t buffer at contents o and the accumulator at anything, the body runs to all
    four unchanged and the accumulator with those pieces written. -/
noncomputable def runFirst (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : isFirst i) (hL : ¬isLast i) (a : Vec F S1024x512 .f32) (b : Vec F S1152x512 .bf16) (s : Vec F S1x1152 .f32) :
    { LS : List (View.Piece (Elt F) S1024x1152 .f32) //
      ∀ (o : Vec F S1024x1152 .bf16) (E : Set ℕ) (K : PUnit → sProp 𝕄),
        iprop(owns (c : Thread nD τ) arg2 fullShare a ∗ owns (c : Thread nD τ) arg3 fullShare b
            ∗ owns (c : Thread nD τ) arg4 fullShare s ∗ owns (c : Thread nD τ) arg5 fullShare o
            ∗ (∃ d, owns (c : Thread nD τ) arg6 fullShare d)
            ∗ (iprop(owns (c : Thread nD τ) arg2 fullShare a ∗ owns (c : Thread nD τ) arg3 fullShare b
                ∗ owns (c : Thread nD τ) arg4 fullShare s ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, fun o E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%fo, %hfo, Ho⟩, ⟨%d, %fc, -, Hc⟩, Hk⟩
    obtain rfl := harg2.eq_unread hfa; obtain rfl := harg3.eq_unread hfb
    obtain rfl := harg4.eq_unread hfs; obtain rfl := harg5.eq_unread hfo
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; isplitr; · ipureintro; exact harg5.read_unread _
      iexact Ho
    iexists _; iexact Hc

end Cert.Kernel.Hand

end
-- ==== Proof.KStage1Mid.lean ====
/-
  The first launch's body at a point where the contraction block is neither the first nor the last: the product
  of the point's two blocks is added to the accumulator the point before left; nothing is stored into the t window.
-/
import proofs.«171262_j71159018160311_2_alg».proof.Proof.KStage1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a middle point, with the body's triple: the accumulator enters at
    the contents acc the point before left. -/
noncomputable def runMid (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : ¬isFirst i) (hL : ¬isLast i) (a : Vec F S1024x512 .f32) (b : Vec F S1152x512 .bf16) (s : Vec F S1x1152 .f32)
    (acc : Vec F S1024x1152 .f32) :
    { LS : List (View.Piece (Elt F) S1024x1152 .f32) //
      ∀ (o : Vec F S1024x1152 .bf16) (E : Set ℕ) (K : PUnit → sProp 𝕄),
        iprop(owns (c : Thread nD τ) arg2 fullShare a ∗ owns (c : Thread nD τ) arg3 fullShare b
            ∗ owns (c : Thread nD τ) arg4 fullShare s ∗ owns (c : Thread nD τ) arg5 fullShare o
            ∗ owns (c : Thread nD τ) arg6 fullShare acc
            ∗ (iprop(owns (c : Thread nD τ) arg2 fullShare a ∗ owns (c : Thread nD τ) arg3 fullShare b
                ∗ owns (c : Thread nD τ) arg4 fullShare s ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, fun o E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%fo, %hfo, Ho⟩, ⟨%fc, %hfc, Hc⟩, Hk⟩
    obtain rfl := harg2.eq_unread hfa; obtain rfl := harg3.eq_unread hfb
    obtain rfl := harg4.eq_unread hfs; obtain rfl := harg5.eq_unread hfo
    obtain rfl := harg6.eq_unread hfc
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; isplitr; · ipureintro; exact harg5.read_unread _
      iexact Ho
    iexists _; iexact Hc

end Cert.Kernel.Hand

end
-- ==== Proof.KStage1Last.lean ====
/-
  The first launch's body at a point where the contraction block is the last and not the first: the product of
  the point's two blocks is added to the accumulator the point before left, and the accumulator times the scale
  row is stored whole into the t window.
-/
import proofs.«171262_j71159018160311_2_alg».proof.Proof.KStage1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The t window's and the accumulator's pieces after the body at a last point, with the body's triple. -/
noncomputable def runLast (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : ¬isFirst i) (hL : isLast i) (a : Vec F S1024x512 .f32) (b : Vec F S1152x512 .bf16) (s : Vec F S1x1152 .f32)
    (acc : Vec F S1024x1152 .f32) :
    Σ' (LO : List (View.Piece (Elt F) S1024x1152 .bf16)), { LS : List (View.Piece (Elt F) S1024x1152 .f32) //
      ∀ (E : Set ℕ) (K : PUnit → sProp 𝕄),
        iprop(owns (c : Thread nD τ) arg2 fullShare a ∗ owns (c : Thread nD τ) arg3 fullShare b
            ∗ owns (c : Thread nD τ) arg4 fullShare s ∗ (∃ d, owns (c : Thread nD τ) arg5 fullShare d)
            ∗ owns (c : Thread nD τ) arg6 fullShare acc
            ∗ (iprop(owns (c : Thread nD τ) arg2 fullShare a ∗ owns (c : Thread nD τ) arg3 fullShare b
                ∗ owns (c : Thread nD τ) arg4 fullShare s
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, ?_, fun E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%d, %fo, -, Ho⟩, ⟨%fc, %hfc, Hc⟩, Hk⟩
    obtain rfl := harg2.eq_unread hfa; obtain rfl := harg3.eq_unread hfb
    obtain rfl := harg4.eq_unread hfs; obtain rfl := harg6.eq_unread hfc
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; iexact Ho
    iexists _; iexact Hc

end Cert.Kernel.Hand

end
-- ==== Proof.KStage1.lean ====
/-
  The first launch, point by point.  The accumulator after grid position n: at a position that is 0 modulo 8 it is
  what a first point leaves (zero plus the product of the point's blocks); elsewhere what a middle or last point
  leaves over the accumulator of position n - 1.  The t window's buffer after a position that is 7 modulo 8 is what
  the last point stores (the accumulator times the scale row); elsewhere nothing is stored into it.  From these:
  the invariant between points (the accumulator at its named contents beside the other scoped buffers), the
  per-point data, and the body obligation.  At any float instance, at a PARAMETER V for the entry contents.
-/
import proofs.«171262_j71159018160311_2_alg».proof.Proof.KStage1First
import proofs.«171262_j71159018160311_2_alg».proof.Proof.KStage1Mid
import proofs.«171262_j71159018160311_2_alg».proof.Proof.KStage1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## What each kind of point leaves -/

/-- The accumulator after a first point: the pieces its run found, read back. -/
def accFirst (c : Dev nD) (t : Fin cfg0.N) (h0 : t.val % 8 = 0) (h7 : ¬t.val % 8 = 7) : Vec F S1024x1152 .f32 :=
  accV.read (Elt F) (accV.writes (Elt F) accV.junk (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1)

theorem accFirst_cover (c : Dev nD) (t : Fin cfg0.N) (h0 : t.val % 8 = 0) (h7 : ¬t.val % 8 = 7) (y : S1024x1152.Idx) :
    ∃ pc ∈ (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1, y ∈ pc.1.set :=
  View.cover_of_tiledL (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1 S1024x1152.size (by sl_kernel_rfl) y

/-- The accumulator after a middle point, over the accumulator acc it was entered with. -/
def accMid (c : Dev nD) (t : Fin cfg0.N) (h0 : ¬t.val % 8 = 0) (h7 : ¬t.val % 8 = 7) (acc : Vec F S1024x1152 .f32) :
    Vec F S1024x1152 .f32 :=
  accV.read (Elt F) (accV.writes (Elt F) accV.junk (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1)

theorem accMid_cover (c : Dev nD) (t : Fin cfg0.N) (h0 : ¬t.val % 8 = 0) (h7 : ¬t.val % 8 = 7) (acc : Vec F S1024x1152 .f32)
    (y : S1024x1152.Idx) : ∃ pc ∈ (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1, y ∈ pc.1.set :=
  View.cover_of_tiledL (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1 S1024x1152.size (by sl_kernel_rfl) y

/-- The accumulator after a last point, -/
def accLast (c : Dev nD) (t : Fin cfg0.N) (h0 : ¬t.val % 8 = 0) (h7 : t.val % 8 = 7) (acc : Vec F S1024x1152 .f32) :
    Vec F S1024x1152 .f32 :=
  accV.read (Elt F) (accV.writes (Elt F) accV.junk (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1)

theorem accLast_cover (c : Dev nD) (t : Fin cfg0.N) (h0 : ¬t.val % 8 = 0) (h7 : t.val % 8 = 7) (acc : Vec F S1024x1152 .f32)
    (y : S1024x1152.Idx) : ∃ pc ∈ (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1, y ∈ pc.1.set :=
  View.cover_of_tiledL (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1 S1024x1152.size (by sl_kernel_rfl) y

/-- and the t window's buffer after it. -/
def outLast (c : Dev nD) (t : Fin cfg0.N) (h0 : ¬t.val % 8 = 0) (h7 : t.val % 8 = 7) (acc : Vec F S1024x1152 .f32) :
    Vec F S1024x1152 .bf16 :=
  outV.read (Elt F) (outV.writes (Elt F) outV.junk (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1)

theorem outLast_cover (c : Dev nD) (t : Fin cfg0.N) (h0 : ¬t.val % 8 = 0) (h7 : t.val % 8 = 7) (acc : Vec F S1024x1152 .f32)
    (y : S1024x1152.Idx) : ∃ pc ∈ (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1, y ∈ pc.1.set :=
  View.cover_of_tiledL (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1 S1024x1152.size (by sl_kernel_rfl) y

/-! ## The accumulator position by position -/

/-- The accumulator after the body at grid position n. -/
def accAt (c : Dev nD) : (n : ℕ) → n < cfg0.N → Vec F S1024x1152 .f32
  | 0, hn => accFirst V c ⟨0, hn⟩ (Nat.zero_mod _) (by simp)
  | n + 1, hn =>
    if h0 : (n + 1) % 8 = 0 then accFirst V c ⟨n + 1, hn⟩ h0 (by dsimp only; omega)
    else if h7 : (n + 1) % 8 = 7 then accLast V c ⟨n + 1, hn⟩ h0 h7 (accAt c n (Nat.lt_of_succ_lt hn))
    else accMid V c ⟨n + 1, hn⟩ h0 h7 (accAt c n (Nat.lt_of_succ_lt hn))

theorem accAt_first (c : Dev nD) (t : Fin cfg0.N) (h0 : t.val % 8 = 0) (h7 : ¬t.val % 8 = 7) :
    accAt V c t.val t.isLt = accFirst V c t h0 h7 := by
  obtain ⟨n, hn⟩ := t
  cases n with
  | zero => rfl
  | succ n => exact (dif_pos h0).trans rfl

theorem accAt_mid (c : Dev nD) (t : Fin cfg0.N) (h0 : ¬t.val % 8 = 0) (h7 : ¬t.val % 8 = 7) :
    accAt V c t.val t.isLt
      = accMid V c t h0 h7 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_last (c : Dev nD) (t : Fin cfg0.N) (h0 : ¬t.val % 8 = 0) (h7 : t.val % 8 = 7) :
    accAt V c t.val t.isLt
      = accLast V c t h0 h7 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- The t window's buffer after the body at point t: what a last point stores; elsewhere nothing is stored, and the
    value stated here is never consulted (the window is idle and not written back there). -/
def outAt (c : Dev nD) (t : Fin cfg0.N) : Vec F S1024x1152 .bf16 :=
  if h7 : t.val % 8 = 7 then
    outLast V c t (by omega) h7 (accAt V c (t.val - 1) (Nat.lt_of_le_of_lt (Nat.sub_le _ _) t.isLt))
  else outV.read (Elt F) outV.junk

theorem outAt_last (c : Dev nD) (t : Fin cfg0.N) (h0 : ¬t.val % 8 = 0) (h7 : t.val % 8 = 7) :
    outAt V c t = outLast V c t h0 h7 (accAt V c (t.val - 1) (Nat.lt_of_le_of_lt (Nat.sub_le _ _) t.isLt)) := by
  unfold outAt; exact dif_pos h7

/-! ## The invariant between points -/

/-- Before position n: at the launch's start what the launch hands over (the accumulator at anything); later the
    accumulator at what position n - 1 left, the other scoped buffers, the generator register. -/
def inv1 (c : Dev nD) : (n : ℕ) → n ≤ cfg0.N → sProp 𝕄
  | 0, _ => Pipeline.ΦA spec0 c
  | n + 1, hn => iprop((owns (c : Thread nD τ) accM fullShare (accAt V c n hn) ∗ others1 c) ∗ (∃ r, prngReg c r))

theorem inv1_zero (c : Dev nD) (n : ℕ) (h : n ≤ cfg0.N) (hz : n = 0) : inv1 V c n h = Pipeline.ΦA spec0 c := by
  subst hz; rfl

theorem inv1_succ (c : Dev nD) (n : ℕ) (hn : n < cfg0.N) :
    inv1 V c (n + 1) hn
      = iprop((owns (c : Thread nD τ) accM fullShare (accAt V c n hn) ∗ others1 c) ∗ (∃ r, prngReg c r)) := rfl

theorem inv1_pos (c : Dev nD) (n : ℕ) (h : n ≤ cfg0.N) (hz : n ≠ 0) :
    inv1 V c n h
      = iprop((owns (c : Thread nD τ) accM fullShare (accAt V c (n - 1) (by omega)) ∗ others1 c) ∗ (∃ r, prngReg c r)) := by
  cases n with
  | zero => exact absurd rfl hz
  | succ n => rfl

/-! ## The per-point data -/

/-- The first launch's data on core c: its arrays as found (V); after the body the three input buffers still hold
    their blocks and the t buffer holds outAt; between points the invariant inv1; nothing owed. -/
def dat1 (c : Dev nD) : Dat τ (Elt F) Unit ℕ (UR sig nD τ) ℕ cfg0 c where
  A w := V c (Pipeline.arrRef spec0 w)
  after w t := match w with
    | ⟨0, _⟩ => blk1 V c 0 t
    | ⟨1, _⟩ => blk1 V c 1 t
    | ⟨2, _⟩ => blk1 V c 2 t
    | ⟨3, _⟩ => outAt V c t
  Φ t := inv1 V c t.val (Nat.le_of_lt_succ t.isLt)
  q _ := fullShare
  owed _ := 0

theorem dat1_A (c : Dev nD) (w : Fin cfg0.W) : (dat1 V c).A w = V c (Pipeline.arrRef spec0 w) := by dsimp only [dat1]
theorem dat1_inv (c : Dev nD) (t : Fin cfg0.N) :
    (dat1 V c).Φ t.castSucc = inv1 V c t.val (Nat.le_of_lt t.isLt) := by
  dsimp only [dat1]; simp only [Fin.coe_castSucc]
theorem dat1_after_x (c : Dev nD) (t : Fin cfg0.N) : (dat1 V c).after 0 t = blk1 V c 0 t := by dsimp only [dat1]
theorem dat1_after_v (c : Dev nD) (t : Fin cfg0.N) : (dat1 V c).after 1 t = blk1 V c 1 t := by dsimp only [dat1]
theorem dat1_after_s (c : Dev nD) (t : Fin cfg0.N) : (dat1 V c).after 2 t = blk1 V c 2 t := by dsimp only [dat1]
theorem dat1_after_t (c : Dev nD) (t : Fin cfg0.N) : (dat1 V c).after 3 t = outAt V c t := by dsimp only [dat1]
theorem dat1_before_x (c : Dev nD) (t : Fin cfg0.N) (d) : (dat1 V c).before 0 t d = blk1 V c 0 t :=
  fed1_x V (dat1 V c) (dat1_A V c 0) (dat1_after_x V c) t d
theorem dat1_before_v (c : Dev nD) (t : Fin cfg0.N) (d) : (dat1 V c).before 1 t d = blk1 V c 1 t :=
  fed1_v V (dat1 V c) (dat1_A V c 1) (dat1_after_v V c) t d
theorem dat1_before_s (c : Dev nD) (t : Fin cfg0.N) (d) : (dat1 V c).before 2 t d = blk1 V c 2 t :=
  fed1_s V (dat1 V c) (dat1_A V c 2) (dat1_after_s V c) t d

/-! ## The body obligation -/

def enter1 (c : Dev nD) (t : Fin cfg0.N) : sProp 𝕄 :=
  iprop((dat1 V c).Φ t.castSucc ∗ (dat1 V c).owesAt () t.castSucc
    ∗ (∃ d, owns (c : Thread nD τ) (mx t) fullShare ((dat1 V c).before 0 t d))
    ∗ (∃ d, owns (c : Thread nD τ) (mv t) fullShare ((dat1 V c).before 1 t d))
    ∗ (∃ d, owns (c : Thread nD τ) (ms t) fullShare ((dat1 V c).before 2 t d))
    ∗ (∃ d, owns (c : Thread nD τ) (mt t) fullShare ((dat1 V c).before 3 t d)))

def leave1 (c : Dev nD) (t : Fin cfg0.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

theorem leaves1_x (c : Dev nD) (t : Fin cfg0.N) :
    (dat1 V c).leavesExact 0 t = owns (c : Thread nD τ) (mx t) fullShare (blk1 V c 0 t) := by
  unfold Dat.leavesExact; rw [live1_x t, dat1_after_x]
theorem leaves1_v (c : Dev nD) (t : Fin cfg0.N) :
    (dat1 V c).leavesExact 1 t = owns (c : Thread nD τ) (mv t) fullShare (blk1 V c 1 t) := by
  unfold Dat.leavesExact; rw [live1_v t, dat1_after_v]
theorem leaves1_s (c : Dev nD) (t : Fin cfg0.N) :
    (dat1 V c).leavesExact 2 t = owns (c : Thread nD τ) (ms t) fullShare (blk1 V c 2 t) := by
  unfold Dat.leavesExact; rw [live1_s t, dat1_after_s]

set_option maxHeartbeats 4000000 in
/-- The body at any point of the first launch: the closed forms say which kind of point it is; the invariant hands
    the body the accumulator (at anything at the very first point, at what the point before left afterwards) and
    takes it back at this point's contents. -/
theorem stage1_point (c : Dev nD) (t : Fin cfg0.N) :
    enter1 V c t ⊢ wp frame (wpE (defs₀ (F := F)) Variants.none c none) Set.univ (bodyAt0 t) (fun _ => leave1 V c t) := by
  unfold enter1 leave1 bodyAt0
  simp only [dat1_before_x, dat1_before_v, dat1_before_s]
  rw [show (dat1 V c).owesAt () t.succ = (dat1 V c).owesAt () t.castSucc from rfl]
  rw [show (dat1 V c).Φ t.succ = inv1 V c (t.val + 1) t.isLt from rfl, inv1_succ]
  rw [leaves1_x, leaves1_v, leaves1_s, dat1_inv]
  by_cases h0 : t.val % 8 = 0
  · have h7 : ¬t.val % 8 = 7 := by omega
    rw [Dat.leavesExact_idle (dat1 V c) 3 t (idle1_t t (fun h => h7 ((isLast_iff t).mp h))) (keep1_t t (fun h => h7 ((isLast_iff t).mp h)))]
    rw [accAt_first V c t h0 h7]
    unfold accFirst
    by_cases hz : t.val = 0
    · rw [inv1_zero V c _ _ hz, rest1_eq]
      iintro ⟨⟨⟨Hc, Hr⟩, Hg⟩, Hw, ⟨%d0, H0⟩, ⟨%d1, H1⟩, ⟨%d2, H2⟩, ⟨%d3, H3⟩⟩
      iapply ((runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).2 _ Set.univ _)
      isplitl [H0]; · iexact H0
      isplitl [H1]; · iexact H1
      isplitl [H2]; · iexact H2
      isplitl [H3]; · iexact H3
      isplitl [Hc]; · iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accFirst_cover V c t h0 h7)
          iexact Hr
        iexact Hg
      isplitl [Hw]; · iexact Hw
      isplitl [H0]; · iexact H0
      isplitl [H1]; · iexact H1
      isplitl [H2]; · iexact H2
      iexists _; iexact H3
    · rw [inv1_pos V c _ _ hz]
      iintro ⟨⟨⟨Hc, Hr⟩, Hg⟩, Hw, ⟨%d0, H0⟩, ⟨%d1, H1⟩, ⟨%d2, H2⟩, ⟨%d3, H3⟩⟩
      iapply ((runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).2 _ Set.univ _)
      isplitl [H0]; · iexact H0
      isplitl [H1]; · iexact H1
      isplitl [H2]; · iexact H2
      isplitl [H3]; · iexact H3
      isplitl [Hc]; · iexists _; iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accFirst_cover V c t h0 h7)
          iexact Hr
        iexact Hg
      isplitl [Hw]; · iexact Hw
      isplitl [H0]; · iexact H0
      isplitl [H1]; · iexact H1
      isplitl [H2]; · iexact H2
      iexists _; iexact H3
  · have hz : t.val ≠ 0 := fun h => h0 (by rw [h])
    rw [inv1_pos V c _ _ hz]
    by_cases h7 : t.val % 8 = 7
    · rw [show (dat1 V c).leavesExact 3 t = owns (c : Thread nD τ) (mt t) fullShare ((dat1 V c).after 3 t) from by
        unfold Dat.leavesExact; rw [live1_t t ((isLast_iff t).mpr h7)], dat1_after_t, outAt_last V c t h0 h7]
      rw [accAt_last V c t h0 h7]
      unfold accLast outLast
      iintro ⟨⟨⟨Hc, Hr⟩, Hg⟩, Hw, ⟨%d0, H0⟩, ⟨%d1, H1⟩, ⟨%d2, H2⟩, ⟨%d3, H3⟩⟩
      iapply ((runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [Hc]; · iexact Hc
      iintro ⟨H0, H1, H2, ⟨%eo, H3⟩, ⟨%e, Hc⟩⟩
      isplitl [Hc Hr Hg]
      · isplitr [Hg]
        · isplitl [Hc]
          · unfold owns; iexists _; isplitr
            swap; · iexact Hc
            ipureintro; exact View.read_writes_of_cover _ _ _ _ _ (accLast_cover V c t h0 h7 _)
          iexact Hr
        iexact Hg
      isplitl [Hw]; · iexact Hw
      isplitl [H0]; · iexact H0
      isplitl [H1]; · iexact H1
      isplitl [H2]; · iexact H2
      unfold owns; iexists _; isplitr
      swap; · iexact H3
      ipureintro; exact View.read_writes_of_cover _ _ _ _ _ (outLast_cover V c t h0 h7 _)
    · rw [Dat.leavesExact_idle (dat1 V c) 3 t (idle1_t t (fun h => h7 ((isLast_iff t).mp h))) (keep1_t t (fun h => h7 ((isLast_iff t).mp h)))]
      rw [accAt_mid V c t h0 h7]
      unfold accMid
      iintro ⟨⟨⟨Hc, Hr⟩, Hg⟩, Hw, ⟨%d0, H0⟩, ⟨%d1, H1⟩, ⟨%d2, H2⟩, ⟨%d3, H3⟩⟩
      iapply ((runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) _).2 _ Set.univ _)
      isplitl [H0]; · iexact H0
      isplitl [H1]; · iexact H1
      isplitl [H2]; · iexact H2
      isplitl [H3]; · iexact H3
      isplitl [Hc]; · iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accMid_cover V c t h0 h7 _)
          iexact Hr
        iexact Hg
      isplitl [Hw]; · iexact Hw
      isplitl [H0]; · iexact H0
      isplitl [H1]; · iexact H1
      isplitl [H2]; · iexact H2
      iexists _; iexact H3

/-- The body obligation of the first launch. -/
theorem stage1_obligation (c : Dev nD) :
    BodyObligation (dat1 (F := F) V c) (defs₀ (F := F)) Variants.none () Set.univ := fun t => by
  rw [bigSep_W0, bigSep_W0]
  exact stage1_point V c t

/-- What the launch hands over is the invariant before the first point, -/
theorem inv1_in (c : Dev nD) : Pipeline.ΦA spec0 c ⊢ (dat1 V c).Φ 0 := by
  rw [show (dat1 V c).Φ 0 = inv1 V c 0 (Nat.zero_le _) from rfl, inv1_zero V c 0 _ rfl]

/-- and after the last point the invariant gives it back, the accumulator's contents forgotten. -/
theorem inv1_out (c : Dev nD) : (dat1 V c).Φ (Fin.last cfg0.N) ⊢ Pipeline.ΦA spec0 c := by
  rw [show (dat1 V c).Φ (Fin.last cfg0.N) = inv1 V c (Fin.last cfg0.N).val (Nat.le_of_lt_succ (Fin.last cfg0.N).isLt) from rfl,
    inv1_pos V c _ _ (by rw [Fin.val_last]; have : cfg0.N = 128 := N_0; omega), rest1_eq]
  iintro ⟨⟨Hc, Hr⟩, Hg⟩
  isplitr [Hg]
  · isplitl [Hc]
    · iexists _; iexact Hc
    iexact Hr
  iexact Hg

end AtEntry

end Cert.Kernel.Hand

end
-- ==== Proof.KStage2.lean ====
/-
  The second launch: out = t · Ucᵀ, one grid point per (row block, column block) pair.  At a point the body reads a
  [1024,1152] block of t and a [1024,1152] block of Uc, contracts their second axes and stores the [1024,1024]
  product whole.  Nothing is kept between points.  Stated at any float instance and at a PARAMETER V, the buffer
  contents the launch finds: the block each window holds at a point, what the body leaves in the output's staging
  buffer as a function of the two input blocks, the body's triple, the per-point data and the body obligation.
-/
import proofs.«171262_j71159018160311_2_alg».proof.Proof.Gen.Kernel.Launch
import proofs.«171262_j71159018160311_2_alg».proof.Proof.Gen.Kernel.Skeleton
import proofs.«171262_j71159018160311_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-- The block of window w's array that grid point t of the second launch works on, read off the entry contents. -/
def blk2 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The t window's staging buffer holds the point's block of t whether or not it was fetched at this point
    (it is fetched only when the row block changes; in between the block index does not move). -/
theorem fed2_t {c : Dev nD} (dat : Dat τ (Elt F) Unit ℕ (UR sig nD τ) ℕ cfg1 c)
    (hA : dat.A 0 = V c (Pipeline.arrRef spec1 0)) (hkeep : ∀ t, dat.after 0 t = blk2 V c 0 t)
    (t : Fin cfg1.N) (d) : dat.before 0 t d = blk2 V c 0 t := by
  refine (dat.before_in_eq_fetched 0 rfl (fun _ => rfl) (fun _ _ _ => rfl) (fun t => ?_) t d).trans ?_
  · rw [hkeep]; unfold Dat.blockOf blk2; rw [hA]; try rfl
  · unfold Dat.fetched Dat.blockOf blk2; rw [hA]; try rfl

/-- The same for the Uc window (fetched at every point). -/
theorem fed2_u {c : Dev nD} (dat : Dat τ (Elt F) Unit ℕ (UR sig nD τ) ℕ cfg1 c)
    (hA : dat.A 1 = V c (Pipeline.arrRef spec1 1)) (hkeep : ∀ t, dat.after 1 t = blk2 V c 1 t)
    (t : Fin cfg1.N) (d) : dat.before 1 t d = blk2 V c 1 t := by
  refine (dat.before_in_eq_fetched 1 rfl (fun _ => rfl) (fun _ _ _ => rfl) (fun t => ?_) t d).trans ?_
  · rw [hkeep]; unfold Dat.blockOf blk2; rw [hA]; try rfl
  · unfold Dat.fetched Dat.blockOf blk2; rw [hA]; try rfl

end AtEntry

/-- The whole [1024,1152] block as a rectangle, and the whole [1024,1024] block. -/
abbrev wholeIn2 : Rect S1024x1152 := Rect.unit (s := S1024x1152) ![0, 0] S1024x1152.size inb_S1024x1152_S1024x1152_0_0
abbrev wholeOut2 : Rect S1024x1024 := Rect.unit (s := S1024x1024) ![0, 0] S1024x1024.size inb_S1024x1024_S1024x1024_0_0

/-- What the body leaves in the output's staging buffer: its one whole store of the product of the two blocks. -/
def prod2 (a b : Vec F S1024x1152 .bf16) : Vec F S1024x1024 .f32 :=
  View.canon [⟨wholeOut2, k1_pay1 (View.ld a wholeIn2) (View.ld b wholeIn2)⟩]

/-- The one store covers the output block. -/
theorem prod2_cover (p : Vec F S1024x1024 .f32) (y : S1024x1024.Idx) :
    ∃ pc ∈ ([⟨wholeOut2, p⟩] : List (View.Piece (Elt F) S1024x1024 .f32)), y ∈ pc.1.set :=
  View.cover_of_tiled [⟨wholeOut2, p⟩] S1024x1024.size (by rfl) y

set_option maxHeartbeats 1000000 in
/-- The body's triple: from the two input buffers at contents a, b and the output buffer at anything, it runs to
    the inputs unchanged and the output at prod2 a b. -/
theorem stage2_triple (c : Dev nD) (E : Set ℕ) (i : grid1.Coords)
    (arg2 : Memref sig .tc .vmem S1024x1152 .bf16) (harg2 : arg2.IsWhole)
    (arg3 : Memref sig .tc .vmem S1024x1152 .bf16) (harg3 : arg3.IsWhole)
    (arg4 : Memref sig .tc .vmem S1024x1024 .f32) (harg4 : arg4.IsWhole)
    (a b : Vec F S1024x1152 .bf16) (K : PUnit → sProp 𝕄) :
    iprop(owns (c : Thread nD τ) arg2 fullShare a ∗ owns (c : Thread nD τ) arg3 fullShare b
        ∗ (∃ d, owns (c : Thread nD τ) arg4 fullShare d)
        ∗ (iprop(owns (c : Thread nD τ) arg2 fullShare a ∗ owns (c : Thread nD τ) arg3 fullShare b
            ∗ owns (c : Thread nD τ) arg4 fullShare (prod2 a b)) -∗ K ⟨⟩))
      ⊢ wp frame (wpE (defs₀ (F := F)) Variants.none c none) E (cc1__stage2_kernel i arg2 harg2 arg3 harg3 arg4 harg4) K := by
  simp only [cc1__stage2_kernel_eq_skeleton]; unfold cc1__stage2_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (prod2_cover _)

section AtEntry

variable (V : (c : Dev nD) → (b : Ref sig .tc) → Buf (Elt F) ((c : Thread nD τ).loc b))

/-- The per-point data of the second launch on core c: its arrays as found (V); after the body the two input
    buffers still hold their blocks and the output buffer holds the product of the two; nothing else is kept. -/
def dat2 (c : Dev nD) : Dat τ (Elt F) Unit ℕ (UR sig nD τ) ℕ cfg1 c where
  A w := V c (Pipeline.arrRef spec1 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec1 c
  q _ := fullShare
  owed _ := 0

theorem dat2_A (c : Dev nD) (w : Fin cfg1.W) : (dat2 V c).A w = V c (Pipeline.arrRef spec1 w) := by dsimp only [dat2]
theorem dat2_after_t (c : Dev nD) (t : Fin cfg1.N) : (dat2 V c).after 0 t = blk2 V c 0 t := by dsimp only [dat2]
theorem dat2_after_u (c : Dev nD) (t : Fin cfg1.N) : (dat2 V c).after 1 t = blk2 V c 1 t := by dsimp only [dat2]
theorem dat2_after_o (c : Dev nD) (t : Fin cfg1.N) :
    (dat2 V c).after 2 t = prod2 (blk2 V c 0 t) (blk2 V c 1 t) := by dsimp only [dat2]

theorem dat2_before_t (c : Dev nD) (t : Fin cfg1.N) (d) : (dat2 V c).before 0 t d = blk2 V c 0 t :=
  fed2_t V (dat2 V c) (dat2_A V c 0) (dat2_after_t V c) t d
theorem dat2_before_u (c : Dev nD) (t : Fin cfg1.N) (d) : (dat2 V c).before 1 t d = blk2 V c 1 t :=
  fed2_u V (dat2 V c) (dat2_A V c 1) (dat2_after_u V c) t d

/-- What the body is entered with at point t, window by window, -/
def enter2 (c : Dev nD) (t : Fin cfg1.N) : sProp 𝕄 :=
  iprop((dat2 V c).Φ t.castSucc ∗ (dat2 V c).owesAt () t.castSucc
    ∗ (∃ d, owns (c : Thread nD τ) (st1_0 t) fullShare ((dat2 V c).before 0 t d))
    ∗ (∃ d, owns (c : Thread nD τ) (st1_1 t) fullShare ((dat2 V c).before 1 t d))
    ∗ (∃ d, owns (c : Thread nD τ) (st1_2 t) fullShare ((dat2 V c).before 2 t d)))

/-- and what it must leave. -/
def leave2 (c : Dev nD) (t : Fin cfg1.N) : sProp 𝕄 :=
  iprop((dat2 V c).Φ t.succ ∗ (dat2 V c).owesAt () t.succ
    ∗ owns (c : Thread nD τ) (st1_0 t) fullShare ((dat2 V c).after 0 t)
    ∗ owns (c : Thread nD τ) (st1_1 t) fullShare ((dat2 V c).after 1 t)
    ∗ owns (c : Thread nD τ) (st1_2 t) fullShare ((dat2 V c).after 2 t))

/-- The body at any point of the second launch. -/
theorem stage2_point (c : Dev nD) (t : Fin cfg1.N) :
    enter2 V c t ⊢ wp frame (wpE (defs₀ (F := F)) Variants.none c none) Set.univ (bodyAt1 t) (fun _ => leave2 V c t) := by
  unfold enter2 leave2 bodyAt1
  simp only [dat2_before_t, dat2_before_u]
  rw [show (dat2 V c).Φ t.succ = (dat2 V c).Φ t.castSucc from rfl,
    show (dat2 V c).owesAt () t.succ = (dat2 V c).owesAt () t.castSucc from rfl,
    dat2_after_t, dat2_after_u, dat2_after_o]
  iintro ⟨HΦ, Hw, ⟨%d0, H0⟩, ⟨%d1, H1⟩, ⟨%d2, H2⟩⟩
  iapply (stage2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The body obligation of the second launch. -/
theorem stage2_obligation (c : Dev nD) :
    BodyObligation (dat2 (F := F) V c) (defs₀ (F := F)) Variants.none () Set.univ := fun t => by
  rw [bigSep_W1, bigSep_W1]
  exact stage2_point V c t

end AtEntry

end Cert.Kernel.Hand

end
-- ==== Proof.KRun.lean ====
/-
  The whole program, from the launch to the return.  The buffer contents at each boundary between @main's items are a
  fold from the launch memory: each stretch of host operations applied in turn; after the first launch its arrays
  at what its write-backs leave (t at the blocks the last contraction points stored, its inputs as found); after
  the second launch likewise (the product array at the blocks its points stored); then the closing reshape.  Each
  launch is entered from the unscoped buffers held at the boundary's contents, beside the generator register and a
  core that owes nothing, and left at the next boundary's contents.  Every weakly fair execution terminates, and
  the final memory holds every unscoped buffer at the last boundary's contents — in particular every argument
  array as launched, and the result array at the fold's value.  At any float instance.
-/
import proofs.«171262_j71159018160311_2_alg».proof.Proof.KStage1
import proofs.«171262_j71159018160311_2_alg».proof.Proof.KStage2
import proofs.«171262_j71159018160311_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries around the two launches -/

/-- What the first launch finds, read at the TensorCore's references. -/
abbrev found1 : (c : Dev nD) → (b : Ref sig .tc) → Buf (Elt F) ((c : Thread nD τ).loc b) := fun c b => Gen.V7 m c b

/-- After the first launch: its arrays at what the pipeline leaves, every other buffer as found. -/
def W8 (c : Dev nD) : Valuation τ sig (Elt F) :=
  Pipeline.withArrays spec0 c (Gen.V7 m c) fun w => (dat1 (found1 m) c).arrAt w cfg0.N

/-- What the second launch finds. -/
abbrev found2 : (c : Dev nD) → (b : Ref sig .tc) → Buf (Elt F) ((c : Thread nD τ).loc b) := fun c b => W8 m c b

/-- After the second launch. -/
def W9 (c : Dev nD) : Valuation τ sig (Elt F) :=
  Pipeline.withArrays spec1 c (W8 m c) fun w => (dat2 (found2 m) c).arrAt w cfg1.N

/-- After the closing reshape: the contents the program returns with. -/
abbrev W10 (c : Dev nD) : Valuation τ sig (Elt F) := StableHlo.after hostOps2 (W9 m c)

theorem W8_arr (c : Dev nD) (w : Fin cfg0.W) :
    W8 m c (Proc.devRef .tc (Pipeline.arrRef spec0 w)) = (dat1 (found1 m) c).arrAt w cfg0.N := by
  unfold W8; exact Pipeline.withArrays_arr spec0 launch0.win.arr_inj c _ _ w
theorem W8_off (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
theorem W9_arr (c : Dev nD) (w : Fin cfg1.W) :
    W9 m c (Proc.devRef .tc (Pipeline.arrRef spec1 w)) = (dat2 (found2 m) c).arrAt w cfg1.N := by
  unfold W9; exact Pipeline.withArrays_arr spec1 launch1.win.arr_inj c _ _ w
theorem W9_off (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb

/-! ## Every launch's data, and what rides beside the buffers -/

/-- Both launches' per-point data, each at what its launch finds. -/
def pdats : (p : Fin 2) → (c : Dev nD) → Dat τ (Elt F) Unit ℕ (UR sig nD τ) ℕ (Pipeline.pin (pcfgs (F := F)) Gen.adm p) c
  | ⟨0, _⟩ => fun c => dat1 (found1 m) c
  | ⟨1, _⟩ => fun c => dat2 (found2 m) c

abbrev noVar : Variants := Variants.none
abbrev noPairs : GSem nD τ sig → Finset Unit := fun _ => ∅
abbrev noLevel : GSem nD τ sig → Unit → ℕ := fun _ _ => 0

/-- Beside the buffers, through every item: the generator register at some state and a core that owes nothing. -/
abbrev beside (c : Dev nD) : sProp 𝕄 :=
  iprop((∃ r, prngReg c r) ∗ ∃ W, owes (c : Thread nD τ) (0 : CellTallies nD τ sig Unit) W)

abbrev besideAll : Fin 3 → Dev nD → sProp 𝕄 := fun _ c => beside c

/-- The closing reshape as an item, from the contents the second launch leaves. -/
abbrev closing : Pipeline.HostSeg (Name := ℕ) (U := UR sig nD τ) (pcfgs (F := F)) defs₀ noVar noPairs noLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W9 m) beside

/-! ## The two launches as items -/

set_option backward.isDefEq.respectTransparency.types false in
/-- The first launch: entered with every unscoped buffer at what the host operations before it leave, left with
    them at W8.  Its arrays are split out of the unscoped buffers and put back at their final contents; the
    generator register goes into the invariant and comes back; the accumulator lives inside the invariant. -/
def launch1 : Pipeline.RegionSeg (pcfgs (F := F)) Gen.adm (pdats m) () defs₀ noVar noPairs noLevel 0 where
  win := launch0.win.to₀
  block_pos := launch0.block_pos
  stage_whole := launch0.stage_whole
  K := PEmpty
  osem k := k.elim
  ho := Pipeline.OwnSemFacts.none _
  hbody c := (stage1_obligation (found1 m) c).loose
  hwaits := Pipeline.hwaits_of_owed_zero _ _ _ _ noPairs noLevel 0 fun _ _ => rfl
  pre c := iprop(StableHlo.held (c : Thread nD τ) (Pipeline.ucRefs τ sig) (Gen.V7 m c) ∗ beside c)
  post c := iprop(StableHlo.held (c : Thread nD τ) (Pipeline.ucRefs τ sig) (W8 m c) ∗ beside c)
  X c := iprop(∃ r, prngReg c r)
  Y c := iprop(∃ r, prngReg c r)
  Z c := Pipeline.unscopedRest (Ix := Unit) (Name := ℕ) (U := UR sig nD τ) (Lvl := ℕ) spec0 c (found1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (found1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (inv1_in (found1 m) c)
    unfold Pipeline.ΦA
    iintro ⟨Hreg, -, Hsc⟩
    isplitl [Hsc]; · iexact Hsc
    iexact Hreg
  hout c := by
    rw [Pipeline.ownSems0_none]
    refine BIBase.Entails.trans (inv1_out (found1 m) c) ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (found1 m c) (found2 m c) ((pdats m 0 c).arrAt · cfg0.N) (fun w => (W8_arr m c w).symm)
      (fun b hb => W8_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The second launch: entered with every unscoped buffer at W8, left with them at W9; nothing kept in its
    invariant beyond the scoped rest and the generator register. -/
def launch2 : Pipeline.RegionSeg (pcfgs (F := F)) Gen.adm (pdats m) () defs₀ noVar noPairs noLevel 1 where
  win := Gen.launch1.win.to₀
  block_pos := Gen.launch1.block_pos
  stage_whole := Gen.launch1.stage_whole
  K := PEmpty
  osem k := k.elim
  ho := Pipeline.OwnSemFacts.none _
  hbody c := (stage2_obligation (found2 m) c).loose
  hwaits := Pipeline.hwaits_of_owed_zero _ _ _ _ noPairs noLevel 1 fun _ _ => rfl
  pre c := iprop(StableHlo.held (c : Thread nD τ) (Pipeline.ucRefs τ sig) (W8 m c) ∗ beside c)
  post c := iprop(StableHlo.held (c : Thread nD τ) (Pipeline.ucRefs τ sig) (W9 m c) ∗ beside c)
  X c := iprop(∃ r, prngReg c r)
  Y c := iprop(∃ r, prngReg c r)
  Z c := Pipeline.unscopedRest (Ix := Unit) (Name := ℕ) (U := UR sig nD τ) (Lvl := ℕ) spec1 c (found2 m c)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (found2 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (found2 m c) (fun b => W9 m c b) ((pdats m 1 c).arrAt · cfg1.N) (fun w => (W9_arr m c w).symm)
      (fun b hb => W9_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as its items, and the run -/

/-- @main's ten items in order: the seven stretches of host operations before the launches (from the launch
    memory on), the two launches, the closing reshape. -/
abbrev items : List (Pipeline.Seg (pcfgs (F := F)) Gen.adm (pdats m) () defs₀ noVar noPairs noLevel) :=
  [ .host (Gen.seg0 m noVar noPairs noLevel besideAll), .host (Gen.seg1 m noVar noPairs noLevel besideAll),
    .host (Gen.seg2 m noVar noPairs noLevel besideAll), .host (Gen.seg3 m noVar noPairs noLevel besideAll),
    .host (Gen.seg4 m noVar noPairs noLevel besideAll), .host (Gen.seg5 m noVar noPairs noLevel besideAll),
    .host (Gen.seg6 m noVar noPairs noLevel besideAll),
    .region (launch1 m), .region (launch2 m), .host (closing m) ]

/-- @main is the run of its items. -/
theorem main_items (c : Dev nD) : main (F := F) c = Pipeline.Seg.run (items m) :=
  (main_chain c).trans (by rw [Pipeline.Seg.run_eq_chain]; rfl)

/-- An unscoped TensorCore reference is one of those the boundaries hold. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of @main terminates without a fault,
    and the final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) Gen.adm (pdats m) () cellOf_inj emb₁ defs₀ noVar noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ beside c) ⊢ _
        iintro ⟨Hh, Hreg, Howes⟩
        isplitr [Howes]
        · isplitl [Hh]; · iexact Hh
          iexact Hreg
        iexact Howes⟩)
    (hinit := by
      refine Pipeline.initEach noPairs noLevel fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, Howes, -, Hreg, -⟩, -⟩
      imodintro
      isplitl [Hh]; · iexact Hh
      isplitl [Hreg]; · iexists _; iexact Hreg
      iexists ∅; iexact Howes)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.KRunPosts.lean ====
/-
  What the run's final memory says of the arrays the claims speak of.  Each argument array is written by no host
  operation and is no output of either launch, so the fold of contents through @main's items gives it back as
  launched; the frame claim's post follows.  The result array is the closing reshape's; the run names it.
-/
import proofs.«171262_j71159018160311_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no host operation writes it and no launch may change it. -/
theorem W10_arg0 (c : Dev nD) : W10 m c main_arg0 = m ((c : Thread nD τ).loc main_arg0) :=
  (StableHlo.after_of_writes_sub hostOps2 _ Gen.hostOps2_writes (by decide : main_arg0 ∉ Gen.hostOps2_W)).trans <|
  (W9_off m c main_arg0 (by decide)).trans <| (W8_off m c main_arg0 (by decide)).trans <|
  (Gen.V7_of m c main_arg0 (by decide)).trans <| (Gen.V6_of m c main_arg0 (by decide)).trans <|
  (Gen.V5_of m c main_arg0 (by decide)).trans <| (Gen.V4_of m c main_arg0 (by decide)).trans <|
  (Gen.V3_of m c main_arg0 (by decide)).trans <| (Gen.V2_of m c main_arg0 (by decide)).trans <|
  (Gen.V1_of m c main_arg0 (by decide)).trans rfl

/-- Argument 1 reaches the end as launched: no host operation writes it and no launch may change it. -/
theorem W10_arg1 (c : Dev nD) : W10 m c main_arg1 = m ((c : Thread nD τ).loc main_arg1) :=
  (StableHlo.after_of_writes_sub hostOps2 _ Gen.hostOps2_writes (by decide : main_arg1 ∉ Gen.hostOps2_W)).trans <|
  (W9_off m c main_arg1 (by decide)).trans <| (W8_off m c main_arg1 (by decide)).trans <|
  (Gen.V7_of m c main_arg1 (by decide)).trans <| (Gen.V6_of m c main_arg1 (by decide)).trans <|
  (Gen.V5_of m c main_arg1 (by decide)).trans <| (Gen.V4_of m c main_arg1 (by decide)).trans <|
  (Gen.V3_of m c main_arg1 (by decide)).trans <| (Gen.V2_of m c main_arg1 (by decide)).trans <|
  (Gen.V1_of m c main_arg1 (by decide)).trans rfl

/-- Argument 2 reaches the end as launched: no host operation writes it and no launch may change it. -/
theorem W10_arg2 (c : Dev nD) : W10 m c main_arg2 = m ((c : Thread nD τ).loc main_arg2) :=
  (StableHlo.after_of_writes_sub hostOps2 _ Gen.hostOps2_writes (by decide : main_arg2 ∉ Gen.hostOps2_W)).trans <|
  (W9_off m c main_arg2 (by decide)).trans <| (W8_off m c main_arg2 (by decide)).trans <|
  (Gen.V7_of m c main_arg2 (by decide)).trans <| (Gen.V6_of m c main_arg2 (by decide)).trans <|
  (Gen.V5_of m c main_arg2 (by decide)).trans <| (Gen.V4_of m c main_arg2 (by decide)).trans <|
  (Gen.V3_of m c main_arg2 (by decide)).trans <| (Gen.V2_of m c main_arg2 (by decide)).trans <|
  (Gen.V1_of m c main_arg2 (by decide)).trans rfl

/-- Argument 3 reaches the end as launched: no host operation writes it and no launch may change it. -/
theorem W10_arg3 (c : Dev nD) : W10 m c main_arg3 = m ((c : Thread nD τ).loc main_arg3) :=
  (StableHlo.after_of_writes_sub hostOps2 _ Gen.hostOps2_writes (by decide : main_arg3 ∉ Gen.hostOps2_W)).trans <|
  (W9_off m c main_arg3 (by decide)).trans <| (W8_off m c main_arg3 (by decide)).trans <|
  (Gen.V7_of m c main_arg3 (by decide)).trans <| (Gen.V6_of m c main_arg3 (by decide)).trans <|
  (Gen.V5_of m c main_arg3 (by decide)).trans <| (Gen.V4_of m c main_arg3 (by decide)).trans <|
  (Gen.V3_of m c main_arg3 (by decide)).trans <| (Gen.V2_of m c main_arg3 (by decide)).trans <|
  (Gen.V1_of m c main_arg3 (by decide)).trans rfl

/-- Argument 4 reaches the end as launched: no host operation writes it and no launch may change it. -/
theorem W10_arg4 (c : Dev nD) : W10 m c main_arg4 = m ((c : Thread nD τ).loc main_arg4) :=
  (StableHlo.after_of_writes_sub hostOps2 _ Gen.hostOps2_writes (by decide : main_arg4 ∉ Gen.hostOps2_W)).trans <|
  (W9_off m c main_arg4 (by decide)).trans <| (W8_off m c main_arg4 (by decide)).trans <|
  (Gen.V7_of m c main_arg4 (by decide)).trans <| (Gen.V6_of m c main_arg4 (by decide)).trans <|
  (Gen.V5_of m c main_arg4 (by decide)).trans <| (Gen.V4_of m c main_arg4 (by decide)).trans <|
  (Gen.V3_of m c main_arg4 (by decide)).trans <| (Gen.V2_of m c main_arg4 (by decide)).trans <|
  (Gen.V1_of m c main_arg4 (by decide)).trans rfl

/-- Argument 5 reaches the end as launched: no host operation writes it and no launch may change it. -/
theorem W10_arg5 (c : Dev nD) : W10 m c main_arg5 = m ((c : Thread nD τ).loc main_arg5) :=
  (StableHlo.after_of_writes_sub hostOps2 _ Gen.hostOps2_writes (by decide : main_arg5 ∉ Gen.hostOps2_W)).trans <|
  (W9_off m c main_arg5 (by decide)).trans <| (W8_off m c main_arg5 (by decide)).trans <|
  (Gen.V7_of m c main_arg5 (by decide)).trans <| (Gen.V6_of m c main_arg5 (by decide)).trans <|
  (Gen.V5_of m c main_arg5 (by decide)).trans <| (Gen.V4_of m c main_arg5 (by decide)).trans <|
  (Gen.V3_of m c main_arg5 (by decide)).trans <| (Gen.V2_of m c main_arg5 (by decide)).trans <|
  (Gen.V1_of m c main_arg5 (by decide)).trans rfl

/-- Argument 6 reaches the end as launched: no host operation writes it and no launch may change it. -/
theorem W10_arg6 (c : Dev nD) : W10 m c main_arg6 = m ((c : Thread nD τ).loc main_arg6) :=
  (StableHlo.after_of_writes_sub hostOps2 _ Gen.hostOps2_writes (by decide : main_arg6 ∉ Gen.hostOps2_W)).trans <|
  (W9_off m c main_arg6 (by decide)).trans <| (W8_off m c main_arg6 (by decide)).trans <|
  (Gen.V7_of m c main_arg6 (by decide)).trans <| (Gen.V6_of m c main_arg6 (by decide)).trans <|
  (Gen.V5_of m c main_arg6 (by decide)).trans <| (Gen.V4_of m c main_arg6 (by decide)).trans <|
  (Gen.V3_of m c main_arg6 (by decide)).trans <| (Gen.V2_of m c main_arg6 (by decide)).trans <|
  (Gen.V1_of m c main_arg6 (by decide)).trans rfl

/-- THE RUN, read at the arrays the claims name: the result array at the fold's value, every argument as launched. -/
theorem run_named : θ_run defs (onTc (τ := τ) (main (F := F))) ⟨m, fun _ => 0, ρ⟩ (fun r => ∀ c : Dev nD,
      r.2.mem ((c.tc : Thread nD τ).loc main_v15) = W10 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (held_ref main_v15 (by decide)),
     (h c _ (held_ref main_arg0 (by decide))).trans (W10_arg0 m c),
     (h c _ (held_ref main_arg1 (by decide))).trans (W10_arg1 m c),
     (h c _ (held_ref main_arg2 (by decide))).trans (W10_arg2 m c),
     (h c _ (held_ref main_arg3 (by decide))).trans (W10_arg3 m c),
     (h c _ (held_ref main_arg4 (by decide))).trans (W10_arg4 m c),
     (h c _ (held_ref main_arg5 (by decide))).trans (W10_arg5 m c),
     (h c _ (held_ref main_arg6 (by decide))).trans (W10_arg6 m c)⟩) (run_all m ρ)

/-- THE FRAME: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.Kernel.Hand

end
-- ==== Proof.Stage1Base.lean ====
/-
  The first launch: t = (x · Vcᵀ) * sc, accumulated over the contraction axis.  The grid is 16 row blocks by 8
  contraction blocks, the contraction block k moving fastest.  At k = 0 the body zeroes a [1024,1152] accumulator
  it keeps in a scratch buffer of its own; at every k it adds the product of the point's [1024,512] block of x and
  [1152,512] block of Vc to it; at k = 7 it multiplies the accumulator by the scale row and stores the result as
  the point's block of t.  This file holds what the three kinds of point share, at any float instance and at a
  PARAMETER V (the buffer contents the launch finds): each window's block at a point, the two branch conditions
  in closed form over the grid, where the output window is idle, the memrefs, and the launch's scoped rest split
  into the accumulator and the other buffers.
-/
import proofs.«171262_j71159018160311_2_alg».proof.Proof.Gen.KernelIdeal.Launch
import proofs.«171262_j71159018160311_2_alg».proof.Proof.Gen.KernelIdeal.Skeleton
import proofs.«171262_j71159018160311_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-- The block of window w's array that grid point t of the first launch works on, read off the entry contents. -/
def blk1 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- An input window's staging buffer holds the point's block whether or not it was fetched at this point: the x
    window, -/
theorem fed1_x {c : Dev nD} (dat : Dat τ (Elt F) Unit ℕ (UR sig nD τ) ℕ cfg0 c)
    (hA : dat.A 0 = V c (Pipeline.arrRef spec0 0)) (hkeep : ∀ t, dat.after 0 t = blk1 V c 0 t)
    (t : Fin cfg0.N) (d) : dat.before 0 t d = blk1 V c 0 t := by
  refine (dat.before_in_eq_fetched 0 rfl (fun _ => rfl) (fun _ _ _ => rfl) (fun t => ?_) t d).trans ?_
  · rw [hkeep]; unfold Dat.blockOf blk1; rw [hA]; try rfl
  · unfold Dat.fetched Dat.blockOf blk1; rw [hA]; try rfl

/-- the Vc window, -/
theorem fed1_v {c : Dev nD} (dat : Dat τ (Elt F) Unit ℕ (UR sig nD τ) ℕ cfg0 c)
    (hA : dat.A 1 = V c (Pipeline.arrRef spec0 1)) (hkeep : ∀ t, dat.after 1 t = blk1 V c 1 t)
    (t : Fin cfg0.N) (d) : dat.before 1 t d = blk1 V c 1 t := by
  refine (dat.before_in_eq_fetched 1 rfl (fun _ => rfl) (fun _ _ _ => rfl) (fun t => ?_) t d).trans ?_
  · rw [hkeep]; unfold Dat.blockOf blk1; rw [hA]; try rfl
  · unfold Dat.fetched Dat.blockOf blk1; rw [hA]; try rfl

/-- and the scale row's window (one block, fetched once). -/
theorem fed1_s {c : Dev nD} (dat : Dat τ (Elt F) Unit ℕ (UR sig nD τ) ℕ cfg0 c)
    (hA : dat.A 2 = V c (Pipeline.arrRef spec0 2)) (hkeep : ∀ t, dat.after 2 t = blk1 V c 2 t)
    (t : Fin cfg0.N) (d) : dat.before 2 t d = blk1 V c 2 t := by
  refine (dat.before_in_eq_fetched 2 rfl (fun _ => rfl) (fun _ _ _ => rfl) (fun t => ?_) t d).trans ?_
  · rw [hkeep]; unfold Dat.blockOf blk1; rw [hA]; try rfl
  · unfold Dat.fetched Dat.blockOf blk1; rw [hA]; try rfl

end AtEntry

/-! ## The two branch conditions over the grid -/

/-- "The contraction block is the first": the condition of the body's first branch, as the kernel computes it. -/
abbrev isFirst (i : grid0.Coords) : Prop :=
  (Scalar.cmpi .ne (Scalar.extui (Scalar.cmpi .eq (BitVec.ofNat 32 (i 1).val) 0#32)) 0#32) = 1#1
/-- It holds exactly at the points whose position is 0 modulo 8. -/
theorem isFirst_iff : ∀ t : Fin cfg0.N, isFirst (grid0.coords t) ↔ t.val % 8 = 0 :=
  (by decide +kernel : ∀ t : Fin grid0.N, isFirst (grid0.coords t) ↔ t.val % 8 = 0)

/-- "The contraction block is the last": the condition of the body's second branch. -/
abbrev isLast (i : grid0.Coords) : Prop := k0_cond2 i = 1#1
/-- It holds exactly at the points whose position is 7 modulo 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live1_x : ∀ t : Fin cfg0.N, cfg0.idle 0 (grid0.coords t) = false := by decide +kernel
theorem live1_v : ∀ t : Fin cfg0.N, cfg0.idle 1 (grid0.coords t) = false := by decide +kernel
theorem live1_s : ∀ t : Fin cfg0.N, cfg0.idle 2 (grid0.coords t) = false := by decide +kernel
/-- Away from the last contraction block the t window is idle (nothing is stored into it) -/
theorem idle1_t : ∀ t : Fin cfg0.N, ¬isLast (grid0.coords t) → cfg0.idle 3 (grid0.coords t) = true := by decide +kernel
/-- and its block is not written back there; -/
theorem keep1_t : ∀ t : Fin cfg0.N, ¬isLast (grid0.coords t) → (cfg0.win 3).flush t = false := by decide +kernel
/-- at the last contraction block it is live. -/
theorem live1_t : ∀ t : Fin cfg0.N, isLast (grid0.coords t) → cfg0.idle 3 (grid0.coords t) = false := by decide +kernel

/-! ## The memrefs the body is called with -/

abbrev mx (t : Fin cfg0.N) : Memref sig .tc .vmem S1024x512 .f32 := win0_0.stage (cfg0.slots t 0)
abbrev hmx (t : Fin cfg0.N) : (mx t).IsWhole := hstage0_0 ((cfg0.slots t 0).cast nbuf0_0)
abbrev mv (t : Fin cfg0.N) : Memref sig .tc .vmem S1152x512 .bf16 := win0_1.stage (cfg0.slots t 1)
abbrev hmv (t : Fin cfg0.N) : (mv t).IsWhole := hstage0_1 ((cfg0.slots t 1).cast nbuf0_1)
abbrev ms (t : Fin cfg0.N) : Memref sig .tc .vmem S1x1152 .f32 := win0_2.stage (cfg0.slots t 2)
abbrev hms (t : Fin cfg0.N) : (ms t).IsWhole := hstage0_2 ((cfg0.slots t 2).cast nbuf0_2)
abbrev mt (t : Fin cfg0.N) : Memref sig .tc .vmem S1024x1152 .bf16 := win0_3.stage (cfg0.slots t 3)
abbrev hmt (t : Fin cfg0.N) : (mt t).IsWhole := hstage0_3 ((cfg0.slots t 3).cast nbuf0_3)
/-- The accumulator: a whole scoped buffer of the kernel's own. -/
abbrev accM : Memref sig .tc .vmem S1024x1152 .f32 := Memref.whole cc0_scratch0
abbrev accV : View sig .tc .vmem S1024x1152 .f32 := accM.view
/-- One staging buffer of the t window, through which what is stored into it is read back. -/
abbrev outV : View sig .tc .vmem S1024x1152 .bf16 := (Memref.whole cc0_stg3_0 : Memref sig .tc .vmem S1024x1152 .bf16).view

/-! ## The scoped rest of the first launch: the accumulator and the others -/

/-- The scoped buffers of the first launch other than its staging buffers and the accumulator: the second
    launch's six staging buffers, each whole at some contents. -/
def others1 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the body besides the windows: the accumulator at some contents, the other scoped
    buffers, the generator register. -/
theorem rest1_eq (c : Dev nD) :
    (Pipeline.ΦA spec0 c : sProp 𝕄)
      = iprop(((∃ d, owns (c : Thread nD τ) accM fullShare d) ∗ others1 c) ∗ (∃ r, prngReg c r)) := by
  unfold Pipeline.ΦA; rw [scopedRest0_eq]; unfold others1; simp only [accM, owns_whole]; try rfl

end Cert.KernelIdeal.Hand

end
-- ==== Proof.Stage1First.lean ====
/-
  The first launch's body at a point where the contraction block is the first and not the last: the accumulator
  is zeroed, then the product of the point's two blocks is added to it; nothing is stored into the t window.
  The pieces the accumulator ends with are found by running the body.
-/
import proofs.«171262_j71159018160311_2_alg».proof.Proof.Stage1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a first point, with the body's triple: from the x, Vc and scale
    buffers at contents a, b, s, the t buffer at contents o and the accumulator at anything, the body runs to all
    four unchanged and the accumulator with those pieces written. -/
noncomputable def runFirst (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : isFirst i) (hL : ¬isLast i) (a : Vec F S1024x512 .f32) (b : Vec F S1152x512 .bf16) (s : Vec F S1x1152 .f32) :
    { LS : List (View.Piece (Elt F) S1024x1152 .f32) //
      ∀ (o : Vec F S1024x1152 .bf16) (E : Set ℕ) (K : PUnit → sProp 𝕄),
        iprop(owns (c : Thread nD τ) arg2 fullShare a ∗ owns (c : Thread nD τ) arg3 fullShare b
            ∗ owns (c : Thread nD τ) arg4 fullShare s ∗ owns (c : Thread nD τ) arg5 fullShare o
            ∗ (∃ d, owns (c : Thread nD τ) arg6 fullShare d)
            ∗ (iprop(owns (c : Thread nD τ) arg2 fullShare a ∗ owns (c : Thread nD τ) arg3 fullShare b
                ∗ owns (c : Thread nD τ) arg4 fullShare s ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, fun o E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%fo, %hfo, Ho⟩, ⟨%d, %fc, -, Hc⟩, Hk⟩
    obtain rfl := harg2.eq_unread hfa; obtain rfl := harg3.eq_unread hfb
    obtain rfl := harg4.eq_unread hfs; obtain rfl := harg5.eq_unread hfo
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; isplitr; · ipureintro; exact harg5.read_unread _
      iexact Ho
    iexists _; iexact Hc

end Cert.KernelIdeal.Hand

end
-- ==== Proof.Stage1Mid.lean ====
/-
  The first launch's body at a point where the contraction block is neither the first nor the last: the product
  of the point's two blocks is added to the accumulator the point before left; nothing is stored into the t window.
-/
import proofs.«171262_j71159018160311_2_alg».proof.Proof.Stage1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a middle point, with the body's triple: the accumulator enters at
    the contents acc the point before left. -/
noncomputable def runMid (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : ¬isFirst i) (hL : ¬isLast i) (a : Vec F S1024x512 .f32) (b : Vec F S1152x512 .bf16) (s : Vec F S1x1152 .f32)
    (acc : Vec F S1024x1152 .f32) :
    { LS : List (View.Piece (Elt F) S1024x1152 .f32) //
      ∀ (o : Vec F S1024x1152 .bf16) (E : Set ℕ) (K : PUnit → sProp 𝕄),
        iprop(owns (c : Thread nD τ) arg2 fullShare a ∗ owns (c : Thread nD τ) arg3 fullShare b
            ∗ owns (c : Thread nD τ) arg4 fullShare s ∗ owns (c : Thread nD τ) arg5 fullShare o
            ∗ owns (c : Thread nD τ) arg6 fullShare acc
            ∗ (iprop(owns (c : Thread nD τ) arg2 fullShare a ∗ owns (c : Thread nD τ) arg3 fullShare b
                ∗ owns (c : Thread nD τ) arg4 fullShare s ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, fun o E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%fo, %hfo, Ho⟩, ⟨%fc, %hfc, Hc⟩, Hk⟩
    obtain rfl := harg2.eq_unread hfa; obtain rfl := harg3.eq_unread hfb
    obtain rfl := harg4.eq_unread hfs; obtain rfl := harg5.eq_unread hfo
    obtain rfl := harg6.eq_unread hfc
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; isplitr; · ipureintro; exact harg5.read_unread _
      iexact Ho
    iexists _; iexact Hc

end Cert.KernelIdeal.Hand

end
-- ==== Proof.Stage1Last.lean ====
/-
  The first launch's body at a point where the contraction block is the last and not the first: the product of
  the point's two blocks is added to the accumulator the point before left, and the accumulator times the scale
  row is stored whole into the t window.
-/
import proofs.«171262_j71159018160311_2_alg».proof.Proof.Stage1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The t window's and the accumulator's pieces after the body at a last point, with the body's triple. -/
noncomputable def runLast (c : Dev nD) (i : grid0.Coords) (arg2 : Memref sig .tc .vmem S1024x512 .f32) (harg2 : arg2.IsWhole) (arg3 : Memref sig .tc .vmem S1152x512 .bf16) (harg3 : arg3.IsWhole) (arg4 : Memref sig .tc .vmem S1x1152 .f32) (harg4 : arg4.IsWhole) (arg5 : Memref sig .tc .vmem S1024x1152 .bf16) (harg5 : arg5.IsWhole) (arg6 : Memref sig .tc .vmem S1024x1152 .f32) (harg6 : arg6.IsWhole)
    (hF : ¬isFirst i) (hL : isLast i) (a : Vec F S1024x512 .f32) (b : Vec F S1152x512 .bf16) (s : Vec F S1x1152 .f32)
    (acc : Vec F S1024x1152 .f32) :
    Σ' (LO : List (View.Piece (Elt F) S1024x1152 .bf16)), { LS : List (View.Piece (Elt F) S1024x1152 .f32) //
      ∀ (E : Set ℕ) (K : PUnit → sProp 𝕄),
        iprop(owns (c : Thread nD τ) arg2 fullShare a ∗ owns (c : Thread nD τ) arg3 fullShare b
            ∗ owns (c : Thread nD τ) arg4 fullShare s ∗ (∃ d, owns (c : Thread nD τ) arg5 fullShare d)
            ∗ owns (c : Thread nD τ) arg6 fullShare acc
            ∗ (iprop(owns (c : Thread nD τ) arg2 fullShare a ∗ owns (c : Thread nD τ) arg3 fullShare b
                ∗ owns (c : Thread nD τ) arg4 fullShare s
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__stage1_kernel i arg2 harg2 arg3 harg3 arg4 harg4 arg5 harg5 arg6 harg6) K } := by
  refine ⟨?_, ?_, fun E K => ?run⟩
  case run =>
    simp only [cc0__stage1_kernel_eq_skeleton]; unfold cc0__stage1_kernel_skel
    unfold owns
    iintro ⟨⟨%fa, %hfa, Ha⟩, ⟨%fb, %hfb, Hb⟩, ⟨%fs, %hfs, Hs⟩, ⟨%d, %fo, -, Ho⟩, ⟨%fc, %hfc, Hc⟩, Hk⟩
    obtain rfl := harg2.eq_unread hfa; obtain rfl := harg3.eq_unread hfb
    obtain rfl := harg4.eq_unread hfs; obtain rfl := harg6.eq_unread hfc
    sl_exec (disch := first | exact hF | exact hL)
    sl_step
    iapply Hk
    isplitl [Ha]
    · iexists _; isplitr; · ipureintro; exact harg2.read_unread _
      iexact Ha
    isplitl [Hb]
    · iexists _; isplitr; · ipureintro; exact harg3.read_unread _
      iexact Hb
    isplitl [Hs]
    · iexists _; isplitr; · ipureintro; exact harg4.read_unread _
      iexact Hs
    isplitl [Ho]
    · iexists _; iexact Ho
    iexists _; iexact Hc

end Cert.KernelIdeal.Hand

end
-- ==== Proof.Stage1.lean ====
/-
  The first launch, point by point.  The accumulator after grid position n: at a position that is 0 modulo 8 it is
  what a first point leaves (zero plus the product of the point's blocks); elsewhere what a middle or last point
  leaves over the accumulator of position n - 1.  The t window's buffer after a position that is 7 modulo 8 is what
  the last point stores (the accumulator times the scale row); elsewhere nothing is stored into it.  From these:
  the invariant between points (the accumulator at its named contents beside the other scoped buffers), the
  per-point data, and the body obligation.  At any float instance, at a PARAMETER V for the entry contents.
-/
import proofs.«171262_j71159018160311_2_alg».proof.Proof.Stage1First
import proofs.«171262_j71159018160311_2_alg».proof.Proof.Stage1Mid
import proofs.«171262_j71159018160311_2_alg».proof.Proof.Stage1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## What each kind of point leaves -/

/-- The accumulator after a first point: the pieces its run found, read back. -/
def accFirst (c : Dev nD) (t : Fin cfg0.N) (h0 : t.val % 8 = 0) (h7 : ¬t.val % 8 = 7) : Vec F S1024x1152 .f32 :=
  accV.read (Elt F) (accV.writes (Elt F) accV.junk (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1)

theorem accFirst_cover (c : Dev nD) (t : Fin cfg0.N) (h0 : t.val % 8 = 0) (h7 : ¬t.val % 8 = 7) (y : S1024x1152.Idx) :
    ∃ pc ∈ (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1, y ∈ pc.1.set :=
  View.cover_of_tiledL (runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).1 S1024x1152.size (by sl_kernel_rfl) y

/-- The accumulator after a middle point, over the accumulator acc it was entered with. -/
def accMid (c : Dev nD) (t : Fin cfg0.N) (h0 : ¬t.val % 8 = 0) (h7 : ¬t.val % 8 = 7) (acc : Vec F S1024x1152 .f32) :
    Vec F S1024x1152 .f32 :=
  accV.read (Elt F) (accV.writes (Elt F) accV.junk (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1)

theorem accMid_cover (c : Dev nD) (t : Fin cfg0.N) (h0 : ¬t.val % 8 = 0) (h7 : ¬t.val % 8 = 7) (acc : Vec F S1024x1152 .f32)
    (y : S1024x1152.Idx) : ∃ pc ∈ (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1, y ∈ pc.1.set :=
  View.cover_of_tiledL (runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) acc).1 S1024x1152.size (by sl_kernel_rfl) y

/-- The accumulator after a last point, -/
def accLast (c : Dev nD) (t : Fin cfg0.N) (h0 : ¬t.val % 8 = 0) (h7 : t.val % 8 = 7) (acc : Vec F S1024x1152 .f32) :
    Vec F S1024x1152 .f32 :=
  accV.read (Elt F) (accV.writes (Elt F) accV.junk (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1)

theorem accLast_cover (c : Dev nD) (t : Fin cfg0.N) (h0 : ¬t.val % 8 = 0) (h7 : t.val % 8 = 7) (acc : Vec F S1024x1152 .f32)
    (y : S1024x1152.Idx) : ∃ pc ∈ (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1, y ∈ pc.1.set :=
  View.cover_of_tiledL (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).2.1 S1024x1152.size (by sl_kernel_rfl) y

/-- and the t window's buffer after it. -/
def outLast (c : Dev nD) (t : Fin cfg0.N) (h0 : ¬t.val % 8 = 0) (h7 : t.val % 8 = 7) (acc : Vec F S1024x1152 .f32) :
    Vec F S1024x1152 .bf16 :=
  outV.read (Elt F) (outV.writes (Elt F) outV.junk (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1)

theorem outLast_cover (c : Dev nD) (t : Fin cfg0.N) (h0 : ¬t.val % 8 = 0) (h7 : t.val % 8 = 7) (acc : Vec F S1024x1152 .f32)
    (y : S1024x1152.Idx) : ∃ pc ∈ (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1, y ∈ pc.1.set :=
  View.cover_of_tiledL (runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) acc).1 S1024x1152.size (by sl_kernel_rfl) y

/-! ## The accumulator position by position -/

/-- The accumulator after the body at grid position n. -/
def accAt (c : Dev nD) : (n : ℕ) → n < cfg0.N → Vec F S1024x1152 .f32
  | 0, hn => accFirst V c ⟨0, hn⟩ (Nat.zero_mod _) (by simp)
  | n + 1, hn =>
    if h0 : (n + 1) % 8 = 0 then accFirst V c ⟨n + 1, hn⟩ h0 (by dsimp only; omega)
    else if h7 : (n + 1) % 8 = 7 then accLast V c ⟨n + 1, hn⟩ h0 h7 (accAt c n (Nat.lt_of_succ_lt hn))
    else accMid V c ⟨n + 1, hn⟩ h0 h7 (accAt c n (Nat.lt_of_succ_lt hn))

theorem accAt_first (c : Dev nD) (t : Fin cfg0.N) (h0 : t.val % 8 = 0) (h7 : ¬t.val % 8 = 7) :
    accAt V c t.val t.isLt = accFirst V c t h0 h7 := by
  obtain ⟨n, hn⟩ := t
  cases n with
  | zero => rfl
  | succ n => exact (dif_pos h0).trans rfl

theorem accAt_mid (c : Dev nD) (t : Fin cfg0.N) (h0 : ¬t.val % 8 = 0) (h7 : ¬t.val % 8 = 7) :
    accAt V c t.val t.isLt
      = accMid V c t h0 h7 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_last (c : Dev nD) (t : Fin cfg0.N) (h0 : ¬t.val % 8 = 0) (h7 : t.val % 8 = 7) :
    accAt V c t.val t.isLt
      = accLast V c t h0 h7 (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- The t window's buffer after the body at point t: what a last point stores; elsewhere nothing is stored, and the
    value stated here is never consulted (the window is idle and not written back there). -/
def outAt (c : Dev nD) (t : Fin cfg0.N) : Vec F S1024x1152 .bf16 :=
  if h7 : t.val % 8 = 7 then
    outLast V c t (by omega) h7 (accAt V c (t.val - 1) (Nat.lt_of_le_of_lt (Nat.sub_le _ _) t.isLt))
  else outV.read (Elt F) outV.junk

theorem outAt_last (c : Dev nD) (t : Fin cfg0.N) (h0 : ¬t.val % 8 = 0) (h7 : t.val % 8 = 7) :
    outAt V c t = outLast V c t h0 h7 (accAt V c (t.val - 1) (Nat.lt_of_le_of_lt (Nat.sub_le _ _) t.isLt)) := by
  unfold outAt; exact dif_pos h7

/-! ## The invariant between points -/

/-- Before position n: at the launch's start what the launch hands over (the accumulator at anything); later the
    accumulator at what position n - 1 left, the other scoped buffers, the generator register. -/
def inv1 (c : Dev nD) : (n : ℕ) → n ≤ cfg0.N → sProp 𝕄
  | 0, _ => Pipeline.ΦA spec0 c
  | n + 1, hn => iprop((owns (c : Thread nD τ) accM fullShare (accAt V c n hn) ∗ others1 c) ∗ (∃ r, prngReg c r))

theorem inv1_zero (c : Dev nD) (n : ℕ) (h : n ≤ cfg0.N) (hz : n = 0) : inv1 V c n h = Pipeline.ΦA spec0 c := by
  subst hz; rfl

theorem inv1_succ (c : Dev nD) (n : ℕ) (hn : n < cfg0.N) :
    inv1 V c (n + 1) hn
      = iprop((owns (c : Thread nD τ) accM fullShare (accAt V c n hn) ∗ others1 c) ∗ (∃ r, prngReg c r)) := rfl

theorem inv1_pos (c : Dev nD) (n : ℕ) (h : n ≤ cfg0.N) (hz : n ≠ 0) :
    inv1 V c n h
      = iprop((owns (c : Thread nD τ) accM fullShare (accAt V c (n - 1) (by omega)) ∗ others1 c) ∗ (∃ r, prngReg c r)) := by
  cases n with
  | zero => exact absurd rfl hz
  | succ n => rfl

/-! ## The per-point data -/

/-- The first launch's data on core c: its arrays as found (V); after the body the three input buffers still hold
    their blocks and the t buffer holds outAt; between points the invariant inv1; nothing owed. -/
def dat1 (c : Dev nD) : Dat τ (Elt F) Unit ℕ (UR sig nD τ) ℕ cfg0 c where
  A w := V c (Pipeline.arrRef spec0 w)
  after w t := match w with
    | ⟨0, _⟩ => blk1 V c 0 t
    | ⟨1, _⟩ => blk1 V c 1 t
    | ⟨2, _⟩ => blk1 V c 2 t
    | ⟨3, _⟩ => outAt V c t
  Φ t := inv1 V c t.val (Nat.le_of_lt_succ t.isLt)
  q _ := fullShare
  owed _ := 0

theorem dat1_A (c : Dev nD) (w : Fin cfg0.W) : (dat1 V c).A w = V c (Pipeline.arrRef spec0 w) := by dsimp only [dat1]
theorem dat1_inv (c : Dev nD) (t : Fin cfg0.N) :
    (dat1 V c).Φ t.castSucc = inv1 V c t.val (Nat.le_of_lt t.isLt) := by
  dsimp only [dat1]; simp only [Fin.coe_castSucc]
theorem dat1_after_x (c : Dev nD) (t : Fin cfg0.N) : (dat1 V c).after 0 t = blk1 V c 0 t := by dsimp only [dat1]
theorem dat1_after_v (c : Dev nD) (t : Fin cfg0.N) : (dat1 V c).after 1 t = blk1 V c 1 t := by dsimp only [dat1]
theorem dat1_after_s (c : Dev nD) (t : Fin cfg0.N) : (dat1 V c).after 2 t = blk1 V c 2 t := by dsimp only [dat1]
theorem dat1_after_t (c : Dev nD) (t : Fin cfg0.N) : (dat1 V c).after 3 t = outAt V c t := by dsimp only [dat1]
theorem dat1_before_x (c : Dev nD) (t : Fin cfg0.N) (d) : (dat1 V c).before 0 t d = blk1 V c 0 t :=
  fed1_x V (dat1 V c) (dat1_A V c 0) (dat1_after_x V c) t d
theorem dat1_before_v (c : Dev nD) (t : Fin cfg0.N) (d) : (dat1 V c).before 1 t d = blk1 V c 1 t :=
  fed1_v V (dat1 V c) (dat1_A V c 1) (dat1_after_v V c) t d
theorem dat1_before_s (c : Dev nD) (t : Fin cfg0.N) (d) : (dat1 V c).before 2 t d = blk1 V c 2 t :=
  fed1_s V (dat1 V c) (dat1_A V c 2) (dat1_after_s V c) t d

/-! ## The body obligation -/

def enter1 (c : Dev nD) (t : Fin cfg0.N) : sProp 𝕄 :=
  iprop((dat1 V c).Φ t.castSucc ∗ (dat1 V c).owesAt () t.castSucc
    ∗ (∃ d, owns (c : Thread nD τ) (mx t) fullShare ((dat1 V c).before 0 t d))
    ∗ (∃ d, owns (c : Thread nD τ) (mv t) fullShare ((dat1 V c).before 1 t d))
    ∗ (∃ d, owns (c : Thread nD τ) (ms t) fullShare ((dat1 V c).before 2 t d))
    ∗ (∃ d, owns (c : Thread nD τ) (mt t) fullShare ((dat1 V c).before 3 t d)))

def leave1 (c : Dev nD) (t : Fin cfg0.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

theorem leaves1_x (c : Dev nD) (t : Fin cfg0.N) :
    (dat1 V c).leavesExact 0 t = owns (c : Thread nD τ) (mx t) fullShare (blk1 V c 0 t) := by
  unfold Dat.leavesExact; rw [live1_x t, dat1_after_x]
theorem leaves1_v (c : Dev nD) (t : Fin cfg0.N) :
    (dat1 V c).leavesExact 1 t = owns (c : Thread nD τ) (mv t) fullShare (blk1 V c 1 t) := by
  unfold Dat.leavesExact; rw [live1_v t, dat1_after_v]
theorem leaves1_s (c : Dev nD) (t : Fin cfg0.N) :
    (dat1 V c).leavesExact 2 t = owns (c : Thread nD τ) (ms t) fullShare (blk1 V c 2 t) := by
  unfold Dat.leavesExact; rw [live1_s t, dat1_after_s]

set_option maxHeartbeats 4000000 in
/-- The body at any point of the first launch: the closed forms say which kind of point it is; the invariant hands
    the body the accumulator (at anything at the very first point, at what the point before left afterwards) and
    takes it back at this point's contents. -/
theorem stage1_point (c : Dev nD) (t : Fin cfg0.N) :
    enter1 V c t ⊢ wp frame (wpE (defs₀ (F := F)) Variants.none c none) Set.univ (bodyAt0 t) (fun _ => leave1 V c t) := by
  unfold enter1 leave1 bodyAt0
  simp only [dat1_before_x, dat1_before_v, dat1_before_s]
  rw [show (dat1 V c).owesAt () t.succ = (dat1 V c).owesAt () t.castSucc from rfl]
  rw [show (dat1 V c).Φ t.succ = inv1 V c (t.val + 1) t.isLt from rfl, inv1_succ]
  rw [leaves1_x, leaves1_v, leaves1_s, dat1_inv]
  by_cases h0 : t.val % 8 = 0
  · have h7 : ¬t.val % 8 = 7 := by omega
    rw [Dat.leavesExact_idle (dat1 V c) 3 t (idle1_t t (fun h => h7 ((isLast_iff t).mp h))) (keep1_t t (fun h => h7 ((isLast_iff t).mp h)))]
    rw [accAt_first V c t h0 h7]
    unfold accFirst
    by_cases hz : t.val = 0
    · rw [inv1_zero V c _ _ hz, rest1_eq]
      iintro ⟨⟨⟨Hc, Hr⟩, Hg⟩, Hw, ⟨%d0, H0⟩, ⟨%d1, H1⟩, ⟨%d2, H2⟩, ⟨%d3, H3⟩⟩
      iapply ((runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).2 _ Set.univ _)
      isplitl [H0]; · iexact H0
      isplitl [H1]; · iexact H1
      isplitl [H2]; · iexact H2
      isplitl [H3]; · iexact H3
      isplitl [Hc]; · iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accFirst_cover V c t h0 h7)
          iexact Hr
        iexact Hg
      isplitl [Hw]; · iexact Hw
      isplitl [H0]; · iexact H0
      isplitl [H1]; · iexact H1
      isplitl [H2]; · iexact H2
      iexists _; iexact H3
    · rw [inv1_pos V c _ _ hz]
      iintro ⟨⟨⟨Hc, Hr⟩, Hg⟩, Hw, ⟨%d0, H0⟩, ⟨%d1, H1⟩, ⟨%d2, H2⟩, ⟨%d3, H3⟩⟩
      iapply ((runFirst c (grid0.coords t) (mx t) (hmx t) (mv t) (hmv t) (ms t) (hms t) (mt t) (hmt t) accM (Memref.isWhole_whole _) ((isFirst_iff t).mpr h0) (fun h => h7 ((isLast_iff t).mp h)) (blk1 V c 0 t) (blk1 V c 1 t) (blk1 V c 2 t)).2 _ Set.univ _)
      isplitl [H0]; · iexact H0
      isplitl [H1]; · iexact H1
      isplitl [H2]; · iexact H2
      isplitl [H3]; · iexact H3
      isplitl [Hc]; · iexists _; iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accFirst_cover V c t h0 h7)
          iexact Hr
        iexact Hg
      isplitl [Hw]; · iexact Hw
      isplitl [H0]; · iexact H0
      isplitl [H1]; · iexact H1
      isplitl [H2]; · iexact H2
      iexists _; iexact H3
  · have hz : t.val ≠ 0 := fun h => h0 (by rw [h])
    rw [inv1_pos V c _ _ hz]
    by_cases h7 : t.val % 8 = 7
    · rw [show (dat1 V c).leavesExact 3 t = owns (c : Thread nD τ) (mt t) fullShare ((dat1 V c).after 3 t) from by
        unfold Dat.leavesExact; rw [live1_t t ((isLast_iff t).mpr h7)], dat1_after_t, outAt_last V c t h0 h7]
      rw [accAt_last V c t h0 h7]
      unfold accLast outLast
      iintro ⟨⟨⟨Hc, Hr⟩, Hg⟩, Hw, ⟨%d0, H0⟩, ⟨%d1, H1⟩, ⟨%d2, H2⟩, ⟨%d3, H3⟩⟩
      iapply ((runLast c (grid0.coords t) (mx t) (hmx t) (mv t) (hmv t) (ms t) (hms t) (mt t) (hmt t) accM (Memref.isWhole_whole _) (fun h => h0 ((isFirst_iff t).mp h)) ((isLast_iff t).mpr h7) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [Hc]; · iexact Hc
      iintro ⟨H0, H1, H2, ⟨%eo, H3⟩, ⟨%e, Hc⟩⟩
      isplitl [Hc Hr Hg]
      · isplitr [Hg]
        · isplitl [Hc]
          · unfold owns; iexists _; isplitr
            swap; · iexact Hc
            ipureintro; exact View.read_writes_of_cover _ _ _ _ _ (accLast_cover V c t h0 h7 _)
          iexact Hr
        iexact Hg
      isplitl [Hw]; · iexact Hw
      isplitl [H0]; · iexact H0
      isplitl [H1]; · iexact H1
      isplitl [H2]; · iexact H2
      unfold owns; iexists _; isplitr
      swap; · iexact H3
      ipureintro; exact View.read_writes_of_cover _ _ _ _ _ (outLast_cover V c t h0 h7 _)
    · rw [Dat.leavesExact_idle (dat1 V c) 3 t (idle1_t t (fun h => h7 ((isLast_iff t).mp h))) (keep1_t t (fun h => h7 ((isLast_iff t).mp h)))]
      rw [accAt_mid V c t h0 h7]
      unfold accMid
      iintro ⟨⟨⟨Hc, Hr⟩, Hg⟩, Hw, ⟨%d0, H0⟩, ⟨%d1, H1⟩, ⟨%d2, H2⟩, ⟨%d3, H3⟩⟩
      iapply ((runMid c (grid0.coords t) (mx t) (hmx t) (mv t) (hmv t) (ms t) (hms t) (mt t) (hmt t) accM (Memref.isWhole_whole _) (fun h => h0 ((isFirst_iff t).mp h)) (fun h => h7 ((isLast_iff t).mp h)) (blk1 V c 0 t) (blk1 V c 1 t) (blk1 V c 2 t) _).2 _ Set.univ _)
      isplitl [H0]; · iexact H0
      isplitl [H1]; · iexact H1
      isplitl [H2]; · iexact H2
      isplitl [H3]; · iexact H3
      isplitl [Hc]; · iexact Hc
      iintro ⟨H0, H1, H2, H3, ⟨%e, Hc⟩⟩
      isplitl [Hc Hr Hg]
      · isplitr [Hg]
        · isplitl [Hc]
          · unfold owns; iexists _; isplitr
            swap; · iexact Hc
            ipureintro; exact View.read_writes_of_cover _ _ _ _ _ (accMid_cover V c t h0 h7 _)
          iexact Hr
        iexact Hg
      isplitl [Hw]; · iexact Hw
      isplitl [H0]; · iexact H0
      isplitl [H1]; · iexact H1
      isplitl [H2]; · iexact H2
      iexists _; iexact H3

/-- The body obligation of the first launch. -/
theorem stage1_obligation (c : Dev nD) :
    BodyObligation (dat1 (F := F) V c) (defs₀ (F := F)) Variants.none () Set.univ := fun t => by
  rw [bigSep_W0, bigSep_W0]
  exact stage1_point V c t

/-- What the launch hands over is the invariant before the first point, -/
theorem inv1_in (c : Dev nD) : Pipeline.ΦA spec0 c ⊢ (dat1 V c).Φ 0 := by
  rw [show (dat1 V c).Φ 0 = inv1 V c 0 (Nat.zero_le _) from rfl, inv1_zero V c 0 _ rfl]

/-- and after the last point the invariant gives it back, the accumulator's contents forgotten. -/
theorem inv1_out (c : Dev nD) : (dat1 V c).Φ (Fin.last cfg0.N) ⊢ Pipeline.ΦA spec0 c := by
  rw [show (dat1 V c).Φ (Fin.last cfg0.N) = inv1 V c (Fin.last cfg0.N).val (Nat.le_of_lt_succ (Fin.last cfg0.N).isLt) from rfl,
    inv1_pos V c _ _ (by rw [Fin.val_last]; have : cfg0.N = 128 := N_0; omega), rest1_eq]
  iintro ⟨⟨Hc, Hr⟩, Hg⟩
  isplitr [Hg]
  · isplitl [Hc]
    · iexists _; iexact Hc
    iexact Hr
  iexact Hg

end AtEntry

end Cert.KernelIdeal.Hand

end
-- ==== Proof.Stage2.lean ====
/-
  The second launch: out = t · Ucᵀ, one grid point per (row block, column block) pair.  At a point the body reads a
  [1024,1152] block of t and a [1024,1152] block of Uc, contracts their second axes and stores the [1024,1024]
  product whole.  Nothing is kept between points.  Stated at any float instance and at a PARAMETER V, the buffer
  contents the launch finds: the block each window holds at a point, what the body leaves in the output's staging
  buffer as a function of the two input blocks, the body's triple, the per-point data and the body obligation.
-/
import proofs.«171262_j71159018160311_2_alg».proof.Proof.Gen.KernelIdeal.Launch
import proofs.«171262_j71159018160311_2_alg».proof.Proof.Gen.KernelIdeal.Skeleton
import proofs.«171262_j71159018160311_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-- The block of window w's array that grid point t of the second launch works on, read off the entry contents. -/
def blk2 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The t window's staging buffer holds the point's block of t whether or not it was fetched at this point
    (it is fetched only when the row block changes; in between the block index does not move). -/
theorem fed2_t {c : Dev nD} (dat : Dat τ (Elt F) Unit ℕ (UR sig nD τ) ℕ cfg1 c)
    (hA : dat.A 0 = V c (Pipeline.arrRef spec1 0)) (hkeep : ∀ t, dat.after 0 t = blk2 V c 0 t)
    (t : Fin cfg1.N) (d) : dat.before 0 t d = blk2 V c 0 t := by
  refine (dat.before_in_eq_fetched 0 rfl (fun _ => rfl) (fun _ _ _ => rfl) (fun t => ?_) t d).trans ?_
  · rw [hkeep]; unfold Dat.blockOf blk2; rw [hA]; try rfl
  · unfold Dat.fetched Dat.blockOf blk2; rw [hA]; try rfl

/-- The same for the Uc window (fetched at every point). -/
theorem fed2_u {c : Dev nD} (dat : Dat τ (Elt F) Unit ℕ (UR sig nD τ) ℕ cfg1 c)
    (hA : dat.A 1 = V c (Pipeline.arrRef spec1 1)) (hkeep : ∀ t, dat.after 1 t = blk2 V c 1 t)
    (t : Fin cfg1.N) (d) : dat.before 1 t d = blk2 V c 1 t := by
  refine (dat.before_in_eq_fetched 1 rfl (fun _ => rfl) (fun _ _ _ => rfl) (fun t => ?_) t d).trans ?_
  · rw [hkeep]; unfold Dat.blockOf blk2; rw [hA]; try rfl
  · unfold Dat.fetched Dat.blockOf blk2; rw [hA]; try rfl

end AtEntry

/-- The whole [1024,1152] block as a rectangle, and the whole [1024,1024] block. -/
abbrev wholeIn2 : Rect S1024x1152 := Rect.unit (s := S1024x1152) ![0, 0] S1024x1152.size inb_S1024x1152_S1024x1152_0_0
abbrev wholeOut2 : Rect S1024x1024 := Rect.unit (s := S1024x1024) ![0, 0] S1024x1024.size inb_S1024x1024_S1024x1024_0_0

/-- What the body leaves in the output's staging buffer: its one whole store of the product of the two blocks. -/
def prod2 (a b : Vec F S1024x1152 .bf16) : Vec F S1024x1024 .f32 :=
  View.canon [⟨wholeOut2, k1_pay1 (View.ld a wholeIn2) (View.ld b wholeIn2)⟩]

/-- The one store covers the output block. -/
theorem prod2_cover (p : Vec F S1024x1024 .f32) (y : S1024x1024.Idx) :
    ∃ pc ∈ ([⟨wholeOut2, p⟩] : List (View.Piece (Elt F) S1024x1024 .f32)), y ∈ pc.1.set :=
  View.cover_of_tiled [⟨wholeOut2, p⟩] S1024x1024.size (by rfl) y

set_option maxHeartbeats 1000000 in
/-- The body's triple: from the two input buffers at contents a, b and the output buffer at anything, it runs to
    the inputs unchanged and the output at prod2 a b. -/
theorem stage2_triple (c : Dev nD) (E : Set ℕ) (i : grid1.Coords)
    (arg2 : Memref sig .tc .vmem S1024x1152 .bf16) (harg2 : arg2.IsWhole)
    (arg3 : Memref sig .tc .vmem S1024x1152 .bf16) (harg3 : arg3.IsWhole)
    (arg4 : Memref sig .tc .vmem S1024x1024 .f32) (harg4 : arg4.IsWhole)
    (a b : Vec F S1024x1152 .bf16) (K : PUnit → sProp 𝕄) :
    iprop(owns (c : Thread nD τ) arg2 fullShare a ∗ owns (c : Thread nD τ) arg3 fullShare b
        ∗ (∃ d, owns (c : Thread nD τ) arg4 fullShare d)
        ∗ (iprop(owns (c : Thread nD τ) arg2 fullShare a ∗ owns (c : Thread nD τ) arg3 fullShare b
            ∗ owns (c : Thread nD τ) arg4 fullShare (prod2 a b)) -∗ K ⟨⟩))
      ⊢ wp frame (wpE (defs₀ (F := F)) Variants.none c none) E (cc1__stage2_kernel i arg2 harg2 arg3 harg3 arg4 harg4) K := by
  simp only [cc1__stage2_kernel_eq_skeleton]; unfold cc1__stage2_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (prod2_cover _)

section AtEntry

variable (V : (c : Dev nD) → (b : Ref sig .tc) → Buf (Elt F) ((c : Thread nD τ).loc b))

/-- The per-point data of the second launch on core c: its arrays as found (V); after the body the two input
    buffers still hold their blocks and the output buffer holds the product of the two; nothing else is kept. -/
def dat2 (c : Dev nD) : Dat τ (Elt F) Unit ℕ (UR sig nD τ) ℕ cfg1 c where
  A w := V c (Pipeline.arrRef spec1 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec1 c
  q _ := fullShare
  owed _ := 0

theorem dat2_A (c : Dev nD) (w : Fin cfg1.W) : (dat2 V c).A w = V c (Pipeline.arrRef spec1 w) := by dsimp only [dat2]
theorem dat2_after_t (c : Dev nD) (t : Fin cfg1.N) : (dat2 V c).after 0 t = blk2 V c 0 t := by dsimp only [dat2]
theorem dat2_after_u (c : Dev nD) (t : Fin cfg1.N) : (dat2 V c).after 1 t = blk2 V c 1 t := by dsimp only [dat2]
theorem dat2_after_o (c : Dev nD) (t : Fin cfg1.N) :
    (dat2 V c).after 2 t = prod2 (blk2 V c 0 t) (blk2 V c 1 t) := by dsimp only [dat2]

theorem dat2_before_t (c : Dev nD) (t : Fin cfg1.N) (d) : (dat2 V c).before 0 t d = blk2 V c 0 t :=
  fed2_t V (dat2 V c) (dat2_A V c 0) (dat2_after_t V c) t d
theorem dat2_before_u (c : Dev nD) (t : Fin cfg1.N) (d) : (dat2 V c).before 1 t d = blk2 V c 1 t :=
  fed2_u V (dat2 V c) (dat2_A V c 1) (dat2_after_u V c) t d

/-- What the body is entered with at point t, window by window, -/
def enter2 (c : Dev nD) (t : Fin cfg1.N) : sProp 𝕄 :=
  iprop((dat2 V c).Φ t.castSucc ∗ (dat2 V c).owesAt () t.castSucc
    ∗ (∃ d, owns (c : Thread nD τ) (st1_0 t) fullShare ((dat2 V c).before 0 t d))
    ∗ (∃ d, owns (c : Thread nD τ) (st1_1 t) fullShare ((dat2 V c).before 1 t d))
    ∗ (∃ d, owns (c : Thread nD τ) (st1_2 t) fullShare ((dat2 V c).before 2 t d)))

/-- and what it must leave. -/
def leave2 (c : Dev nD) (t : Fin cfg1.N) : sProp 𝕄 :=
  iprop((dat2 V c).Φ t.succ ∗ (dat2 V c).owesAt () t.succ
    ∗ owns (c : Thread nD τ) (st1_0 t) fullShare ((dat2 V c).after 0 t)
    ∗ owns (c : Thread nD τ) (st1_1 t) fullShare ((dat2 V c).after 1 t)
    ∗ owns (c : Thread nD τ) (st1_2 t) fullShare ((dat2 V c).after 2 t))

/-- The body at any point of the second launch. -/
theorem stage2_point (c : Dev nD) (t : Fin cfg1.N) :
    enter2 V c t ⊢ wp frame (wpE (defs₀ (F := F)) Variants.none c none) Set.univ (bodyAt1 t) (fun _ => leave2 V c t) := by
  unfold enter2 leave2 bodyAt1
  simp only [dat2_before_t, dat2_before_u]
  rw [show (dat2 V c).Φ t.succ = (dat2 V c).Φ t.castSucc from rfl,
    show (dat2 V c).owesAt () t.succ = (dat2 V c).owesAt () t.castSucc from rfl,
    dat2_after_t, dat2_after_u, dat2_after_o]
  iintro ⟨HΦ, Hw, ⟨%d0, H0⟩, ⟨%d1, H1⟩, ⟨%d2, H2⟩⟩
  iapply (stage2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-- The body obligation of the second launch. -/
theorem stage2_obligation (c : Dev nD) :
    BodyObligation (dat2 (F := F) V c) (defs₀ (F := F)) Variants.none () Set.univ := fun t => by
  rw [bigSep_W1, bigSep_W1]
  exact stage2_point V c t

end AtEntry

end Cert.KernelIdeal.Hand

end
-- ==== Proof.Run.lean ====
/-
  The whole program, from the launch to the return.  The buffer contents at each boundary between @main's items are a
  fold from the launch memory: each stretch of host operations applied in turn; after the first launch its arrays
  at what its write-backs leave (t at the blocks the last contraction points stored, its inputs as found); after
  the second launch likewise (the product array at the blocks its points stored); then the closing reshape.  Each
  launch is entered from the unscoped buffers held at the boundary's contents, beside the generator register and a
  core that owes nothing, and left at the next boundary's contents.  Every weakly fair execution terminates, and
  the final memory holds every unscoped buffer at the last boundary's contents — in particular every argument
  array as launched, and the result array at the fold's value.  At any float instance.
-/
import proofs.«171262_j71159018160311_2_alg».proof.Proof.Stage1
import proofs.«171262_j71159018160311_2_alg».proof.Proof.Stage2
import proofs.«171262_j71159018160311_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries around the two launches -/

/-- What the first launch finds, read at the TensorCore's references. -/
abbrev found1 : (c : Dev nD) → (b : Ref sig .tc) → Buf (Elt F) ((c : Thread nD τ).loc b) := fun c b => Gen.V7 m c b

/-- After the first launch: its arrays at what the pipeline leaves, every other buffer as found. -/
def W8 (c : Dev nD) : Valuation τ sig (Elt F) :=
  Pipeline.withArrays spec0 c (Gen.V7 m c) fun w => (dat1 (found1 m) c).arrAt w cfg0.N

/-- What the second launch finds. -/
abbrev found2 : (c : Dev nD) → (b : Ref sig .tc) → Buf (Elt F) ((c : Thread nD τ).loc b) := fun c b => W8 m c b

/-- After the second launch. -/
def W9 (c : Dev nD) : Valuation τ sig (Elt F) :=
  Pipeline.withArrays spec1 c (W8 m c) fun w => (dat2 (found2 m) c).arrAt w cfg1.N

/-- After the closing reshape: the contents the program returns with. -/
abbrev W10 (c : Dev nD) : Valuation τ sig (Elt F) := StableHlo.after hostOps2 (W9 m c)

theorem W8_arr (c : Dev nD) (w : Fin cfg0.W) :
    W8 m c (Proc.devRef .tc (Pipeline.arrRef spec0 w)) = (dat1 (found1 m) c).arrAt w cfg0.N := by
  unfold W8; exact Pipeline.withArrays_arr spec0 launch0.win.arr_inj c _ _ w
theorem W8_off (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
theorem W9_arr (c : Dev nD) (w : Fin cfg1.W) :
    W9 m c (Proc.devRef .tc (Pipeline.arrRef spec1 w)) = (dat2 (found2 m) c).arrAt w cfg1.N := by
  unfold W9; exact Pipeline.withArrays_arr spec1 launch1.win.arr_inj c _ _ w
theorem W9_off (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb

/-! ## Every launch's data, and what rides beside the buffers -/

/-- Both launches' per-point data, each at what its launch finds. -/
def pdats : (p : Fin 2) → (c : Dev nD) → Dat τ (Elt F) Unit ℕ (UR sig nD τ) ℕ (Pipeline.pin (pcfgs (F := F)) Gen.adm p) c
  | ⟨0, _⟩ => fun c => dat1 (found1 m) c
  | ⟨1, _⟩ => fun c => dat2 (found2 m) c

abbrev noVar : Variants := Variants.none
abbrev noPairs : GSem nD τ sig → Finset Unit := fun _ => ∅
abbrev noLevel : GSem nD τ sig → Unit → ℕ := fun _ _ => 0

/-- Beside the buffers, through every item: the generator register at some state and a core that owes nothing. -/
abbrev beside (c : Dev nD) : sProp 𝕄 :=
  iprop((∃ r, prngReg c r) ∗ ∃ W, owes (c : Thread nD τ) (0 : CellTallies nD τ sig Unit) W)

abbrev besideAll : Fin 3 → Dev nD → sProp 𝕄 := fun _ c => beside c

/-- The closing reshape as an item, from the contents the second launch leaves. -/
abbrev closing : Pipeline.HostSeg (Name := ℕ) (U := UR sig nD τ) (pcfgs (F := F)) defs₀ noVar noPairs noLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp Gen.hostOps2_fresh) op h) (W9 m) beside

/-! ## The two launches as items -/

set_option backward.isDefEq.respectTransparency.types false in
/-- The first launch: entered with every unscoped buffer at what the host operations before it leave, left with
    them at W8.  Its arrays are split out of the unscoped buffers and put back at their final contents; the
    generator register goes into the invariant and comes back; the accumulator lives inside the invariant. -/
def launch1 : Pipeline.RegionSeg (pcfgs (F := F)) Gen.adm (pdats m) () defs₀ noVar noPairs noLevel 0 where
  win := launch0.win.to₀
  block_pos := launch0.block_pos
  stage_whole := launch0.stage_whole
  K := PEmpty
  osem k := k.elim
  ho := Pipeline.OwnSemFacts.none _
  hbody c := (stage1_obligation (found1 m) c).loose
  hwaits := Pipeline.hwaits_of_owed_zero _ _ _ _ noPairs noLevel 0 fun _ _ => rfl
  pre c := iprop(StableHlo.held (c : Thread nD τ) (Pipeline.ucRefs τ sig) (Gen.V7 m c) ∗ beside c)
  post c := iprop(StableHlo.held (c : Thread nD τ) (Pipeline.ucRefs τ sig) (W8 m c) ∗ beside c)
  X c := iprop(∃ r, prngReg c r)
  Y c := iprop(∃ r, prngReg c r)
  Z c := Pipeline.unscopedRest (Ix := Unit) (Name := ℕ) (U := UR sig nD τ) (Lvl := ℕ) spec0 c (found1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (found1 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine BIBase.Entails.trans ?_ (inv1_in (found1 m) c)
    unfold Pipeline.ΦA
    iintro ⟨Hreg, -, Hsc⟩
    isplitl [Hsc]; · iexact Hsc
    iexact Hreg
  hout c := by
    rw [Pipeline.ownSems0_none]
    refine BIBase.Entails.trans (inv1_out (found1 m) c) ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (found1 m c) (found2 m c) ((pdats m 0 c).arrAt · cfg0.N) (fun w => (W8_arr m c w).symm)
      (fun b hb => W8_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The second launch: entered with every unscoped buffer at W8, left with them at W9; nothing kept in its
    invariant beyond the scoped rest and the generator register. -/
def launch2 : Pipeline.RegionSeg (pcfgs (F := F)) Gen.adm (pdats m) () defs₀ noVar noPairs noLevel 1 where
  win := Gen.launch1.win.to₀
  block_pos := Gen.launch1.block_pos
  stage_whole := Gen.launch1.stage_whole
  K := PEmpty
  osem k := k.elim
  ho := Pipeline.OwnSemFacts.none _
  hbody c := (stage2_obligation (found2 m) c).loose
  hwaits := Pipeline.hwaits_of_owed_zero _ _ _ _ noPairs noLevel 1 fun _ _ => rfl
  pre c := iprop(StableHlo.held (c : Thread nD τ) (Pipeline.ucRefs τ sig) (W8 m c) ∗ beside c)
  post c := iprop(StableHlo.held (c : Thread nD τ) (Pipeline.ucRefs τ sig) (W9 m c) ∗ beside c)
  X c := iprop(∃ r, prngReg c r)
  Y c := iprop(∃ r, prngReg c r)
  Z c := Pipeline.unscopedRest (Ix := Unit) (Name := ℕ) (U := UR sig nD τ) (Lvl := ℕ) spec1 c (found2 m c)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (found2 m c) fun _ => rfl
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (found2 m c) (fun b => W9 m c b) ((pdats m 1 c).arrAt · cfg1.N) (fun w => (W9_arr m c w).symm)
      (fun b hb => W9_off m c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## @main as its items, and the run -/

/-- @main's ten items in order: the seven stretches of host operations before the launches (from the launch
    memory on), the two launches, the closing reshape. -/
abbrev items : List (Pipeline.Seg (pcfgs (F := F)) Gen.adm (pdats m) () defs₀ noVar noPairs noLevel) :=
  [ .host (Gen.seg0 m noVar noPairs noLevel besideAll), .host (Gen.seg1 m noVar noPairs noLevel besideAll),
    .host (Gen.seg2 m noVar noPairs noLevel besideAll), .host (Gen.seg3 m noVar noPairs noLevel besideAll),
    .host (Gen.seg4 m noVar noPairs noLevel besideAll), .host (Gen.seg5 m noVar noPairs noLevel besideAll),
    .host (Gen.seg6 m noVar noPairs noLevel besideAll),
    .region (launch1 m), .region (launch2 m), .host (closing m) ]

/-- @main is the run of its items. -/
theorem main_items (c : Dev nD) : main (F := F) c = Pipeline.Seg.run (items m) :=
  (main_chain c).trans (by rw [Pipeline.Seg.run_eq_chain]; rfl)

/-- An unscoped TensorCore reference is one of those the boundaries hold. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of @main terminates without a fault,
    and the final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) Gen.adm (pdats m) () cellOf_inj emb₁ defs₀ noVar noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ beside c) ⊢ _
        iintro ⟨Hh, Hreg, Howes⟩
        isplitr [Howes]
        · isplitl [Hh]; · iexact Hh
          iexact Hreg
        iexact Howes⟩)
    (hinit := by
      refine Pipeline.initEach noPairs noLevel fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, Howes, -, Hreg, -⟩, -⟩
      imodintro
      isplitl [Hh]; · iexact Hh
      isplitl [Hreg]; · iexists _; iexact Hreg
      iexists ∅; iexact Howes)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.RunPosts.lean ====
/-
  What the run's final memory says of the arrays the claims speak of.  Each argument array is written by no host
  operation and is no output of either launch, so the fold of contents through @main's items gives it back as
  launched; the frame claim's post follows.  The result array is the closing reshape's; the run names it.
-/
import proofs.«171262_j71159018160311_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no host operation writes it and no launch may change it. -/
theorem W10_arg0 (c : Dev nD) : W10 m c main_arg0 = m ((c : Thread nD τ).loc main_arg0) :=
  (StableHlo.after_of_writes_sub hostOps2 _ Gen.hostOps2_writes (by decide : main_arg0 ∉ Gen.hostOps2_W)).trans <|
  (W9_off m c main_arg0 (by decide)).trans <| (W8_off m c main_arg0 (by decide)).trans <|
  (Gen.V7_of m c main_arg0 (by decide)).trans <| (Gen.V6_of m c main_arg0 (by decide)).trans <|
  (Gen.V5_of m c main_arg0 (by decide)).trans <| (Gen.V4_of m c main_arg0 (by decide)).trans <|
  (Gen.V3_of m c main_arg0 (by decide)).trans <| (Gen.V2_of m c main_arg0 (by decide)).trans <|
  (Gen.V1_of m c main_arg0 (by decide)).trans rfl

/-- Argument 1 reaches the end as launched: no host operation writes it and no launch may change it. -/
theorem W10_arg1 (c : Dev nD) : W10 m c main_arg1 = m ((c : Thread nD τ).loc main_arg1) :=
  (StableHlo.after_of_writes_sub hostOps2 _ Gen.hostOps2_writes (by decide : main_arg1 ∉ Gen.hostOps2_W)).trans <|
  (W9_off m c main_arg1 (by decide)).trans <| (W8_off m c main_arg1 (by decide)).trans <|
  (Gen.V7_of m c main_arg1 (by decide)).trans <| (Gen.V6_of m c main_arg1 (by decide)).trans <|
  (Gen.V5_of m c main_arg1 (by decide)).trans <| (Gen.V4_of m c main_arg1 (by decide)).trans <|
  (Gen.V3_of m c main_arg1 (by decide)).trans <| (Gen.V2_of m c main_arg1 (by decide)).trans <|
  (Gen.V1_of m c main_arg1 (by decide)).trans rfl

/-- Argument 2 reaches the end as launched: no host operation writes it and no launch may change it. -/
theorem W10_arg2 (c : Dev nD) : W10 m c main_arg2 = m ((c : Thread nD τ).loc main_arg2) :=
  (StableHlo.after_of_writes_sub hostOps2 _ Gen.hostOps2_writes (by decide : main_arg2 ∉ Gen.hostOps2_W)).trans <|
  (W9_off m c main_arg2 (by decide)).trans <| (W8_off m c main_arg2 (by decide)).trans <|
  (Gen.V7_of m c main_arg2 (by decide)).trans <| (Gen.V6_of m c main_arg2 (by decide)).trans <|
  (Gen.V5_of m c main_arg2 (by decide)).trans <| (Gen.V4_of m c main_arg2 (by decide)).trans <|
  (Gen.V3_of m c main_arg2 (by decide)).trans <| (Gen.V2_of m c main_arg2 (by decide)).trans <|
  (Gen.V1_of m c main_arg2 (by decide)).trans rfl

/-- Argument 3 reaches the end as launched: no host operation writes it and no launch may change it. -/
theorem W10_arg3 (c : Dev nD) : W10 m c main_arg3 = m ((c : Thread nD τ).loc main_arg3) :=
  (StableHlo.after_of_writes_sub hostOps2 _ Gen.hostOps2_writes (by decide : main_arg3 ∉ Gen.hostOps2_W)).trans <|
  (W9_off m c main_arg3 (by decide)).trans <| (W8_off m c main_arg3 (by decide)).trans <|
  (Gen.V7_of m c main_arg3 (by decide)).trans <| (Gen.V6_of m c main_arg3 (by decide)).trans <|
  (Gen.V5_of m c main_arg3 (by decide)).trans <| (Gen.V4_of m c main_arg3 (by decide)).trans <|
  (Gen.V3_of m c main_arg3 (by decide)).trans <| (Gen.V2_of m c main_arg3 (by decide)).trans <|
  (Gen.V1_of m c main_arg3 (by decide)).trans rfl

/-- Argument 4 reaches the end as launched: no host operation writes it and no launch may change it. -/
theorem W10_arg4 (c : Dev nD) : W10 m c main_arg4 = m ((c : Thread nD τ).loc main_arg4) :=
  (StableHlo.after_of_writes_sub hostOps2 _ Gen.hostOps2_writes (by decide : main_arg4 ∉ Gen.hostOps2_W)).trans <|
  (W9_off m c main_arg4 (by decide)).trans <| (W8_off m c main_arg4 (by decide)).trans <|
  (Gen.V7_of m c main_arg4 (by decide)).trans <| (Gen.V6_of m c main_arg4 (by decide)).trans <|
  (Gen.V5_of m c main_arg4 (by decide)).trans <| (Gen.V4_of m c main_arg4 (by decide)).trans <|
  (Gen.V3_of m c main_arg4 (by decide)).trans <| (Gen.V2_of m c main_arg4 (by decide)).trans <|
  (Gen.V1_of m c main_arg4 (by decide)).trans rfl

/-- Argument 5 reaches the end as launched: no host operation writes it and no launch may change it. -/
theorem W10_arg5 (c : Dev nD) : W10 m c main_arg5 = m ((c : Thread nD τ).loc main_arg5) :=
  (StableHlo.after_of_writes_sub hostOps2 _ Gen.hostOps2_writes (by decide : main_arg5 ∉ Gen.hostOps2_W)).trans <|
  (W9_off m c main_arg5 (by decide)).trans <| (W8_off m c main_arg5 (by decide)).trans <|
  (Gen.V7_of m c main_arg5 (by decide)).trans <| (Gen.V6_of m c main_arg5 (by decide)).trans <|
  (Gen.V5_of m c main_arg5 (by decide)).trans <| (Gen.V4_of m c main_arg5 (by decide)).trans <|
  (Gen.V3_of m c main_arg5 (by decide)).trans <| (Gen.V2_of m c main_arg5 (by decide)).trans <|
  (Gen.V1_of m c main_arg5 (by decide)).trans rfl

/-- Argument 6 reaches the end as launched: no host operation writes it and no launch may change it. -/
theorem W10_arg6 (c : Dev nD) : W10 m c main_arg6 = m ((c : Thread nD τ).loc main_arg6) :=
  (StableHlo.after_of_writes_sub hostOps2 _ Gen.hostOps2_writes (by decide : main_arg6 ∉ Gen.hostOps2_W)).trans <|
  (W9_off m c main_arg6 (by decide)).trans <| (W8_off m c main_arg6 (by decide)).trans <|
  (Gen.V7_of m c main_arg6 (by decide)).trans <| (Gen.V6_of m c main_arg6 (by decide)).trans <|
  (Gen.V5_of m c main_arg6 (by decide)).trans <| (Gen.V4_of m c main_arg6 (by decide)).trans <|
  (Gen.V3_of m c main_arg6 (by decide)).trans <| (Gen.V2_of m c main_arg6 (by decide)).trans <|
  (Gen.V1_of m c main_arg6 (by decide)).trans rfl

/-- THE RUN, read at the arrays the claims name: the result array at the fold's value, every argument as launched. -/
theorem run_named : θ_run defs (onTc (τ := τ) (main (F := F))) ⟨m, fun _ => 0, ρ⟩ (fun r => ∀ c : Dev nD,
      r.2.mem ((c.tc : Thread nD τ).loc main_v15) = W10 m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (held_ref main_v15 (by decide)),
     (h c _ (held_ref main_arg0 (by decide))).trans (W10_arg0 m c),
     (h c _ (held_ref main_arg1 (by decide))).trans (W10_arg1 m c),
     (h c _ (held_ref main_arg2 (by decide))).trans (W10_arg2 m c),
     (h c _ (held_ref main_arg3 (by decide))).trans (W10_arg3 m c),
     (h c _ (held_ref main_arg4 (by decide))).trans (W10_arg4 m c),
     (h c _ (held_ref main_arg5 (by decide))).trans (W10_arg5 m c),
     (h c _ (held_ref main_arg6 (by decide))).trans (W10_arg6 m c)⟩) (run_all m ρ)

/-- THE FRAME: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.KernelIdeal.Hand

end
-- ==== Proof.Pieces.lean ====
/-
  What the bodies' stores read back as.  Each body stores whole blocks: through the rectangle that covers a whole
  buffer at zero offsets a load reads the buffer's contents and a store, coming last, leaves its payload.  So the
  accumulator after a first point is the zero block plus the product of the point's two blocks; after a middle or a
  last point it is what it held plus that product; the output buffer after a last point is the accumulator times the
  scale row.  Stated first over arbitrary buffers and contents, then at a grid point; at any float instance.
-/
import proofs.«171262_j71159018160311_2_alg».proof.Proof.Stage1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-block rectangle of rank two are zero. -/
theorem offsets_zero2 : (![0, 0] : Fin 2 → Nat) = fun _ => 0 := funext fun a => by fin_cases a <;> rfl

/-! ## The bodies' pieces over arbitrary buffers and contents -/

section Generic

variable (c : Dev nD) (i : grid0.Coords)
  (arg2 : Memref sig .tc .vmem S1024x512 .f32) (harg2 : arg2.IsWhole)
  (arg3 : Memref sig .tc .vmem S1152x512 .bf16) (harg3 : arg3.IsWhole)
  (arg4 : Memref sig .tc .vmem S1x1152 .f32) (harg4 : arg4.IsWhole)
  (arg5 : Memref sig .tc .vmem S1024x1152 .bf16) (harg5 : arg5.IsWhole)
  (arg6 : Memref sig .tc .vmem S1024x1152 .f32) (harg6 : arg6.IsWhole)
  (a : Vec F S1024x512 .f32) (b : Vec F S1152x512 .bf16) (s : Vec F S1x1152 .f32)

/-- At a first point the accumulator's two whole stores (the zero block, then the zero block read back plus the
    product) leave the product added to the zero block. -/
theorem firstPieces_canon (hF : isFirst i) (hL : ¬isLast i) :
    View.canon (runFirst c i arg2 harg2 arg3 harg3 arg4 harg4 arg5 harg5 arg6 harg6 hF hL a b s).1
      = k0_pay2 a b (k0_pay1 (F := F)) := by
  unfold runFirst
  dsimp only
  sl_unfold_words
  rw [View.canon_cons_unit_zero (S := S1024x1152) offsets_zero2,
    View.readCov_unit_zero (S := S1024x1152) _ offsets_zero2]
  simp only [View.readAt_eq_ld, harg2.read_unread, harg3.read_unread,
    View.ld_unit_zero (S := S1024x512) offsets_zero2, View.ld_unit_zero (S := S1152x512) offsets_zero2]

/-- At a middle point the accumulator's one whole store leaves the product added to what it held. -/
theorem midPieces_canon (hF : ¬isFirst i) (hL : ¬isLast i) (acc : Vec F S1024x1152 .f32) :
    View.canon (runMid c i arg2 harg2 arg3 harg3 arg4 harg4 arg5 harg5 arg6 harg6 hF hL a b s acc).1
      = k0_pay2 a b acc := by
  unfold runMid
  dsimp only
  rw [View.canon_unit_zero (S := S1024x1152) offsets_zero2]
  simp only [View.readAt_eq_ld, harg2.read_unread, harg3.read_unread, harg6.read_unread,
    View.ld_unit_zero (S := S1024x512) offsets_zero2, View.ld_unit_zero (S := S1152x512) offsets_zero2,
    View.ld_unit_zero (S := S1024x1152) offsets_zero2]

/-- At a last point the accumulator is left as at a middle point, -/
theorem lastPieces_acc_canon (hF : ¬isFirst i) (hL : isLast i) (acc : Vec F S1024x1152 .f32) :
    View.canon (runLast c i arg2 harg2 arg3 harg3 arg4 harg4 arg5 harg5 arg6 harg6 hF hL a b s acc).2.1
      = k0_pay2 a b acc := by
  unfold runLast
  dsimp only
  sl_unfold_words
  rw [View.canon_unit_zero (S := S1024x1152) offsets_zero2]
  simp only [View.readAt_eq_ld, harg2.read_unread, harg3.read_unread, harg6.read_unread,
    View.ld_unit_zero (S := S1024x512) offsets_zero2, View.ld_unit_zero (S := S1152x512) offsets_zero2,
    View.ld_unit_zero (S := S1024x1152) offsets_zero2]

/-- and the output buffer's one whole store leaves that accumulator, read back, times the scale row. -/
theorem lastPieces_out_canon (hF : ¬isFirst i) (hL : isLast i) (acc : Vec F S1024x1152 .f32) :
    View.canon (runLast c i arg2 harg2 arg3 harg3 arg4 harg4 arg5 harg5 arg6 harg6 hF hL a b s acc).1
      = k0_pay3 (k0_pay2 a b acc) s := by
  unfold runLast
  dsimp only
  sl_unfold_words
  rw [View.canon_unit_zero (S := S1024x1152) offsets_zero2,
    View.readCov_unit_zero (S := S1024x1152) _ offsets_zero2]
  simp only [View.readAt_eq_ld, harg2.read_unread, harg3.read_unread, harg4.read_unread, harg6.read_unread,
    View.ld_unit_zero (S := S1024x512) offsets_zero2, View.ld_unit_zero (S := S1152x512) offsets_zero2,
    View.ld_unit_zero (S := S1024x1152) offsets_zero2, View.ld_unit_zero (S := S1x1152) offsets_zero2]

end Generic

/-! ## At a grid point -/

section AtEntry

variable (V : (c : Dev nD) → (b : Ref sig .tc) → Buf (Elt F) ((c : Thread nD τ).loc b))

/-- After a first point the accumulator holds the zero block plus the product of the point's blocks. -/
theorem accFirst_eq (c : Dev nD) (t : Fin cfg0.N) (h0 : t.val % 8 = 0) (h7 : ¬t.val % 8 = 7) :
    accFirst V c t h0 h7 = k0_pay2 (blk1 V c 0 t) (blk1 V c 1 t) (k0_pay1 (F := F)) :=
  (View.read_writes_junk_eq_canon accV _).trans
    (firstPieces_canon c (grid0.coords t) (mx t) (hmx t) (mv t) (hmv t) (ms t) (hms t) (mt t) (hmt t) accM
      (Memref.isWhole_whole _) (blk1 V c 0 t) (blk1 V c 1 t) (blk1 V c 2 t) ((isFirst_iff t).mpr h0)
      (fun h => h7 ((isLast_iff t).mp h)))

/-- After a middle point it holds what it held plus the product of the point's blocks. -/
theorem accMid_eq (c : Dev nD) (t : Fin cfg0.N) (h0 : ¬t.val % 8 = 0) (h7 : ¬t.val % 8 = 7)
    (acc : Vec F S1024x1152 .f32) :
    accMid V c t h0 h7 acc = k0_pay2 (blk1 V c 0 t) (blk1 V c 1 t) acc :=
  (View.read_writes_junk_eq_canon accV _).trans
    (midPieces_canon c (grid0.coords t) (mx t) (hmx t) (mv t) (hmv t) (ms t) (hms t) (mt t) (hmt t) accM
      (Memref.isWhole_whole _) (blk1 V c 0 t) (blk1 V c 1 t) (blk1 V c 2 t) (fun h => h0 ((isFirst_iff t).mp h))
      (fun h => h7 ((isLast_iff t).mp h)) acc)

/-- After a last point likewise, -/
theorem accLast_eq (c : Dev nD) (t : Fin cfg0.N) (h0 : ¬t.val % 8 = 0) (h7 : t.val % 8 = 7)
    (acc : Vec F S1024x1152 .f32) :
    accLast V c t h0 h7 acc = k0_pay2 (blk1 V c 0 t) (blk1 V c 1 t) acc :=
  (View.read_writes_junk_eq_canon accV _).trans
    (lastPieces_acc_canon c (grid0.coords t) (mx t) (hmx t) (mv t) (hmv t) (ms t) (hms t) (mt t) (hmt t) accM
      (Memref.isWhole_whole _) (blk1 V c 0 t) (blk1 V c 1 t) (blk1 V c 2 t) (fun h => h0 ((isFirst_iff t).mp h))
      ((isLast_iff t).mpr h7) acc)

/-- and the output buffer holds that accumulator times the scale row. -/
theorem outLast_eq (c : Dev nD) (t : Fin cfg0.N) (h0 : ¬t.val % 8 = 0) (h7 : t.val % 8 = 7)
    (acc : Vec F S1024x1152 .f32) :
    outLast V c t h0 h7 acc = k0_pay3 (k0_pay2 (blk1 V c 0 t) (blk1 V c 1 t) acc) (blk1 V c 2 t) :=
  (View.read_writes_junk_eq_canon outV _).trans
    (lastPieces_out_canon c (grid0.coords t) (mx t) (hmx t) (mv t) (hmv t) (ms t) (hms t) (mt t) (hmt t) accM
      (Memref.isWhole_whole _) (blk1 V c 0 t) (blk1 V c 1 t) (blk1 V c 2 t) (fun h => h0 ((isFirst_iff t).mp h))
      ((isLast_iff t).mpr h7) acc)

end AtEntry

end Cert.KernelIdeal.Hand

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.PayloadRead.lean ====
/-
  The arithmetic of the two kernels' bodies, read at an index, on the extended reals.

  The first kernel keeps an accumulator [1024, 1152]: it is cleared to zero; at each step it gains the products of the
  rows of a block [1024, 512] of the matrix of rows against the rows of a block [1152, 512] of the joined right
  factor, summed over the 512 shared positions; and at the end each of its columns is multiplied by that column's
  scale. The second kernel multiplies the rows of a block [1024, 1152] of the first kernel's result against the
  rows of a block [1024, 1152] of the joined left factor, summed over the 1152 joined positions. A change of float
  format is the identity on the extended reals, and a re-reading of an array at its own shape changes nothing.
-/
import proofs.«171262_j71159018160311_2_alg».proof.Proof.Gen.KernelIdeal.Skeleton
import proofs.«171262_j71159018160311_2_alg».proof.Proof.LibRowDots
import Idealize.ShloMosaic.Lib.Pipeline.Value
import Idealize.ShloMosaic.Lib.ValueIdx

noncomputable section

open scoped BigOperators

namespace Cert.KernelIdeal.HostSide

open Idealize.ShloMosaic Idealize.ShloMosaic.ValueIdx Idealize.SL.Sem

/-- The cleared accumulator is zero everywhere. -/
theorem pay1_apply (p : Fin 1024) (j : Fin 1152) : Gen.k0_pay1 (F := Ideal) (ix2 p j) = 0 := by
  unfold Gen.k0_pay1
  refine (congrFun (shapeCast_self _ _) (ix2 p j)).trans ?_
  show Ideal.ofBits .f32 0x00000000#32 = 0
  exact Ideal.ofBits_zero_f32

/-- One accumulation step: the accumulator plus the row-against-row products over the 512 shared positions. -/
theorem pay2_apply (a : Vec Ideal S1024x512 .f32) (b : Vec Ideal S1152x512 .bf16) (acc : Vec Ideal S1024x1152 .f32)
    (p : Fin 1024) (j : Fin 1152) :
    Gen.k0_pay2 (F := Ideal) a b acc (ix2 p j) = acc (ix2 p j) + ∑ d : Fin 512, a (ix2 p d) * b (ix2 j d) := by
  unfold Gen.k0_pay2
  refine (congrFun (shapeCast_self _ _) (ix2 p j)).trans ?_
  refine (addf_apply _ _ (ix2 p j)).trans ?_
  refine congrArg (fun t => acc (ix2 p j) + t) ?_
  refine (Cert.LibRowDots.matmul_rows Gen.dot_S1024x512_S1152x512_S1024x1152_1_1_0_0_n_n_wf
    dot_S1024x512_S1152x512_S1024x1152_1_1_0_0_n_n rfl none _ _ p j).trans ?_
  refine Finset.sum_congr rfl fun d _ => ?_
  rw [shapeCast_self, shapeCast_self]
  rfl

/-- The closing step: each column of the accumulator times that column's scale. -/
theorem pay3_apply (acc : Vec Ideal S1024x1152 .f32) (s : Vec Ideal S1x1152 .f32) (p : Fin 1024) (j : Fin 1152) :
    Gen.k0_pay3 (F := Ideal) acc s (ix2 p j) = acc (ix2 p j) * s (ix2 (0 : Fin 1) j) := by
  unfold Gen.k0_pay3
  refine (truncf_apply (ψ := .bf16) _ Gen.bitsLt_bf16_f32 (ix2 p j)).trans ?_
  refine (mulf_apply _ _ (ix2 p j)).trans ?_
  refine congrArg (fun t => acc (ix2 p j) * t) ?_
  refine (broadcastTo_apply _ Gen.broadcasts_S1x1152_S1024x1152 (ix2 p j) (ix2 (0 : Fin 1) j) (fun a => ?_)).trans ?_
  · match a with
    | ⟨0, _⟩ => rfl
    | ⟨1, _⟩ => rfl
  · rw [shapeCast_self]

/-- The second kernel's block: row against row over the 1152 joined positions. -/
theorem kpay1_apply (a b : Vec Ideal S1024x1152 .bf16) (p o : Fin 1024) :
    Gen.k1_pay1 (F := Ideal) a b (ix2 p o) = ∑ j : Fin 1152, a (ix2 p j) * b (ix2 o j) := by
  unfold Gen.k1_pay1
  refine (Cert.LibRowDots.matmul_rows Gen.dot_S1024x1152_S1024x1152_S1024x1024_1_1_0_0_n_n_wf
    dot_S1024x1152_S1024x1152_S1024x1024_1_1_0_0_n_n rfl none _ _ p o).trans ?_
  refine Finset.sum_congr rfl fun d _ => ?_
  rw [shapeCast_self, shapeCast_self]

end Cert.KernelIdeal.HostSide

end
-- ==== Proof.Typed.lean ====
/-
  The first launch's blocks and arrays under their literal vector types, so that arithmetic on their entries
  elaborates at the element type it has.  Each is the block or array itself.
-/
import proofs.«171262_j71159018160311_2_alg».proof.Proof.Stage1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-- The point's block of x, of Vc, and the scale row's block. -/
abbrev xBlk (c : Dev nD) (t : Fin cfg0.N) : Vec F S1024x512 .f32 := blk1 V c 0 t
abbrev vBlk (c : Dev nD) (t : Fin cfg0.N) : Vec F S1152x512 .bf16 := blk1 V c 1 t
abbrev sBlk (c : Dev nD) (t : Fin cfg0.N) : Vec F S1x1152 .f32 := blk1 V c 2 t

/-- The arrays the first launch reads, as found: x as [16384,4096], Vc as [1152,4096], the scale row [1,1152]. -/
abbrev arrX (c : Dev nD) : Vec F S16384x4096 .f32 := V c main_v12
abbrev arrVc (c : Dev nD) : Vec F S1152x4096 .bf16 := V c main_v8
abbrev arrSc (c : Dev nD) : Vec F S1x1152 .f32 := V c main_v5

end AtEntry

end Cert.KernelIdeal.Hand

end
-- ==== Proof.PointValues.lean ====
/-
  The first launch's values index by index, on the extended reals.  The accumulator after a grid position that
  starts a row block is zero plus the products of the point's block of rows against the point's block of the
  joined right factor, summed over the block's 512 shared positions; after any other position it is the
  accumulator of the position before plus that sum; the block of t stored after a position that ends a row block is
  the accumulator times the scale of its column.
-/
import proofs.«171262_j71159018160311_2_alg».proof.Proof.Pieces
import proofs.«171262_j71159018160311_2_alg».proof.Proof.PayloadRead
import proofs.«171262_j71159018160311_2_alg».proof.Proof.Typed

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- Zero plus one accumulation step, at an index. -/
theorem firstStep_apply (a : Vec Ideal S1024x512 .f32) (b : Vec Ideal S1152x512 .bf16) (p : Fin 1024) (j : Fin 1152) :
    k0_pay2 (F := Ideal) a b (k0_pay1 (F := Ideal)) (ix2 p j) = 0 + ∑ d : Fin 512, a (ix2 p d) * b (ix2 j d) := by
  rw [HostSide.pay2_apply, HostSide.pay1_apply]

section AtEntry

variable (V : (c : Dev nD) → (b : Ref sig .tc) → Buf (Elt Ideal) ((c : Thread nD τ).loc b))

/-- After a position that starts a row block the accumulator is zero plus the point's products. -/
theorem acc_first_apply (c : Dev nD) (t : Fin cfg0.N) (h0 : t.val % 8 = 0) (p : Fin 1024) (j : Fin 1152) :
    accAt V c t.val t.isLt (ix2 p j)
      = 0 + ∑ d : Fin 512, xBlk V c t (ix2 p d) * vBlk V c t (ix2 j d) :=
  have h7 : ¬t.val % 8 = 7 := by omega
  (congrFun ((accAt_first V c t h0 h7).trans (accFirst_eq V c t h0 h7)) (ix2 p j)).trans
    (firstStep_apply (blk1 V c 0 t) (blk1 V c 1 t) p j)

/-- After any other position the accumulator is one accumulation step over the position before. -/
theorem accAt_step (c : Dev nD) (t : Fin cfg0.N) (h0 : ¬t.val % 8 = 0) :
    accAt V c t.val t.isLt
      = k0_pay2 (blk1 V c 0 t) (blk1 V c 1 t)
          (accAt V c (t.val - 1) (Nat.lt_of_le_of_lt (Nat.sub_le _ _) t.isLt)) := by
  by_cases h7 : t.val % 8 = 7
  · exact (accAt_last V c t h0 h7).trans (accLast_eq V c t h0 h7 _)
  · exact (accAt_mid V c t h0 h7).trans (accMid_eq V c t h0 h7 _)

/-- At an index: the accumulator of the position before plus the point's products. -/
theorem acc_later_apply (c : Dev nD) (t : Fin cfg0.N) (h0 : ¬t.val % 8 = 0) (p : Fin 1024) (j : Fin 1152) :
    accAt V c t.val t.isLt (ix2 p j)
      = accAt V c (t.val - 1) (Nat.lt_of_le_of_lt (Nat.sub_le _ _) t.isLt) (ix2 p j)
        + ∑ d : Fin 512, xBlk V c t (ix2 p d) * vBlk V c t (ix2 j d) :=
  (congrFun (accAt_step V c t h0) (ix2 p j)).trans
    (HostSide.pay2_apply (blk1 V c 0 t) (blk1 V c 1 t) _ p j)

/-- After a position that ends a row block the block of t is the accumulator times the scale of its column. -/
theorem out_last_apply (c : Dev nD) (t : Fin cfg0.N) (h7 : t.val % 8 = 7) (p : Fin 1024) (j : Fin 1152) :
    outAt V c t (ix2 p j) = accAt V c t.val t.isLt (ix2 p j) * sBlk V c t (ix2 (0 : Fin 1) j) := by
  have h0 : ¬t.val % 8 = 0 := by omega
  have e : outAt V c t = k0_pay3 (accAt V c t.val t.isLt) (blk1 V c 2 t) := by
    rw [accAt_step V c t h0]
    exact (outAt_last V c t h0 h7).trans (outLast_eq V c t h0 h7 _)
  exact (congrFun e (ix2 p j)).trans (HostSide.pay3_apply _ (blk1 V c 2 t) p j)

end AtEntry

end Cert.KernelIdeal.Hand

end
-- ==== Proof.BlockReads.lean ====
/-
  Where a window's block sits in its array.  First launch, grid position t = 8·q + k (q the row block, k the
  contraction block): the x block is rows 1024·q.. and columns 512·k.. of x; the Vc block is all 1152 rows and columns
  512·k.. of Vc; the scale block is the whole scale row; the t block is rows 1024·q.. of t.  Second launch, grid
  position t = 4·q + r: the t block is rows 1024·q.. of t; the Uc block is rows 1024·r.. of Uc; the output block is
  rows 1024·q.., columns 1024·r.. of the output.  The printed index maps are decided once over each grid; an
  element of a block is then read off its array by arithmetic on the coordinates.  At any float instance and at a
  PARAMETER V for the arrays' contents.
-/
import proofs.«171262_j71159018160311_2_alg».proof.Proof.Stage1Base
import proofs.«171262_j71159018160311_2_alg».proof.Proof.Stage2
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The index maps over the grids -/

/-- The first launch's block indices at position t. -/
theorem index1 : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The second launch's block indices at position t. -/
theorem index2 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

section AtEntry

variable (V : (c : Dev nD) → (b : Ref sig .tc) → Buf (Elt F) ((c : Thread nD τ).loc b))

/-! ## The first launch's blocks, element by element -/

theorem blk1_x_apply (c : Dev nD) (t : Fin cfg0.N) (p : Fin 1024) (d : Fin 512) (P : Fin 16384) (n : Fin 4096)
    (hP : P.val = 1024 * (t.val / 8) + p.val) (hn : n.val = 512 * (t.val % 8) + d.val) :
    blk1 V c 0 t (ix2 p d) = (V c main_v12 : S16384x4096.Idx → Elt F .f32) (ix2 P n) := by
  show V c (Pipeline.arrRef spec0 0) (((cfg0.win 0).blk t).view.emb (ix2 p d)) = _
  refine congrArg (V c main_v12 : S16384x4096.Idx → Elt F .f32) ?_
  obtain ⟨e0, e1, -⟩ := index1 t
  funext a; apply Fin.ext
  match a with
  | ⟨0, _⟩ => show win0_0.index t (0 : Fin 2) * 1024 + 1 * p.val = P.val; omega
  | ⟨1, _⟩ => show win0_0.index t (1 : Fin 2) * 512 + 1 * d.val = n.val; omega

theorem blk1_v_apply (c : Dev nD) (t : Fin cfg0.N) (j : Fin 1152) (d : Fin 512) (n : Fin 4096)
    (hn : n.val = 512 * (t.val % 8) + d.val) :
    blk1 V c 1 t (ix2 j d) = (V c main_v8 : S1152x4096.Idx → Elt F .bf16) (ix2 j n) := by
  show V c (Pipeline.arrRef spec0 1) (((cfg0.win 1).blk t).view.emb (ix2 j d)) = _
  refine congrArg (V c main_v8 : S1152x4096.Idx → Elt F .bf16) ?_
  obtain ⟨-, -, e0, e1, -⟩ := index1 t
  funext a; apply Fin.ext
  match a with
  | ⟨0, _⟩ => show win0_1.index t (0 : Fin 2) * 1152 + 1 * j.val = j.val; omega
  | ⟨1, _⟩ => show win0_1.index t (1 : Fin 2) * 512 + 1 * d.val = n.val; omega

theorem blk1_s_apply (c : Dev nD) (t : Fin cfg0.N) (j : Fin 1152) :
    blk1 V c 2 t (ix2 (0 : Fin 1) j) = (V c main_v5 : S1x1152.Idx → Elt F .f32) (ix2 (0 : Fin 1) j) := by
  show V c (Pipeline.arrRef spec0 2) (((cfg0.win 2).blk t).view.emb (ix2 (0 : Fin 1) j)) = _
  refine congrArg (V c main_v5 : S1x1152.Idx → Elt F .f32) ?_
  obtain ⟨-, -, -, -, e0, e1, -⟩ := index1 t
  funext a; apply Fin.ext
  match a with
  | ⟨0, _⟩ => show win0_2.index t (0 : Fin 2) * 1 + 1 * (0 : Fin 1).val = (0 : Fin 1).val; omega
  | ⟨1, _⟩ => show win0_2.index t (1 : Fin 2) * 1152 + 1 * j.val = j.val; omega

/-! ## The second launch's blocks, element by element -/

theorem blk2_t_apply (c : Dev nD) (t : Fin cfg1.N) (p : Fin 1024) (j : Fin 1152) (P : Fin 16384)
    (hP : P.val = 1024 * (t.val / 4) + p.val) :
    blk2 V c 0 t (ix2 p j) = (V c main_v13 : S16384x1152.Idx → Elt F .bf16) (ix2 P j) := by
  show V c (Pipeline.arrRef spec1 0) (((cfg1.win 0).blk t).view.emb (ix2 p j)) = _
  refine congrArg (V c main_v13 : S16384x1152.Idx → Elt F .bf16) ?_
  obtain ⟨e0, e1, -⟩ := index2 t
  funext a; apply Fin.ext
  match a with
  | ⟨0, _⟩ => show win1_0.index t (0 : Fin 2) * 1024 + 1 * p.val = P.val; omega
  | ⟨1, _⟩ => show win1_0.index t (1 : Fin 2) * 1152 + 1 * j.val = j.val; omega

theorem blk2_u_apply (c : Dev nD) (t : Fin cfg1.N) (o : Fin 1024) (j : Fin 1152) (O : Fin 4096)
    (hO : O.val = 1024 * (t.val % 4) + o.val) :
    blk2 V c 1 t (ix2 o j) = (V c main_v11 : S4096x1152.Idx → Elt F .bf16) (ix2 O j) := by
  show V c (Pipeline.arrRef spec1 1) (((cfg1.win 1).blk t).view.emb (ix2 o j)) = _
  refine congrArg (V c main_v11 : S4096x1152.Idx → Elt F .bf16) ?_
  obtain ⟨-, -, e0, e1, -⟩ := index2 t
  funext a; apply Fin.ext
  match a with
  | ⟨0, _⟩ => show win1_1.index t (0 : Fin 2) * 1024 + 1 * o.val = O.val; omega
  | ⟨1, _⟩ => show win1_1.index t (1 : Fin 2) * 1152 + 1 * j.val = j.val; omega

end AtEntry

/-! ## Which positions cover an index of an output array -/

/-- An index of t lies in the block of position t iff its row is in the position's row block. -/
theorem mem_blk1_t (t : Fin cfg0.N) (i : S16384x1152.Idx) :
    i ∈ ((cfg0.win 3).blk t).view.set ↔
      ∀ a : Fin 2, win0_3.index t a * S1024x1152.size a ≤ (i a).val ∧ (i a).val < win0_3.index t a * S1024x1152.size a + S1024x1152.size a := by
  show i ∈ ((View.whole main_v13).slice (win0_3.rect t)).set ↔ _
  rw [View.set_slice_whole, Rect.mem_set_unit]
  exact Iff.rfl

/-- Every index of t is in the block of a position that writes its block back: position 8·(row / 1024) + 7. -/
theorem cover1_t (i : S16384x1152.Idx) :
    ∃ t : Fin cfg0.N, (cfg0.win 3).flush t = true ∧ i ∈ ((cfg0.win 3).blk t).view.set := by
  have hi0 : (i 0).val < 16384 := (i 0).isLt
  have hi1 : (i 1).val < 1152 := (i 1).isLt
  have hN : cfg0.N = 128 := N_0
  refine ⟨⟨8 * ((i 0).val / 1024) + 7, by omega⟩, (flush0_3 _).mpr (by show (8 * ((i 0).val / 1024) + 7) % 8 = 7; omega), ?_⟩
  rw [mem_blk1_t]
  obtain ⟨-, -, -, -, -, -, e0, e1⟩ := index1 ⟨8 * ((i 0).val / 1024) + 7, by omega⟩
  intro a
  match a with
  | ⟨0, _⟩ =>
    show win0_3.index _ (0 : Fin 2) * 1024 ≤ (i 0).val ∧ (i 0).val < win0_3.index _ (0 : Fin 2) * 1024 + 1024
    rw [e0]; show (8 * ((i 0).val / 1024) + 7) / 8 * 1024 ≤ (i 0).val ∧ (i 0).val < (8 * ((i 0).val / 1024) + 7) / 8 * 1024 + 1024
    omega
  | ⟨1, _⟩ =>
    show win0_3.index _ (1 : Fin 2) * 1152 ≤ (i 1).val ∧ (i 1).val < win0_3.index _ (1 : Fin 2) * 1152 + 1152
    rw [e1]; omega

/-- An index of the output lies in the block of position t iff each coordinate is in the position's range. -/
theorem mem_blk2_o (t : Fin cfg1.N) (i : S16384x4096.Idx) :
    i ∈ ((cfg1.win 2).blk t).view.set ↔
      ∀ a : Fin 2, win1_2.index t a * S1024x1024.size a ≤ (i a).val ∧ (i a).val < win1_2.index t a * S1024x1024.size a + S1024x1024.size a := by
  show i ∈ ((View.whole main_v14).slice (win1_2.rect t)).set ↔ _
  rw [View.set_slice_whole, Rect.mem_set_unit]
  exact Iff.rfl

/-- Every index of the output is in the block of position 4·(row / 1024) + column / 1024, which writes it back. -/
theorem cover2_o (i : S16384x4096.Idx) :
    ∃ t : Fin cfg1.N, (cfg1.win 2).flush t = true ∧ i ∈ ((cfg1.win 2).blk t).view.set := by
  have hi0 : (i 0).val < 16384 := (i 0).isLt
  have hi1 : (i 1).val < 4096 := (i 1).isLt
  have hN : cfg1.N = 64 := N_1
  refine ⟨⟨4 * ((i 0).val / 1024) + (i 1).val / 1024, by omega⟩, flush1_2 _, ?_⟩
  rw [mem_blk2_o]
  obtain ⟨-, -, -, -, e0, e1⟩ := index2 ⟨4 * ((i 0).val / 1024) + (i 1).val / 1024, by omega⟩
  intro a
  match a with
  | ⟨0, _⟩ =>
    show win1_2.index _ (0 : Fin 2) * 1024 ≤ (i 0).val ∧ (i 0).val < win1_2.index _ (0 : Fin 2) * 1024 + 1024
    rw [e0]; show (4 * ((i 0).val / 1024) + (i 1).val / 1024) / 4 * 1024 ≤ (i 0).val ∧ (i 0).val < (4 * ((i 0).val / 1024) + (i 1).val / 1024) / 4 * 1024 + 1024
    omega
  | ⟨1, _⟩ =>
    show win1_2.index _ (1 : Fin 2) * 1024 ≤ (i 1).val ∧ (i 1).val < win1_2.index _ (1 : Fin 2) * 1024 + 1024
    rw [e1]; show (4 * ((i 0).val / 1024) + (i 1).val / 1024) % 4 * 1024 ≤ (i 1).val ∧ (i 1).val < (4 * ((i 0).val / 1024) + (i 1).val / 1024) % 4 * 1024 + 1024
    omega

end Cert.KernelIdeal.Hand

end
-- ==== Proof.LibRunningBlocks.lean ====
/-
  Running sums by blocks.  In any commutative monoid, for a sequence f on the naturals and a block length b:
  the sum of the first b·(k+1) terms plus the sum of the next block of b terms is the sum of the first b·(k+2)
  terms; the first block alone, added to zero, is the sum of the first b·1 terms; and the sum over the first n
  naturals of a sequence that reads a family on Fin n (and is anything past n) is the family's sum.  Mathlib only.
-/
import Mathlib

open scoped BigOperators

namespace Cert.RunningBlocks

variable {M : Type*} [AddCommMonoid M]

/-- The first block, added to zero. -/
theorem first_block (f : ℕ → M) (b : ℕ) :
    0 + ∑ d : Fin b, f (b * 0 + d.val) = ∑ n ∈ Finset.range (b * 1), f n := by
  rw [zero_add, Nat.mul_zero, Nat.mul_one, ← Fin.sum_univ_eq_sum_range]
  exact Finset.sum_congr rfl fun d _ => by rw [Nat.zero_add]

/-- One more block. -/
theorem next_block (f : ℕ → M) (b k : ℕ) :
    (∑ n ∈ Finset.range (b * (k + 1)), f n) + ∑ d : Fin b, f (b * (k + 1) + d.val)
      = ∑ n ∈ Finset.range (b * (k + 1 + 1)), f n := by
  rw [show b * (k + 1 + 1) = b * (k + 1) + b by ring, Finset.sum_range_add,
    ← Fin.sum_univ_eq_sum_range (fun d => f (b * (k + 1) + d)) b]

/-- A sequence that reads a family on Fin n sums, over the first n naturals, to the family's sum. -/
theorem range_eq_univ (n : ℕ) (g : Fin n → M) (f : ℕ → M) (hf : ∀ i : Fin n, f i.val = g i) :
    ∑ k ∈ Finset.range n, f k = ∑ i : Fin n, g i := by
  rw [Finset.sum_range]
  exact Finset.sum_congr rfl fun i _ => hf i

end Cert.RunningBlocks
-- ==== Proof.Final1.lean ====
/-
  The array t after the first launch, as one function of what the launch found.  Over the eight contraction blocks
  of a row block the accumulator is a running inner product: after block k it holds, at (p, j), the first 512·(k+1)
  terms of the inner product of row 1024·q + p of x with row j of Vc (zero plus the first block, then one block more
  at each point — a regrouping of one sum, valid in any commutative monoid).  The last block stores the accumulator
  times the scale row, so the block written back is the block of
      t P j = (sum over n of x P n * Vc j n) * sc j,
  and the blocks written back cover t, so the array holds that function at every index.  At the exact instance.
-/
import proofs.«171262_j71159018160311_2_alg».proof.Proof.PointValues
import proofs.«171262_j71159018160311_2_alg».proof.Proof.BlockReads
import proofs.«171262_j71159018160311_2_alg».proof.Proof.Typed
import proofs.«171262_j71159018160311_2_alg».proof.Proof.LibRunningBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The accumulator as a running inner product -/

/-- Term n of the inner product of row P of x with row j of Vc; zero past the rows' length. -/
def term (c : Dev nD) (P : Fin 16384) (j : Fin 1152) (n : ℕ) : EReal :=
  if h : n < 4096 then arrX V c (ix2 P ⟨n, h⟩) * arrVc V c (ix2 j ⟨n, h⟩) else 0

/-- The product of a point's two blocks at (p, j) is the point's block of 512 terms. -/
theorem block_terms (c : Dev nD) (t : Fin cfg0.N) (p : Fin 1024) (j : Fin 1152) (P : Fin 16384)
    (hP : P.val = 1024 * (t.val / 8) + p.val) :
    ∑ d : Fin 512, xBlk V c t (ix2 p d) * vBlk V c t (ix2 j d)
      = ∑ d : Fin 512, term V c P j (512 * (t.val % 8) + d.val) :=
  Finset.sum_congr rfl fun d _ => by
    have hk : t.val % 8 < 8 := Nat.mod_lt _ (by norm_num)
    have hd := d.isLt
    have hn : 512 * (t.val % 8) + d.val < 4096 := by omega
    unfold xBlk vBlk
    rw [blk1_x_apply V c t p d P ⟨_, hn⟩ hP rfl, blk1_v_apply V c t j d ⟨_, hn⟩ rfl]
    unfold term; rw [dif_pos hn]

theorem accAt_congr (c : Dev nD) {n n' : ℕ} (e : n = n') (h : n < cfg0.N) (h' : n' < cfg0.N) :
    accAt V c n h = accAt V c n' h' := by subst e; rfl

/-- After contraction block k of row block q the accumulator holds, at (p, j), the first 512·(k+1) terms of the
    inner product of row 1024·q + p of x with row j of Vc. -/
theorem accAt_sum (c : Dev nD) (q : ℕ) (hq : q < 16) (p : Fin 1024) (j : Fin 1152) (P : Fin 16384)
    (hP : P.val = 1024 * q + p.val) :
    ∀ (k : ℕ) (hk : k < 8) (h : 8 * q + k < cfg0.N),
      accAt V c (8 * q + k) h (ix2 p j) = ∑ n ∈ Finset.range (512 * (k + 1)), term V c P j n := by
  intro k
  induction k with
  | zero =>
    intro _ h
    have h0 : (⟨8 * q + 0, h⟩ : Fin cfg0.N).val % 8 = 0 := by show (8 * q + 0) % 8 = 0; omega
    refine (acc_first_apply V c ⟨8 * q + 0, h⟩ h0 p j).trans ?_
    rw [block_terms V c ⟨8 * q + 0, h⟩ p j P (by show P.val = 1024 * ((8 * q + 0) / 8) + p.val; omega)]
    rw [show (⟨8 * q + 0, h⟩ : Fin cfg0.N).val % 8 = 0 from h0]
    exact Cert.RunningBlocks.first_block (term V c P j) 512
  | succ k ih =>
    intro hk h
    have h0 : ¬(⟨8 * q + (k + 1), h⟩ : Fin cfg0.N).val % 8 = 0 := by show ¬(8 * q + (k + 1)) % 8 = 0; omega
    refine (acc_later_apply V c ⟨8 * q + (k + 1), h⟩ h0 p j).trans ?_
    rw [accAt_congr V c (show (⟨8 * q + (k + 1), h⟩ : Fin cfg0.N).val - 1 = 8 * q + k by show 8 * q + (k + 1) - 1 = 8 * q + k; omega) _ (by omega),
      ih (by omega) (by omega)]
    rw [block_terms V c ⟨8 * q + (k + 1), h⟩ p j P (by show P.val = 1024 * ((8 * q + (k + 1)) / 8) + p.val; omega)]
    rw [show (⟨8 * q + (k + 1), h⟩ : Fin cfg0.N).val % 8 = k + 1 by show (8 * q + (k + 1)) % 8 = k + 1; omega]
    exact Cert.RunningBlocks.next_block (term V c P j) 512 k

/-! ## The array t after the first launch -/

/-- t as one function of x, Vc and the scale row: the inner product of a row of x with a row of Vc, times the
    scale at that row of Vc. -/
def tOf (X : Vec Ideal S16384x4096 .f32) (Vc : Vec Ideal S1152x4096 .bf16) (Sc : Vec Ideal S1x1152 .f32) :
    Vec Ideal S16384x1152 .bf16 :=
  fun i => (∑ n : Fin 4096, X (ix2 (i 0) n) * Vc (ix2 (i 1) n)) * Sc (ix2 (0 : Fin 1) (i 1))

/-- What a last contraction point writes back is its block of tOf. -/
theorem flushed1_eq (c : Dev nD) (t : Fin cfg0.N) (hf : (cfg0.win 3).flush t = true) :
    (dat1 V c).flushed 3 t
      = ((cfg0.win 3).blk t).view.read (Elt Ideal) (tOf (arrX V c) (arrVc V c) (arrSc V c)) := by
  have h7 : t.val % 8 = 7 := (flush0_3 t).mp hf
  have hN : cfg0.N = 128 := N_0
  have htl := t.isLt
  show (cfg0.win 3).cut (grid0.coords t) ((dat1 V c).after 3 t) = _
  rw [dat1_after_t]
  funext y
  obtain ⟨p, j, rfl⟩ : ∃ (p : Fin 1024) (j : Fin 1152), y = ix2 p j := ⟨y 0, y 1, eq_ix2 y⟩
  have hP : 1024 * (t.val / 8) + p.val < 16384 := by have := p.isLt; omega
  have hemb : ((cfg0.win 3).blk t).view.emb (ix2 p j) = (ix2 (⟨1024 * (t.val / 8) + p.val, hP⟩ : Fin 16384) j : S16384x1152.Idx) := by
    obtain ⟨-, -, -, -, -, -, e0, e1⟩ := index1 t
    funext a; apply Fin.ext
    match a with
    | ⟨0, _⟩ => show win0_3.index t (0 : Fin 2) * 1024 + 1 * p.val = 1024 * (t.val / 8) + p.val; omega
    | ⟨1, _⟩ => show win0_3.index t (1 : Fin 2) * 1152 + 1 * j.val = j.val; omega
  show outAt V c t (ix2 p j) = tOf (arrX V c) (arrVc V c) (arrSc V c) (((cfg0.win 3).blk t).view.emb (ix2 p j))
  rw [hemb, out_last_apply V c t h7 p j]
  unfold sBlk
  rw [blk1_s_apply V c t j]
  show _ = (∑ n : Fin 4096, arrX V c (ix2 ⟨1024 * (t.val / 8) + p.val, hP⟩ n) * arrVc V c (ix2 j n)) * arrSc V c (ix2 (0 : Fin 1) j)
  refine congrArg (· * arrSc V c (ix2 (0 : Fin 1) j)) ?_
  rw [accAt_congr V c (show t.val = 8 * (t.val / 8) + 7 by omega) t.isLt (by omega),
    accAt_sum V c (t.val / 8) (by omega) p j ⟨1024 * (t.val / 8) + p.val, hP⟩ rfl 7 (by norm_num) (by omega)]
  exact Cert.RunningBlocks.range_eq_univ 4096 _ (term V c ⟨1024 * (t.val / 8) + p.val, hP⟩ j)
    (fun i => by unfold term; rw [dif_pos i.isLt])

/-- THE ARRAY t after the first launch is tOf of what the launch found. -/
theorem final1 (c : Dev nD) :
    (dat1 V c).arrAt 3 cfg0.N = tOf (arrX V c) (arrVc V c) (arrSc V c) :=
  (dat1 V c).arrAt_eq_of_cover 3 (tOf (arrX V c) (arrVc V c) (arrSc V c))
    (fun t hf => flushed1_eq V c t hf) cover1_t

end Cert.KernelIdeal.Hand

end
-- ==== Proof.Final2.lean ====
/-
  The second launch in closed form: the matrix it leaves is, entry by entry, the row of its first operand against
  the row of its second, summed over the 1152 joined positions.

  At a grid position the body's one whole store leaves the product of the position's two blocks; a block's entry
  (p, o) is the sum over j of the first block's row p times the second block's row o. The output block of position
  t = 4 q + r sits at rows 1024 q .. and columns 1024 r .. of the output, its first operand's block at rows 1024 q ..
  of the first operand and its second operand's block at rows 1024 r .. of the second; so what the position writes
  back is its block of ONE function of the two arrays the launch finds, and since the blocks cover the output the
  output ends holding that function.
-/
import proofs.«171262_j71159018160311_2_alg».proof.Proof.Stage2
import proofs.«171262_j71159018160311_2_alg».proof.Proof.BlockReads
import proofs.«171262_j71159018160311_2_alg».proof.Proof.PayloadRead

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## What the body leaves is the product of its two blocks -/

section AnyFloats

variable {F : FTy → Type} [FloatOps F]

/-- The whole-block rectangle starts at zero on both axes. -/
theorem zeroStart2 : (![0, 0] : Fin 2 → Nat) = fun _ => 0 := funext fun a => by fin_cases a <;> rfl

/-- One whole store of a payload of two whole loads leaves the payload of the two blocks themselves. -/
theorem prod2_eq (a b : Vec F S1024x1152 .bf16) : prod2 a b = k1_pay1 a b := by
  unfold prod2
  rw [View.canon_unit_zero zeroStart2]
  simp only [View.ld_unit_zero (S := S1024x1152) zeroStart2]

end AnyFloats

/-- On the extended reals: entry (p, o) is row p of the first block against row o of the second. -/
theorem prod2_apply (a b : Vec Ideal S1024x1152 .bf16) (p o : Fin 1024) :
    prod2 a b (ix2 p o) = ∑ j : Fin 1152, a (ix2 p j) * b (ix2 o j) := by
  rw [prod2_eq]
  exact HostSide.kpay1_apply a b p o

/-! ## The whole output -/

/-- Rows of T against rows of Uc: entry (P, O) is the sum over the joined axis of T P j * Uc O j. -/
def outOf (T : S16384x1152.Idx → EReal) (Uc : S4096x1152.Idx → EReal) : S16384x4096.Idx → EReal :=
  fun i => ∑ j : Fin 1152, T (ix2 (i 0) j) * Uc (ix2 (i 1) j)

/-- The same at an index given by its coordinates. -/
theorem outOf_apply (T : S16384x1152.Idx → EReal) (Uc : S4096x1152.Idx → EReal) (P : Fin 16384) (O : Fin 4096) :
    outOf T Uc (ix2 P O) = ∑ j : Fin 1152, T (ix2 P j) * Uc (ix2 O j) := rfl

section AtEntry

variable (V : (c : Dev nD) → (b : Ref sig .tc) → Buf (Elt Ideal) ((c : Thread nD τ).loc b))

/-- What position t writes back is its block of the rows-against-rows function of the two arrays the launch finds. -/
theorem flushed2_eq (c : Dev nD) (t : Fin cfg1.N) :
    (dat2 V c).flushed 2 t
      = ((cfg1.win 2).blk t).view.read (Elt Ideal) (outOf (V c main_v13) (V c main_v11)) := by
  show (cfg1.win 2).cut (grid1.coords t) ((dat2 V c).after 2 t) = _
  rw [dat2_after_o]
  funext y
  obtain ⟨p, o, rfl⟩ : ∃ (p o : Fin 1024), y = ix2 p o := ⟨y 0, y 1, eq_ix2 y⟩
  have hN : cfg1.N = 64 := N_1
  have ht : t.val < 64 := hN ▸ t.isLt
  -- where the block's entry (p, o) sits in the output
  have hemb : ((cfg1.win 2).blk t).view.emb (ix2 p o)
      = ix2 (⟨1024 * (t.val / 4) + p.val, by omega⟩ : Fin 16384) (⟨1024 * (t.val % 4) + o.val, by omega⟩ : Fin 4096) := by
    obtain ⟨-, -, -, -, e0, e1⟩ := index2 t
    funext a; apply Fin.ext
    match a with
    | ⟨0, _⟩ => show win1_2.index t (0 : Fin 2) * 1024 + 1 * p.val = 1024 * (t.val / 4) + p.val; omega
    | ⟨1, _⟩ => show win1_2.index t (1 : Fin 2) * 1024 + 1 * o.val = 1024 * (t.val % 4) + o.val; omega
  show prod2 (blk2 V c 0 t) (blk2 V c 1 t) (ix2 p o)
      = outOf (V c main_v13) (V c main_v11) (((cfg1.win 2).blk t).view.emb (ix2 p o))
  refine (prod2_apply (blk2 V c 0 t) (blk2 V c 1 t) p o).trans ?_
  refine Eq.trans ?_ (congrArg (outOf (V c main_v13) (V c main_v11)) hemb.symm)
  rw [outOf_apply]
  refine Finset.sum_congr rfl fun j _ => ?_
  rw [blk2_t_apply V c t p j ⟨1024 * (t.val / 4) + p.val, by omega⟩ rfl,
    blk2_u_apply V c t o j ⟨1024 * (t.val % 4) + o.val, by omega⟩ rfl]

/-- The output after the second launch: rows of what it finds in its first operand against rows of its second. -/
theorem final2 (c : Dev nD) : (dat2 V c).arrAt 2 cfg1.N = outOf (V c main_v13) (V c main_v11) :=
  (dat2 V c).arrAt_eq_of_cover 2 (outOf (V c main_v13) (V c main_v11)) (fun t _ => flushed2_eq V c t) cover2_o

end AtEntry

end Cert.KernelIdeal.Hand

end
-- ==== Proof.HostStages.lean ====
/-
  What the host computes around the two kernel launches, as terms of the argument arrays.

  Before the first launch the host lays the seven arguments out for the factored evaluation: the batch of rows
  [4, 4096, 4096] is re-read as one matrix [16384, 4096]; the two right factors are stacked by rows and sixty-four
  rows of the converted integer zero are added below; the two left factors are joined by columns and sixty-four such
  columns are added; and the scale (w * w) * mk is followed by sixty-four copies of the constant word and sixty-four
  copies of the converted integer zero, as one row [1, 1152]. After the second launch the matrix [16384, 4096] it
  leaves is re-read as [4, 4096, 4096]. Each buffer that a launch finds is, by the run of the host operations in order, one
  composed term of the launch contents of the arguments; this file states those terms and nothing about their
  values at an index.
-/
import proofs.«171262_j71159018160311_2_alg».proof.Proof.Gen.KernelIdeal.Regions
import Idealize.ShloMosaic.PureOps.Ideal

noncomputable section

namespace Cert.KernelIdeal.HostSide

open Idealize.ShloMosaic Idealize.ShloMosaic.TcCoe Idealize.SL.Sem

/-- The joined rows as one term of the two argument matrices: the rows of the first above those of the second,
    sixty-four rows of the converted integer zero below, the change of format last. -/
def rowsTerm (A3 : FVec Ideal S1024x4096 .f32) (A5 : FVec Ideal S64x4096 .f32) : FVec Ideal S1152x4096 .bf16 :=
  truncf .bf16 (pad S1152x4096 ![0, 0] ![64, 0] ![0, 0]
    (concatenate S1088x4096 0 [⟨S1024x4096, A3⟩, ⟨S64x4096, A5⟩] Gen.concatenates_S1024x4096_S64x4096_S1088x4096_d0)
    (sitofp (F := Ideal) .f32 (constantI S_ 32 0#32)) Gen.pads_S1088x4096_S1152x4096_0640_000 Gen.h_S_) Gen.bitsLt_bf16_f32

/-- The joined columns as one term of the two argument matrices: the columns of the first, then those of the second,
    then sixty-four columns of the converted integer zero, the change of format last. -/
def colsTerm (A2 : FVec Ideal S4096x1024 .f32) (A4 : FVec Ideal S4096x64 .f32) : FVec Ideal S4096x1152 .bf16 :=
  truncf .bf16 (pad S4096x1152 ![0, 0] ![0, 64] ![0, 0]
    (concatenate S4096x1088 1 [⟨S4096x1024, A2⟩, ⟨S4096x64, A4⟩] Gen.concatenates_S4096x1024_S4096x64_S4096x1088_d1)
    (sitofp (F := Ideal) .f32 (constantI S_ 32 0#32)) Gen.pads_S4096x1088_S4096x1152_000_0640 Gen.h_S_) Gen.bitsLt_bf16_f32

/-- The joined scale as one term of the two argument vectors: (w * w) * mk, then sixty-four copies of the constant
    word, then sixty-four copies of the converted integer zero, laid out as one row. -/
def scaleTerm (A1 A6 : FVec Ideal S1024 .f32) : FVec Ideal S1x1152 .f32 :=
  shapeCast S1x1152 (pad S1152 ![0] ![64] ![0]
    (concatenate S1088 0 [⟨S1024, mulf (mulf A1 A1) A6⟩,
      ⟨S64, broadcastInDim S64 ![] Gen.bcast_S_S64 (constant (F := Ideal) S_ .f32 0x3F800000#32)⟩] Gen.concatenates_S1024_S64_S1088_d0)
    (sitofp (F := Ideal) .f32 (constantI S_ 32 0#32)) Gen.pads_S1088_S1152_0640 Gen.h_S_) Gen.shapeCasts_S1152_S1x1152

variable (m : (ℓ : Loc nD τ sig) → Buf (Elt Ideal) ℓ) (c : Dev nD)

/-- The matrix of rows the first launch finds is the batch argument re-read row-major. -/
theorem v12_term : (Gen.V7 (F := Ideal) m c main_v12 : S16384x4096.Idx → EReal)
    = shapeCast S16384x4096 (m ((c : Thread nD τ).loc main_arg0) : S4x4096x4096.Idx → EReal)
        Gen.shapeCasts_S4x4096x4096_S16384x4096 := by
  show StableHlo.after (Gen.hostOps0_6 (F := Ideal)) (Gen.V6 m c) (Proc.devRef .tc main_v12) = _
  after_results
  rfl

/-- The joined rows the first launch finds. -/
theorem v8_term : (Gen.V7 (F := Ideal) m c main_v8 : S1152x4096.Idx → EReal)
    = rowsTerm (m ((c : Thread nD τ).loc main_arg3)) (m ((c : Thread nD τ).loc main_arg5)) := by
  show StableHlo.after (Gen.hostOps0_6 (F := Ideal)) (Gen.V6 m c) (Proc.devRef .tc main_v8) = _
  after_results
  rfl

/-- The joined scale the first launch finds. -/
theorem v5_term : (Gen.V7 (F := Ideal) m c main_v5 : S1x1152.Idx → EReal)
    = scaleTerm (m ((c : Thread nD τ).loc main_arg1)) (m ((c : Thread nD τ).loc main_arg6)) := by
  show StableHlo.after (Gen.hostOps0_6 (F := Ideal)) (Gen.V6 m c) (Proc.devRef .tc main_v5) = _
  after_results
  rfl

/-- The joined columns as the host leaves them before the first launch. -/
theorem v11_term : (Gen.V7 (F := Ideal) m c main_v11 : S4096x1152.Idx → EReal)
    = colsTerm (m ((c : Thread nD τ).loc main_arg2)) (m ((c : Thread nD τ).loc main_arg4)) := by
  show StableHlo.after (Gen.hostOps0_6 (F := Ideal)) (Gen.V6 m c) (Proc.devRef .tc main_v11) = _
  after_results
  rfl

/-- The last host operation re-reads the second launch's matrix row-major, whatever the buffers hold. -/
theorem tail_term (W : Valuation τ sig (Elt Ideal)) :
    (StableHlo.after (Gen.hostOps2 (F := Ideal)) W main_v15 : S4x4096x4096.Idx → EReal)
      = shapeCast S4x4096x4096 (W main_v14 : S16384x4096.Idx → EReal) Gen.shapeCasts_S16384x4096_S4x4096x4096 := by
  show StableHlo.after (Gen.hostOps2 (F := Ideal)) W (Proc.devRef .tc main_v15) = _
  after_results
  rfl

/-- The first launch does not touch the joined columns. -/
theorem V8_main_v11 (outs : Gen.Outs (F := Ideal)) : Gen.V8 m outs c main_v11 = Gen.V7 m c main_v11 :=
  Gen.V8_of m outs c main_v11 (by decide)

/-- After the first launch its output buffer holds what the launch left there. -/
theorem V8_main_v13 (outs : Gen.Outs (F := Ideal)) : Gen.V8 m outs c main_v13 = outs 8 main_v13 c := by
  show Function.update (Gen.V7 m c) (Proc.devRef .tc main_v13) (outs 8 main_v13 c) (Proc.devRef .tc main_v13) = _
  exact Function.update_self ..

/-- After the second launch its output buffer holds what the launch left there. -/
theorem V9_main_v14 (outs : Gen.Outs (F := Ideal)) : Gen.V9 m outs c main_v14 = outs 9 main_v14 c := by
  show Function.update (Gen.V8 m outs c) (Proc.devRef .tc main_v14) (outs 9 main_v14 c) (Proc.devRef .tc main_v14) = _
  exact Function.update_self ..

end Cert.KernelIdeal.HostSide

end
-- ==== Proof.Factored.lean ====
/-
  A linear map given in factored form.  The weight matrix is
      W o i = (sum over r of (U o r * s r) * Vh r i) + (sum over a of Ua o a * Va a i),   s r = (w r * w r) * mk r,
  and the map sends a row x to  sum over i of x i * W o i.  The factored evaluation joins the two inner axes
  (1024 and 64 long) into one axis of length 1152 = 1024 + 64 + 64, the last 64 positions holding zeros:
      sum over j of ((sum over i of x i * Vc j i) * sc j) * Uc j,
  where on the joined axis  sc  is s, then ones, then zeros;  Vc  is the rows of Vh, then of Va, then zero rows;
  Uc  is the entries of row o of U, then of Ua, then zeros.  This file only fixes these functions on the
  extended reals; that the two evaluations agree for real entries is proved elsewhere.
-/
import Idealize.ShloMosaic.Lib.ValueIdx

noncomputable section

open scoped BigOperators

namespace Cert.Factored

/-- The scale on the joined axis: (w r * w r) * mk r on the first 1024 positions, one on the next 64, zero on the last 64. -/
def scale (w mk : Fin 1024 → EReal) (j : Fin 1152) : EReal :=
  if h : j.val < 1024 then (w ⟨j.val, h⟩ * w ⟨j.val, h⟩) * mk ⟨j.val, h⟩ else if j.val < 1088 then 1 else 0

/-- The right factor's rows on the joined axis: the rows of Vh, then the rows of Va, then zero rows. -/
def rows (Vh : Fin 1024 → Fin 4096 → EReal) (Va : Fin 64 → Fin 4096 → EReal) (j : Fin 1152) (i : Fin 4096) : EReal :=
  if h : j.val < 1024 then Vh ⟨j.val, h⟩ i
  else if h2 : j.val < 1088 then Va ⟨j.val - 1024, by omega⟩ i else 0

/-- The left factor's columns on the joined axis: the columns of U, then those of Ua, then zero columns. -/
def cols (U : Fin 4096 → Fin 1024 → EReal) (Ua : Fin 4096 → Fin 64 → EReal) (o : Fin 4096) (j : Fin 1152) : EReal :=
  if h : j.val < 1024 then U o ⟨j.val, h⟩
  else if h2 : j.val < 1088 then Ua o ⟨j.val - 1024, by omega⟩ else 0

/-- One output entry in factored form, for a row x, a scale, the joined rows and one joined column vector. -/
def factored (x : Fin 4096 → EReal) (sc : Fin 1152 → EReal) (Vc : Fin 1152 → Fin 4096 → EReal) (Uc : Fin 1152 → EReal) : EReal :=
  ∑ j : Fin 1152, ((∑ i : Fin 4096, x i * Vc j i) * sc j) * Uc j

/-- One output entry of the factored evaluation from the seven argument arrays, each as a curried function. -/
def entry (x : Fin 4096 → EReal) (w mk : Fin 1024 → EReal) (U : Fin 4096 → Fin 1024 → EReal) (Vh : Fin 1024 → Fin 4096 → EReal)
    (Ua : Fin 4096 → Fin 64 → EReal) (Va : Fin 64 → Fin 4096 → EReal) (o : Fin 4096) : EReal :=
  factored x (scale w mk) (rows Vh Va) (cols U Ua o)

/-- One output entry of the direct evaluation: the row against row o of the weight matrix. -/
def direct (x : Fin 4096 → EReal) (w mk : Fin 1024 → EReal) (U : Fin 4096 → Fin 1024 → EReal) (Vh : Fin 1024 → Fin 4096 → EReal)
    (Ua : Fin 4096 → Fin 64 → EReal) (Va : Fin 64 → Fin 4096 → EReal) (o : Fin 4096) : EReal :=
  ∑ i : Fin 4096, x i * ((∑ r : Fin 1024, (U o r * ((w r * w r) * mk r)) * Vh r i) + ∑ a : Fin 64, Ua o a * Va a i)

end Cert.Factored

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibStackedRows.lean ====
/-
  Two matrices stacked one above the other, read at an index.

  The concatenation of an `[a, n]` matrix `u` and a `[b, n]` matrix `v` along their rows is the `[c, n]` matrix whose rows
  `0 … a − 1` are `u`'s and whose rows `a … a + b − 1` are `v`'s, in order; the column passes through. (`c = a + b` is part
  of the hypothesis `h`; the statements never need it spelt out.)
-/
import Idealize.ShloMosaic.Lib.ValueIdx
import Idealize.ShloMosaic.Lib.Pipeline.Value

namespace Idealize.ShloMosaic.StackedRows

open Idealize.ShloMosaic Idealize.ShloMosaic.ValueIdx

variable {α : Type}

/-- Rows `[0, a)` of `u` stacked on `v` are `u`'s. -/
theorem rows_top {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin a) (hp : p.val = r.val) :
    concatenate (⟨2, ![c, n]⟩ : Shape) 0 [⟨⟨2, ![a, n]⟩, u⟩, ⟨⟨2, ![b, n]⟩, v⟩] h (ix2 r k) = u (ix2 p k) :=
  concatenate_pair_apply_left 0 u v h (ix2 r k) rfl (ix2 p k) (fun d => by
    match d with
    | ⟨0, _⟩ => exact hp
    | ⟨1, _⟩ => rfl)

/-- Rows `[a, a + b)` of `u` stacked on `v` are `v`'s, shifted by `a`. -/
theorem rows_bottom {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin b) (hp : p.val + a = r.val) :
    concatenate (⟨2, ![c, n]⟩ : Shape) 0 [⟨⟨2, ![a, n]⟩, u⟩, ⟨⟨2, ![b, n]⟩, v⟩] h (ix2 r k) = v (ix2 p k) :=
  concatenate_pair_apply_right 0 u v h (ix2 r k) rfl rfl (ix2 p k) (fun d hd => by
    match d with
    | ⟨0, _⟩ => exact absurd rfl hd
    | ⟨1, _⟩ => rfl) hp

end Idealize.ShloMosaic.StackedRows
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.HostRead.lean ====
/-
  What the host lays out for the two kernel launches, read at an index.

  The joined axis has 1152 = 1024 + 64 + 64 positions. At a position below 1024 a joined array reads the first of
  its two argument arrays there; from 1024 up to 1088 it reads the second at the position less 1024; from 1088 on it
  reads the padding value, the integer zero converted, which is the real zero. The scale reads (w * w) * mk on the
  first stretch, the constant word whose value is one on the second, and zero on the third. A re-reading of an
  array at another shape keeps every element's row-major position: row b * 4096 + s of the matrix of rows is the row
  (b, s) of the batch, before the first launch and after the second.
-/
import proofs.«171262_j71159018160311_2_alg».proof.Proof.HostStages
import proofs.«171262_j71159018160311_2_alg».proof.Proof.Factored
import proofs.«171262_j71159018160311_2_alg».proof.Proof.LibRowPairs
import proofs.«171262_j71159018160311_2_alg».proof.Proof.LibStackedRows
import proofs.«171262_j71159018160311_2_alg».proof.Proof.LibConcatPair
import proofs.«171262_j71159018160311_2_alg».proof.Proof.LibWords
import Idealize.ShloMosaic.Lib.KernelVsHost

noncomputable section

namespace Cert.KernelIdeal.HostSide

open Idealize.ShloMosaic Idealize.ShloMosaic.TcCoe Idealize.ShloMosaic.ValueIdx Idealize.SL.Sem

/-! ## The composed terms at an index, over any argument arrays -/

/-- The padding value: the integer zero converted is the real zero. -/
theorem padValue_eq_zero :
    (sitofp (F := Ideal) .f32 (constantI S_ 32 0#32) : FVec Ideal S_ .f32) (Shape.Idx.first Gen.h_S_) = 0 :=
  sitofp_zero

/-- The joined rows at row j and column i. -/
theorem rowsTerm_apply (A3 : FVec Ideal S1024x4096 .f32) (A5 : FVec Ideal S64x4096 .f32) (j : Fin 1152) (i : Fin 4096) :
    rowsTerm A3 A5 (ix2 j i) = Cert.Factored.rows (fun r i => A3 (ix2 r i)) (fun a i => A5 (ix2 a i)) j i := by
  unfold rowsTerm Cert.Factored.rows
  rw [truncf_apply]
  by_cases h1 : j.val < 1024
  · rw [dif_pos h1]
    have hj : j.val < 1088 := by omega
    refine (pad_apply_of_inside _ _ _ _ _ Gen.pads_S1088x4096_S1152x4096_0640_000 Gen.h_S_ (ix2 j i)
      (ix2 (⟨j.val, hj⟩ : Fin 1088) i) (fun a => ?_)).trans ?_
    · match a with
      | ⟨0, _⟩ => show j.val = 0 + j.val * (0 + 1); omega
      | ⟨1, _⟩ => show i.val = 0 + i.val * (0 + 1); omega
    · exact StackedRows.rows_top A3 A5 _ (⟨j.val, hj⟩ : Fin 1088) i ⟨j.val, h1⟩ rfl
  · rw [dif_neg h1]
    by_cases h2 : j.val < 1088
    · rw [dif_pos h2]
      refine (pad_apply_of_inside _ _ _ _ _ Gen.pads_S1088x4096_S1152x4096_0640_000 Gen.h_S_ (ix2 j i)
        (ix2 (⟨j.val, h2⟩ : Fin 1088) i) (fun a => ?_)).trans ?_
      · match a with
        | ⟨0, _⟩ => show j.val = 0 + j.val * (0 + 1); omega
        | ⟨1, _⟩ => show i.val = 0 + i.val * (0 + 1); omega
      · exact StackedRows.rows_bottom A3 A5 _ (⟨j.val, h2⟩ : Fin 1088) i ⟨j.val - 1024, by omega⟩ (by show j.val - 1024 + 1024 = j.val; omega)
    · rw [dif_neg h2]
      refine (pad_apply_of_not_inside _ _ _ _ _ Gen.pads_S1088x4096_S1152x4096_0640_000 Gen.h_S_ (ix2 j i) (0 : Fin 2) (fun h => ?_)).trans
        padValue_eq_zero
      have h3 : (j.val - 0) / (0 + 1) < 1088 := h.2.2
      omega

/-- The joined columns at row o and column j. -/
theorem colsTerm_apply (A2 : FVec Ideal S4096x1024 .f32) (A4 : FVec Ideal S4096x64 .f32) (o : Fin 4096) (j : Fin 1152) :
    colsTerm A2 A4 (ix2 o j) = Cert.Factored.cols (fun o r => A2 (ix2 o r)) (fun o a => A4 (ix2 o a)) o j := by
  unfold colsTerm Cert.Factored.cols
  rw [truncf_apply]
  by_cases h1 : j.val < 1024
  · rw [dif_pos h1]
    have hj : j.val < 1088 := by omega
    refine (pad_apply_of_inside _ _ _ _ _ Gen.pads_S4096x1088_S4096x1152_000_0640 Gen.h_S_ (ix2 o j)
      (ix2 o (⟨j.val, hj⟩ : Fin 1088)) (fun a => ?_)).trans ?_
    · match a with
      | ⟨0, _⟩ => show o.val = 0 + o.val * (0 + 1); omega
      | ⟨1, _⟩ => show j.val = 0 + j.val * (0 + 1); omega
    · exact ConcatPair.cols_left A2 A4 _ o (⟨j.val, hj⟩ : Fin 1088) ⟨j.val, h1⟩ rfl
  · rw [dif_neg h1]
    by_cases h2 : j.val < 1088
    · rw [dif_pos h2]
      refine (pad_apply_of_inside _ _ _ _ _ Gen.pads_S4096x1088_S4096x1152_000_0640 Gen.h_S_ (ix2 o j)
        (ix2 o (⟨j.val, h2⟩ : Fin 1088)) (fun a => ?_)).trans ?_
      · match a with
        | ⟨0, _⟩ => show o.val = 0 + o.val * (0 + 1); omega
        | ⟨1, _⟩ => show j.val = 0 + j.val * (0 + 1); omega
      · exact ConcatPair.cols_right A2 A4 _ o (⟨j.val, h2⟩ : Fin 1088) ⟨j.val - 1024, by omega⟩ (by show j.val - 1024 + 1024 = j.val; omega)
    · rw [dif_neg h2]
      refine (pad_apply_of_not_inside _ _ _ _ _ Gen.pads_S4096x1088_S4096x1152_000_0640 Gen.h_S_ (ix2 o j) (1 : Fin 2) (fun h => ?_)).trans
        padValue_eq_zero
      have h3 : (j.val - 0) / (0 + 1) < 1088 := h.2.2
      omega

/-- The constant word of the middle stretch of the scale is the real number one. -/
theorem onesValue_eq_one (q : Fin 64) :
    (broadcastInDim S64 ![] Gen.bcast_S_S64 (constant (F := Ideal) S_ .f32 0x3F800000#32) : FVec Ideal S64 .f32) (ix1 q) = 1 := by
  show Ideal.ofBits .f32 0x3F800000#32 = 1
  rw [Cert.Proof.Words.ofBits_f32_one]
  exact EReal.coe_one

/-- The joined scale, as one row, at position j. -/
theorem scaleTerm_apply (A1 A6 : FVec Ideal S1024 .f32) (j : Fin 1152) :
    scaleTerm A1 A6 (ix2 (0 : Fin 1) j) = Cert.Factored.scale (fun r => A1 (ix1 r)) (fun r => A6 (ix1 r)) j := by
  unfold scaleTerm Cert.Factored.scale
  refine (shapeCast_apply _ Gen.shapeCasts_S1152_S1x1152 (ix2 (0 : Fin 1) j) (ix1 j) (by
    rw [Shape.rowMajor_val_one, Shape.rowMajor_val_two]
    show j.val = 0 * 1152 + j.val
    omega)).trans ?_
  by_cases h1 : j.val < 1024
  · rw [dif_pos h1]
    have hj : j.val < 1088 := by omega
    refine (pad_apply_of_inside _ _ _ _ _ Gen.pads_S1088_S1152_0640 Gen.h_S_ (ix1 j)
      (ix1 (⟨j.val, hj⟩ : Fin 1088)) (fun a => ?_)).trans ?_
    · match a with
      | ⟨0, _⟩ => show j.val = 0 + j.val * (0 + 1); omega
    · exact ConcatPair.vec_left _ _ _ (⟨j.val, hj⟩ : Fin 1088) ⟨j.val, h1⟩ rfl
  · rw [dif_neg h1]
    by_cases h2 : j.val < 1088
    · rw [if_pos h2]
      refine (pad_apply_of_inside _ _ _ _ _ Gen.pads_S1088_S1152_0640 Gen.h_S_ (ix1 j)
        (ix1 (⟨j.val, h2⟩ : Fin 1088)) (fun a => ?_)).trans ?_
      · match a with
        | ⟨0, _⟩ => show j.val = 0 + j.val * (0 + 1); omega
      · exact (ConcatPair.vec_right _ _ _ (⟨j.val, h2⟩ : Fin 1088) ⟨j.val - 1024, by omega⟩ (by show j.val - 1024 + 1024 = j.val; omega)).trans
          (onesValue_eq_one _)
    · rw [if_neg h2]
      refine (pad_apply_of_not_inside _ _ _ _ _ Gen.pads_S1088_S1152_0640 Gen.h_S_ (ix1 j) (0 : Fin 1) (fun h => ?_)).trans
        padValue_eq_zero
      have h3 : (j.val - 0) / (0 + 1) < 1088 := h.2.2
      omega

/-! ## The buffers the launches find, at an index -/

variable (m : (ℓ : Loc nD τ sig) → Buf (Elt Ideal) ℓ) (c : Dev nD)

/-- Row b * 4096 + s of the matrix of rows the first launch finds is row (b, s) of the batch argument. -/
theorem x2d_apply (p : Fin 16384) (b : Fin 4) (s : Fin 4096) (i : Fin 4096) (hp : p.val = b.val * 4096 + s.val) :
    (Gen.V7 (F := Ideal) m c main_v12 : S16384x4096.Idx → EReal) (ix2 p i)
      = (m ((c : Thread nD τ).loc main_arg0) : S4x4096x4096.Idx → EReal) (ix3 b s i) := by
  rw [v12_term]
  exact RowPairs.shapeCast_abc_nc_apply _ _ b s i p hp

/-- The joined rows the first launch finds, entry by entry. -/
theorem rows_apply (j : Fin 1152) (i : Fin 4096) :
    (Gen.V7 (F := Ideal) m c main_v8 : S1152x4096.Idx → EReal) (ix2 j i)
      = Cert.Factored.rows (fun r i => (m ((c : Thread nD τ).loc main_arg3) : S1024x4096.Idx → EReal) (ix2 r i))
          (fun a i => (m ((c : Thread nD τ).loc main_arg5) : S64x4096.Idx → EReal) (ix2 a i)) j i := by
  rw [v8_term]
  exact rowsTerm_apply _ _ j i

/-- The joined scale the first launch finds, entry by entry. -/
theorem scale_apply (j : Fin 1152) :
    (Gen.V7 (F := Ideal) m c main_v5 : S1x1152.Idx → EReal) (ix2 (0 : Fin 1) j)
      = Cert.Factored.scale (fun r => (m ((c : Thread nD τ).loc main_arg1) : S1024.Idx → EReal) (ix1 r))
          (fun r => (m ((c : Thread nD τ).loc main_arg6) : S1024.Idx → EReal) (ix1 r)) j := by
  rw [v5_term]
  exact scaleTerm_apply _ _ j

/-- The joined columns as the host leaves them, entry by entry. -/
theorem cols_apply (o : Fin 4096) (j : Fin 1152) :
    (Gen.V7 (F := Ideal) m c main_v11 : S4096x1152.Idx → EReal) (ix2 o j)
      = Cert.Factored.cols (fun o r => (m ((c : Thread nD τ).loc main_arg2) : S4096x1024.Idx → EReal) (ix2 o r))
          (fun o a => (m ((c : Thread nD τ).loc main_arg4) : S4096x64.Idx → EReal) (ix2 o a)) o j := by
  rw [v11_term]
  exact colsTerm_apply _ _ o j

/-- The result, at (b, s, o), is row b * 4096 + s of the matrix the second launch's buffer holds, whatever the buffers hold. -/
theorem tail_apply (W : Valuation τ sig (Elt Ideal)) (p : Fin 16384) (b : Fin 4) (s : Fin 4096) (o : Fin 4096)
    (hp : p.val = b.val * 4096 + s.val) :
    (StableHlo.after (Gen.hostOps2 (F := Ideal)) W main_v15 : S4x4096x4096.Idx → EReal) (ix3 b s o)
      = (W main_v14 : S16384x4096.Idx → EReal) (ix2 p o) := by
  rw [tail_term]
  exact RowPairs.shapeCast_nc_abc_apply _ _ b s o p hp

/-- The result buffer at the end, at (b, s, o), is row b * 4096 + s of what the second launch left. -/
theorem out_apply (outs : Gen.Outs (F := Ideal)) (p : Fin 16384) (b : Fin 4) (s : Fin 4096) (o : Fin 4096)
    (hp : p.val = b.val * 4096 + s.val) :
    (Gen.V10 m outs c main_v15 : S4x4096x4096.Idx → EReal) (ix3 b s o)
      = (outs 9 main_v14 c : S16384x4096.Idx → EReal) (ix2 p o) := by
  have h := tail_apply (Gen.V9 m outs c) p b s o hp
  rw [V9_main_v14] at h
  exact h

end Cert.KernelIdeal.HostSide

end
-- ==== Proof.FactoredLaw.lean ====
/-
  The factored evaluation and the direct evaluation of the linear map agree when every entry is a real number.

  The joined axis of length 1152 splits into three runs: 1024 positions carrying the scaled low-rank factor,
  64 positions carrying the additional factor with scale one, and 64 positions of zeros.  The last run
  contributes nothing.  On the first two runs the claim is, over the reals,
      sum over r of ((sum over i of x i * V r i) * s r) * u r  =  sum over i of x i * (sum over r of (u r * s r) * V r i),
  which is distributivity and an exchange of the two finite sums.  Distributivity fails at infinities on the
  extended reals, which is why every entry is assumed real: the proof moves both sides into the reals first.
-/
import proofs.«171262_j71159018160311_2_alg».proof.Proof.Factored
import Mathlib

noncomputable section

open scoped BigOperators

namespace Cert.Factored

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the joined axis is the sum over its three runs 1024 + 64 + 64. -/
theorem sum_split {M : Type*} [AddCommMonoid M] (f : Fin 1152 → M) :
    ∑ j : Fin 1152, f j
      = (∑ r : Fin 1024, f ⟨r.val, by omega⟩) + (∑ a : Fin 64, f ⟨1024 + a.val, by omega⟩)
        + ∑ z : Fin 64, f ⟨1088 + z.val, by omega⟩ := by
  rw [show (∑ j : Fin 1152, f j) = ∑ j : Fin (1024 + 64 + 64), f j from rfl, Fin.sum_univ_add, Fin.sum_univ_add]
  rfl

section runs

variable (w mk : Fin 1024 → EReal) (U : Fin 4096 → Fin 1024 → EReal) (Vh : Fin 1024 → Fin 4096 → EReal)
  (Ua : Fin 4096 → Fin 64 → EReal) (Va : Fin 64 → Fin 4096 → EReal) (o i : Fin 4096)

theorem scale_lo (r : Fin 1024) (h : r.val < 1152) : scale w mk ⟨r.val, h⟩ = (w r * w r) * mk r := by
  unfold scale; dsimp only; rw [dif_pos r.isLt]

theorem scale_mid (a : Fin 64) (h : 1024 + a.val < 1152) : scale w mk ⟨1024 + a.val, h⟩ = 1 := by
  unfold scale; dsimp only; rw [dif_neg (by omega), if_pos (by omega)]

theorem scale_hi (z : Fin 64) (h : 1088 + z.val < 1152) : scale w mk ⟨1088 + z.val, h⟩ = 0 := by
  unfold scale; dsimp only; rw [dif_neg (by omega), if_neg (by omega)]

theorem rows_lo (r : Fin 1024) (h : r.val < 1152) : rows Vh Va ⟨r.val, h⟩ i = Vh r i := by
  unfold rows; dsimp only; rw [dif_pos r.isLt]

theorem rows_mid (a : Fin 64) (h : 1024 + a.val < 1152) : rows Vh Va ⟨1024 + a.val, h⟩ i = Va a i := by
  unfold rows; dsimp only; rw [dif_neg (by omega), dif_pos (by omega)]
  exact congrArg (fun k => Va k i) (Fin.ext (by simp))

theorem rows_hi (z : Fin 64) (h : 1088 + z.val < 1152) : rows Vh Va ⟨1088 + z.val, h⟩ i = 0 := by
  unfold rows; dsimp only; rw [dif_neg (by omega), dif_neg (by omega)]

theorem cols_lo (r : Fin 1024) (h : r.val < 1152) : cols U Ua o ⟨r.val, h⟩ = U o r := by
  unfold cols; dsimp only; rw [dif_pos r.isLt]

theorem cols_mid (a : Fin 64) (h : 1024 + a.val < 1152) : cols U Ua o ⟨1024 + a.val, h⟩ = Ua o a := by
  unfold cols; dsimp only; rw [dif_neg (by omega), dif_pos (by omega)]
  exact congrArg (fun k => Ua o k) (Fin.ext (by simp))

theorem cols_hi (z : Fin 64) (h : 1088 + z.val < 1152) : cols U Ua o ⟨1088 + z.val, h⟩ = 0 := by
  unfold cols; dsimp only; rw [dif_neg (by omega), dif_neg (by omega)]

end runs

/-- The law over the reals, for arbitrary finite index types: contracting the row against the right factor
first and the left factor afterwards gives the same number as contracting it against the product matrix. -/
theorem real_law {I R A : Type*} [Fintype I] [Fintype R] [Fintype A] (x : I → ℝ) (s u : R → ℝ) (V : R → I → ℝ)
    (ua : A → ℝ) (Va : A → I → ℝ) :
    (∑ r, ((∑ i, x i * V r i) * s r) * u r) + ∑ a, (∑ i, x i * Va a i) * ua a
      = ∑ i, x i * ((∑ r, (u r * s r) * V r i) + ∑ a, ua a * Va a i) := by
  simp only [mul_add, Finset.sum_add_distrib, Finset.mul_sum, Finset.sum_mul]
  congr 1
  · rw [Finset.sum_comm]
    exact Finset.sum_congr rfl fun i _ => Finset.sum_congr rfl fun r _ => by ring
  · rw [Finset.sum_comm]
    exact Finset.sum_congr rfl fun i _ => Finset.sum_congr rfl fun a _ => by ring

/-- The factored evaluation equals the direct one when all seven arrays hold real numbers. -/
theorem entry_eq_direct (x : Fin 4096 → EReal) (w mk : Fin 1024 → EReal) (U : Fin 4096 → Fin 1024 → EReal)
    (Vh : Fin 1024 → Fin 4096 → EReal) (Ua : Fin 4096 → Fin 64 → EReal) (Va : Fin 64 → Fin 4096 → EReal) (o : Fin 4096)
    (hx : ∀ i, ∃ r : ℝ, x i = (r : EReal)) (hw : ∀ r, ∃ t : ℝ, w r = (t : EReal))
    (hmk : ∀ r, ∃ t : ℝ, mk r = (t : EReal)) (hU : ∀ o r, ∃ t : ℝ, U o r = (t : EReal))
    (hVh : ∀ r i, ∃ t : ℝ, Vh r i = (t : EReal)) (hUa : ∀ o a, ∃ t : ℝ, Ua o a = (t : EReal))
    (hVa : ∀ a i, ∃ t : ℝ, Va a i = (t : EReal)) :
    entry x w mk U Vh Ua Va o = direct x w mk U Vh Ua Va o := by
  choose x' hx using hx
  choose w' hw using hw
  choose mk' hmk using hmk
  choose U' hU using hU
  choose Vh' hVh using hVh
  choose Ua' hUa using hUa
  choose Va' hVa using hVa
  unfold entry factored direct
  rw [sum_split]
  simp only [scale_lo, scale_mid, scale_hi, rows_lo, rows_mid, rows_hi, cols_lo, cols_mid, cols_hi,
    mul_zero, Finset.sum_const_zero, add_zero, mul_one]
  simp only [hx, hw, hmk, hU, hVh, hUa, hVa, ← EReal.coe_mul, ← coe_sum, ← EReal.coe_add]
  exact congrArg Real.toEReal (real_law x' (fun r => (w' r * w' r) * mk' r) (U' o) Vh' (Ua' o) Va')

end Cert.Factored

end
-- ==== Proof.FiniteArgs.lean ====
/-
  From the precondition to "every entry is a real number".

  The precondition says, of each of the seven argument arrays, that every entry x satisfies |x| < +infinity,
  where |x| is the greater of x and -x and +infinity is written as the 32-bit word 0x7F800000; the seven
  statements are joined by "and", each being an "and" over all entries of its array.  An extended real x
  with max x (-x) < +infinity is neither infinity (for either of them that maximum is +infinity), so it is a
  real number.  Many algebraic laws, distributivity among them, hold for real numbers but fail at an infinity;
  this is the fact that lets such a law be applied to the arrays' entries.
-/
import proofs.«171262_j71159018160311_2_alg».proof.Pre_finite_inputs
import Idealize.ShloMosaic.Lib.ReduceAll
import Idealize.ShloMosaic.Lib.ValueIdx
import Idealize.ShloMosaic.PureOps.Ideal
import Mathlib

noncomputable section

namespace Cert.FiniteArgs

open Idealize.ShloMosaic Cert.Pre_finite_inputs

/-- The shape with no axes has exactly one index. -/
instance : Subsingleton S_.Idx := ⟨fun a b => funext fun d => d.elim0⟩

/-- The word 0x7F800000 (exponent field all ones, significand zero, sign clear) denotes +infinity. -/
theorem top_word : Ideal.ofBits .f32 0x7F800000#32 = (⊤ : EReal) := by simp [Ideal.ofBits, Ideal.ieee]

/-- An ordered "less than" comparison that answers 1 says its left side is smaller. -/
theorem lt_of_cmp_olt {x y : EReal} (h : Ideal.cmp .olt x y = 1#1) : x < y := by
  unfold Ideal.cmp at h
  by_contra hn
  simp [hn] at h

/-- An extended real whose absolute value is below +infinity is a real number. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- One array: if "|x| < +infinity" holds at every entry (the "and" over all entries is 1), every entry is real. -/
theorem real_of_all {S : Shape} {axes : List (Fin S.rank)} (a : FVec Ideal S .f32)
    (hb : S_.BroadcastsInDim S (![] : Fin 0 → Fin S.rank)) (hr : S.ReducesTo axes S_) (hu : 0 < S_.numel)
    (h : Host.reduce IntOp.andi
          (cmpf .olt (Host.absf a) (broadcastInDim S ![] hb (constant (F := Ideal) S_ .f32 0x7F800000#32)))
          (constantI S_ 1 1#1) hr hu ValueIdx.ix0 = 1#1)
    (i : S.Idx) : ∃ r : ℝ, a i = (r : EReal) := by
  have hi := Host.reduce_andi_all _ _ hr hu ValueIdx.ix0 h i
  have hc : Ideal.cmp .olt (max (a i) (-(a i))) (Ideal.ofBits .f32 0x7F800000#32) = 1#1 := hi
  have hlt := lt_of_cmp_olt hc
  rw [top_word] at hlt
  exact real_of_abs_lt_top _ hlt

/-- All seven arrays: under the precondition every entry of every argument array is a real number. -/
theorem all_real [Cert.Pre_finite_inputs.Facts] (a0 : FVec Ideal Cert.Pre_finite_inputs.S4x4096x4096 .f32)
    (a1 : FVec Ideal Cert.Pre_finite_inputs.S1024 .f32) (a2 : FVec Ideal Cert.Pre_finite_inputs.S4096x1024 .f32)
    (a3 : FVec Ideal Cert.Pre_finite_inputs.S1024x4096 .f32) (a4 : FVec Ideal Cert.Pre_finite_inputs.S4096x64 .f32)
    (a5 : FVec Ideal Cert.Pre_finite_inputs.S64x4096 .f32) (a6 : FVec Ideal Cert.Pre_finite_inputs.S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1, andi] at h0
  simp only [IntOp.andi_eq_one] at h0
  obtain ⟨⟨⟨⟨⟨⟨e0, e1⟩, e2⟩, e3⟩, e4⟩, e5⟩, e6⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.FiniteArgs

end
-- ==== Proof.KernelValue.lean ====
/-
  The idealized kernel's result, entry by entry.  Reading the fold of contents backwards from the result array:
  the closing reshape takes entry (b, s, o) from row P = 4096·b + s, column o of the second launch's array; that is
  the sum over the joined axis of t P j * Uc o j; t P j is (the inner product of row P of x with row j of Vc) times
  sc j; and the host operations before the launches make x the input with its two leading axes merged, Vc the rows
  of Vh, then of the added right factor, then zero rows, sc the squared weights times the mask, then ones, then
  zeros, and Uc the columns of U, then of the added left factor, then zero columns.  Together: the factored
  evaluation of the linear map.  With every argument entry a real number this is the direct evaluation.
-/
import proofs.«171262_j71159018160311_2_alg».proof.Proof.Final1
import proofs.«171262_j71159018160311_2_alg».proof.Proof.Final2
import proofs.«171262_j71159018160311_2_alg».proof.Proof.HostRead
import proofs.«171262_j71159018160311_2_alg».proof.Proof.RunPosts
import proofs.«171262_j71159018160311_2_alg».proof.Proof.FactoredLaw
import proofs.«171262_j71159018160311_2_alg».proof.Proof.FiniteArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.HostSide

variable (m : (ℓ : Loc nD τ sig) → Buf (Elt Ideal) ℓ)

/-- Entry (b, s, o) of the result array is the factored evaluation at row (b, s) of the input and output column o. -/
theorem result_apply (c : Dev nD) (b : Fin 4) (s o : Fin 4096) :
    (W10 m c main_v15 : S4x4096x4096.Idx → EReal) (ix3 b s o)
      = Cert.Factored.entry
          (fun i => (m ((c : Thread nD τ).loc main_arg0) : S4x4096x4096.Idx → EReal) (ix3 b s i))
          (fun r => (m ((c : Thread nD τ).loc main_arg1) : S1024.Idx → EReal) (ix1 r))
          (fun r => (m ((c : Thread nD τ).loc main_arg6) : S1024.Idx → EReal) (ix1 r))
          (fun o r => (m ((c : Thread nD τ).loc main_arg2) : S4096x1024.Idx → EReal) (ix2 o r))
          (fun r i => (m ((c : Thread nD τ).loc main_arg3) : S1024x4096.Idx → EReal) (ix2 r i))
          (fun o a => (m ((c : Thread nD τ).loc main_arg4) : S4096x64.Idx → EReal) (ix2 o a))
          (fun a i => (m ((c : Thread nD τ).loc main_arg5) : S64x4096.Idx → EReal) (ix2 a i)) o := by
  have hP : b.val * 4096 + s.val < 16384 := by have := b.isLt; have := s.isLt; omega
  -- the closing reshape reads row P = 4096·b + s of the second launch's array
  refine (tail_apply (W9 m c) ⟨b.val * 4096 + s.val, hP⟩ b s o rfl).trans ?_
  -- the second launch's array is the product of t and Uc
  have e2 : (W9 m c main_v14 : S16384x4096.Idx → EReal) = outOf (found2 m c main_v13) (found2 m c main_v11) :=
    (W9_arr m c 2).trans (final2 (found2 m) c)
  rw [e2, outOf_apply]
  -- t is the scaled product of x and Vc; Uc is as the host left it
  have e1 : (found2 m c main_v13 : S16384x1152.Idx → EReal)
      = tOf (arrX (found1 m) c) (arrVc (found1 m) c) (arrSc (found1 m) c) :=
    (W8_arr m c 3).trans (final1 (found1 m) c)
  have eU : (found2 m c main_v11 : S4096x1152.Idx → EReal) = (Gen.V7 m c main_v11 : S4096x1152.Idx → EReal) :=
    W8_off m c main_v11 (by decide)
  rw [e1, eU]
  unfold Cert.Factored.entry Cert.Factored.factored
  show @Eq EReal _ _
  refine Finset.sum_congr rfl fun j _ => ?_
  rw [cols_apply m c o j]
  refine congrArg (· * _) ?_
  show (∑ n : Fin 4096, arrX (found1 m) c (ix2 ⟨b.val * 4096 + s.val, hP⟩ n) * arrVc (found1 m) c (ix2 j n))
      * arrSc (found1 m) c (ix2 (0 : Fin 1) j) = _
  unfold arrX arrVc arrSc
  dsimp only [found1]
  rw [scale_apply m c j]
  refine congrArg (· * _) ?_
  refine Finset.sum_congr rfl fun n _ => ?_
  rw [x2d_apply m c ⟨b.val * 4096 + s.val, hP⟩ b s n rfl, rows_apply m c j n]

end Cert.KernelIdeal.Hand

end
-- ==== Proof.RefDirect.lean ====
/-
  The reference computes the direct evaluation.

  The reference forms the weight matrix  W o i = (sum over r of (U o r * ((w r * w r) * mk r)) * Vh r i)
  + (sum over a of Ua o a * Va a i)  and contracts the last axis of the input against the second axis of W:
  the entry at (b, s, o) of its result is  sum over i of x (b, s, i) * W o i.  Each stage of the reference is
  read at an index; the composed index maps of the three contractions and of the two broadcasts of the scale
  are identified with the plain coordinate constructors, and what is left is the direct form term by term.
-/
import proofs.«171262_j71159018160311_2_alg».proof.Proof.Gen.ReferenceIdeal.Read
import proofs.«171262_j71159018160311_2_alg».proof.Proof.Factored

noncomputable section

open scoped BigOperators

namespace Cert.RefBridge

open Cert.ReferenceIdeal Cert.ReferenceIdeal.Read Idealize.ShloMosaic Idealize.ShloMosaic.ValueIdx

/-! ## The composed index maps are the coordinate constructors -/

/-- The last contraction reads the input at (b, s, i). -/
theorem lidx8 (b : Fin 4) (s o i : Fin 4096) : lidx_main_v8 (ix3 b s o) i = ix3 b s i :=
  funext fun a => Fin.ext (by match a with | ⟨0, _⟩ => rfl | ⟨1, _⟩ => rfl | ⟨2, _⟩ => rfl)

/-- The last contraction reads the weight matrix at (o, i). -/
theorem ridx8 (b : Fin 4) (s o i : Fin 4096) : ridx_main_v8 (ix3 b s o) i = ix2 o i :=
  funext fun a => Fin.ext (by match a with | ⟨0, _⟩ => rfl | ⟨1, _⟩ => rfl)

/-- The low-rank contraction reads the scaled left factor at (o, r). -/
theorem lidx5 (o i : Fin 4096) (r : Fin 1024) : lidx_main_v5 (ix2 o i) r = ix2 o r :=
  funext fun a => Fin.ext (by match a with | ⟨0, _⟩ => rfl | ⟨1, _⟩ => rfl)

/-- The low-rank contraction reads the right factor at (r, i). -/
theorem ridx5 (o i : Fin 4096) (r : Fin 1024) : ridx_main_v5 (ix2 o i) r = ix2 r i :=
  funext fun a => Fin.ext (by match a with | ⟨0, _⟩ => rfl | ⟨1, _⟩ => rfl)

/-- The additional contraction reads its left factor at (o, a). -/
theorem lidx6 (o i : Fin 4096) (a : Fin 64) : lidx_main_v6 (ix2 o i) a = ix2 o a :=
  funext fun d => Fin.ext (by match d with | ⟨0, _⟩ => rfl | ⟨1, _⟩ => rfl)

/-- The additional contraction reads its right factor at (a, i). -/
theorem ridx6 (o i : Fin 4096) (a : Fin 64) : ridx_main_v6 (ix2 o i) a = ix2 a i :=
  funext fun d => Fin.ext (by match d with | ⟨0, _⟩ => rfl | ⟨1, _⟩ => rfl)

/-- The scale, broadcast along the rows, is read at (0, r). -/
theorem idx3 (o : Fin 4096) (r : Fin 1024) : idx_main_v3 (ix2 o r) = ix2 (0 : Fin 1) r :=
  funext fun a => Fin.ext (by match a with | ⟨0, _⟩ => rfl | ⟨1, _⟩ => rfl)

/-- The scale as a row is read at r. -/
theorem idx2 (r : Fin 1024) : idx_main_v2 (ix2 (0 : Fin 1) r) = ix1 r :=
  funext fun a => Fin.ext (by match a with | ⟨0, _⟩ => rfl)

/-! ## The reference at an index -/

section

variable (a0 : (⟨S4x4096x4096, .f32⟩ : BufTy).Contents (Elt Ideal)) (a1 : (⟨S1024, .f32⟩ : BufTy).Contents (Elt Ideal))
  (a2 : (⟨S4096x1024, .f32⟩ : BufTy).Contents (Elt Ideal)) (a3 : (⟨S1024x4096, .f32⟩ : BufTy).Contents (Elt Ideal))
  (a4 : (⟨S4096x64, .f32⟩ : BufTy).Contents (Elt Ideal)) (a5 : (⟨S64x4096, .f32⟩ : BufTy).Contents (Elt Ideal))
  (a6 : (⟨S1024, .f32⟩ : BufTy).Contents (Elt Ideal))

/-- One term of the low-rank contraction: the scaled left factor at (o, r) times the right factor at (r, i). -/
theorem lowrank_term (o i : Fin 4096) (r : Fin 1024) :
    val_main_v4 (F := Ideal) a1 a2 a6 (lidx_main_v5 (ix2 o i) r) * a3 (ridx_main_v5 (ix2 o i) r)
      = (a2 (ix2 o r) * ((a1 (ix1 r) * a1 (ix1 r)) * a6 (ix1 r))) * a3 (ix2 r i) := by
  rw [lidx5, ridx5, val_main_v4_apply, val_main_v3_apply, idx3, val_main_v2_apply, idx2, val_main_v1_apply,
    val_main_v0_apply]
  rfl

/-- One term of the additional contraction. -/
theorem additional_term (o i : Fin 4096) (a : Fin 64) :
    a4 (lidx_main_v6 (ix2 o i) a) * a5 (ridx_main_v6 (ix2 o i) a) = a4 (ix2 o a) * a5 (ix2 a i) := by
  rw [lidx6, ridx6]

/-- The weight matrix the reference forms, at (o, i). -/
theorem weight_at (o i : Fin 4096) :
    val_main_v7 (F := Ideal) a1 a2 a3 a4 a5 a6 (ix2 o i)
      = (∑ r : Fin 1024, (a2 (ix2 o r) * ((a1 (ix1 r) * a1 (ix1 r)) * a6 (ix1 r))) * a3 (ix2 r i))
        + ∑ a : Fin 64, a4 (ix2 o a) * a5 (ix2 a i) := by
  rw [val_main_v7_apply, val_main_v5_apply, val_main_v6_apply,
    Finset.sum_congr rfl (fun r _ => lowrank_term a1 a2 a3 a6 o i r),
    Finset.sum_congr rfl (fun a _ => additional_term a4 a5 o i a)]
  rfl

/-- The reference's result at (b, s, o) is the direct evaluation of row (b, s) of the input at o. -/
theorem ref_at (b : Fin 4) (s o : Fin 4096) :
    val_main_v8 (F := Ideal) a0 a1 a2 a3 a4 a5 a6 (ix3 b s o)
      = Cert.Factored.direct (fun i => a0 (ix3 b s i)) (fun r => a1 (ix1 r)) (fun r => a6 (ix1 r))
          (fun o r => a2 (ix2 o r)) (fun r i => a3 (ix2 r i)) (fun o a => a4 (ix2 o a)) (fun a i => a5 (ix2 a i)) o := by
  rw [val_main_v8_apply]
  unfold Cert.Factored.direct
  refine Finset.sum_congr rfl fun i _ => ?_
  rw [lidx8, ridx8, weight_at]

/-- The reference's result, as a whole array, is the direct evaluation index by index. -/
theorem ref_eq_direct :
    val_main_v8 (F := Ideal) a0 a1 a2 a3 a4 a5 a6
      = fun idx => Cert.Factored.direct (fun i => a0 (ix3 (idx 0) (idx 1) i)) (fun r => a1 (ix1 r)) (fun r => a6 (ix1 r))
          (fun o r => a2 (ix2 o r)) (fun r i => a3 (ix2 r i)) (fun o a => a4 (ix2 o a)) (fun a i => a5 (ix2 a i)) (idx 2) := by
  funext idx
  exact (congrArg (val_main_v8 (F := Ideal) a0 a1 a2 a3 a4 a5 a6) (eq_ix3 idx)).trans
    (ref_at a0 a1 a2 a3 a4 a5 a6 (idx 0) (idx 1) (idx 2))

end

end Cert.RefBridge

end
-- ==== Proof.lean ====
/-
  A linear map with a low-rank weight, W = (U · diag(w² · mask)) · Vh + Ua · Va, applied to every row of the input:
  out = x · Wᵀ.  The reference forms W and contracts the input with it.  The kernel never forms W: on the host it joins
  the two inner axes (1024 and 64 long) into one axis padded with zeros to 1152, and two launches evaluate
      t = (x · Vcᵀ) * sc      (accumulated over eight blocks of the contraction axis),      out = t · Ucᵀ.
  On the extended reals both are, entry by entry, finite sums of products of the arguments' entries; they are one
  function when every entry is a real number — which is the precondition — because a finite sum of reals can be
  regrouped and a factor moved across it, and a zero row contributes nothing.
  Frames: both readings of the kernel's program (words, and exact arithmetic) are one text; its run is followed item by
  item — seven stretches of host operations, the two launches with their per-point data (the first carrying its
  accumulator between points), the closing reshape — and ends with every argument array as launched.  The reference
  is a line of host operations.  The idealization rewrote nothing.
-/
import proofs.«171262_j71159018160311_2_alg».proof.Defs
import proofs.«171262_j71159018160311_2_alg».proof.Proof.Gen.Kernel
import proofs.«171262_j71159018160311_2_alg».proof.Proof.Gen.KernelIdeal
import proofs.«171262_j71159018160311_2_alg».proof.Proof.Gen.ReferenceIdeal
import proofs.«171262_j71159018160311_2_alg».proof.Proof.Gen.ReferenceIdeal.Run
import proofs.«171262_j71159018160311_2_alg».proof.Proof.Gen.ReferenceIdeal.Read
import proofs.«171262_j71159018160311_2_alg».proof.Proof.Gen.Pre_finite_inputs
import proofs.«171262_j71159018160311_2_alg».proof.Proof.KRunPosts
import proofs.«171262_j71159018160311_2_alg».proof.Proof.RunPosts
import proofs.«171262_j71159018160311_2_alg».proof.Proof.KernelValue
import proofs.«171262_j71159018160311_2_alg».proof.Proof.RefDirect
import proofs.«171262_j71159018160311_2_alg».proof.Proof.FiniteArgs
import proofs.«171262_j71159018160311_2_alg».proof.Proof.FactoredLaw
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program as printed runs to the end, faults nowhere and leaves its arguments as launched. -/
theorem frame_word : Cert.frame_Kernel := fun m ρ _ => Cert.Kernel.Hand.frame m ρ

/-- So does its reading in exact arithmetic. -/
theorem frame_exact : Cert.frame_KernelIdeal := fun m ρ _ => Cert.KernelIdeal.Hand.frame m ρ

/-- So does the reference: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The value both programs end with on core c: the direct evaluation, entry (b, s, o) from row (b, s) of the input. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v15) :=
  fun idx => Cert.Factored.direct
    (fun i => (m ((c.tc : Thread Cert.KernelIdeal.nD Cert.KernelIdeal.τ).loc Cert.KernelIdeal.main_arg0) : Cert.KernelIdeal.S4x4096x4096.Idx → EReal) (ix3 (idx 0) (idx 1) i))
    (fun r => (m ((c.tc : Thread Cert.KernelIdeal.nD Cert.KernelIdeal.τ).loc Cert.KernelIdeal.main_arg1) : Cert.KernelIdeal.S1024.Idx → EReal) (ix1 r))
    (fun r => (m ((c.tc : Thread Cert.KernelIdeal.nD Cert.KernelIdeal.τ).loc Cert.KernelIdeal.main_arg6) : Cert.KernelIdeal.S1024.Idx → EReal) (ix1 r))
    (fun o r => (m ((c.tc : Thread Cert.KernelIdeal.nD Cert.KernelIdeal.τ).loc Cert.KernelIdeal.main_arg2) : Cert.KernelIdeal.S4096x1024.Idx → EReal) (ix2 o r))
    (fun r i => (m ((c.tc : Thread Cert.KernelIdeal.nD Cert.KernelIdeal.τ).loc Cert.KernelIdeal.main_arg3) : Cert.KernelIdeal.S1024x4096.Idx → EReal) (ix2 r i))
    (fun o a => (m ((c.tc : Thread Cert.KernelIdeal.nD Cert.KernelIdeal.τ).loc Cert.KernelIdeal.main_arg4) : Cert.KernelIdeal.S4096x64.Idx → EReal) (ix2 o a))
    (fun a i => (m ((c.tc : Thread Cert.KernelIdeal.nD Cert.KernelIdeal.τ).loc Cert.KernelIdeal.main_arg5) : Cert.KernelIdeal.S64x4096.Idx → EReal) (ix2 a i)) (idx 2)

/-- Under the precondition the kernel's result array is the common value: its factored evaluation is the direct one
    because every argument entry is a real number. -/
theorem kernel_common (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.Hand.W10 m c Cert.KernelIdeal.main_v15 = common m c := by
  obtain ⟨h0, h1, h2, h3, h4, h5, h6⟩ := Cert.FiniteArgs.all_real _ _ _ _ _ _ _ (hpre c)
  funext idx
  obtain ⟨b, s, o, rfl⟩ : ∃ (b : Fin 4) (s o : Fin 4096), idx = ix3 b s o := ⟨idx 0, idx 1, idx 2, eq_ix3 idx⟩
  refine (Cert.KernelIdeal.Hand.result_apply m c b s o).trans ?_
  exact Cert.Factored.entry_eq_direct _ _ _ _ _ _ _ o (fun i => h0 (ix3 b s i)) (fun r => h1 (ix1 r)) (fun r => h6 (ix1 r))
    (fun o r => h2 (ix2 o r)) (fun r i => h3 (ix2 r i)) (fun o a => h4 (ix2 o a)) (fun a i => h5 (ix2 a i))

/-- At the exact instance, from memories agreeing on the arguments, both programs end with the common value. -/
theorem algebraic : Cert.algebraic_KernelIdeal_ReferenceIdeal := by
  intro m ρ m' ρ' hpre hagree
  refine ⟨common m, ?_, ?_⟩
  · exact (θ_run Cert.KernelIdeal.defs _ _).mono (fun r h c => ⟨(h c).1.trans (kernel_common m hpre c), (h c).2⟩)
      (Cert.KernelIdeal.Hand.run_named m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v8_eq, Cert.RefBridge.ref_eq_direct,
      (hagree c).1, (hagree c).2.1, (hagree c).2.2.1, (hagree c).2.2.2.1, (hagree c).2.2.2.2.1,
      (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_word, frame_exact, frame_ref, preserves, algebraic⟩

end Cert.Proof

end
